-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg9 : FVec F S32x64 .f32) (main_arg10 : FVec F S64 .f32) (main_arg11 : FVec F S64x32 .f32) (main_arg12 : FVec F S32 .f32) (main_v33 : IVec S_ 1) : IVec S_ 1 :=
  let main_v34 : FVec F S32x64 .f32 := Host.absf main_arg9
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg6 : FVec F S64 .f32) (main_arg7 : FVec F S64x32 .f32) (main_arg8 : FVec F S32 .f32) (main_arg9 : FVec F S32x64 .f32) (main_arg10 : FVec F S64 .f32) (main_arg11 : FVec F S64x32 .f32) (main_arg12 : FVec F S32 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x3200000 32) (main_arg2 : IVec S100000 32) (main_arg3 : FVec F S128x16 .f32) (main_arg4 : FVec F S16 .f32) (main_arg5 : FVec F S16x64 .f32) (main_arg6 : FVec F S64 .f32) (main_arg7 : FVec F S64x32 .f32) (main_arg8 : FVec F S32 .f32) (main_arg9 : FVec F S32x64 .f32) (main_arg10 : FVec F S64 .f32) (main_arg11 : FVec F S64x32 .f32) (main_arg12 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg5
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S1x3200000 : Shape := ⟨2, ![1, 3200000]⟩
abbrev S3200000 : Shape := ⟨1, ![3200000]⟩
abbrev S100000x1 : Shape := ⟨2, ![100000, 1]⟩
abbrev S_ : Shape := ⟨0, ![]⟩
abbrev S3200000x1 : Shape := ⟨2, ![3200000, 1]⟩
abbrev S64x1 : Shape := ⟨2, ![64, 1]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S3200000x16 : Shape := ⟨2, ![3200000, 16]⟩
abbrev S1x16 : Shape := ⟨2, ![1, 16]⟩
abbrev S100000x64 : Shape := ⟨2, ![100000, 64]⟩
abbrev S5000x64 : Shape := ⟨2, ![5000, 64]⟩
abbrev S3200000x64 : Shape := ⟨2, ![3200000, 64]⟩
abbrev S1x64 : Shape := ⟨2, ![1, 64]⟩
abbrev S100000x32 : Shape := ⟨2, ![100000, 32]⟩
abbrev S5000x32 : Shape := ⟨2, ![5000, 32]⟩
abbrev S3200000x32 : Shape := ⟨2, ![3200000, 32]⟩
abbrev S1x32 : Shape := ⟨2, ![1, 32]⟩
abbrev S64x64 : Shape := ⟨2, ![64, 64]⟩

abbrev nBuf : Space → Nat
  | .hbm => 85
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S100000x1, .i32⟩
  | .hbm, ⟨18, _⟩ => ⟨S_, .f32⟩
  | .hbm, ⟨19, _⟩ => ⟨S3200000, .f32⟩
  | .hbm, ⟨20, _⟩ => ⟨S_, .f32⟩
  | .hbm, ⟨21, _⟩ => ⟨S100000, .f32⟩
  | .hbm, ⟨22, _⟩ => ⟨S3200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .f32⟩
  | .hbm, ⟨30, _⟩ => ⟨S100000, .f32⟩
  | .hbm, ⟨31, _⟩ => ⟨S_, .f32⟩
  | .hbm, ⟨32, _⟩ => ⟨S64, .f32⟩
  | .hbm, ⟨33, _⟩ => ⟨S100000x1, .i32⟩
  | .hbm, ⟨34, _⟩ => ⟨S64, .f32⟩
  | .hbm, ⟨35, _⟩ => ⟨S64x1, .f32⟩
  | .hbm, ⟨36, _⟩ => ⟨S100000x16, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000x16, .f32⟩
  | .hbm, ⟨46, _⟩ => ⟨S_, .f32⟩
  | .hbm, ⟨47, _⟩ => ⟨S100000x16, .f32⟩
  | .hbm, ⟨48, _⟩ => ⟨S3200000x1, .i32⟩
  | .hbm, ⟨49, _⟩ => ⟨S100000x16, .f32⟩
  | .hbm, ⟨50, _⟩ => ⟨S1x16, .f32⟩
  | .hbm, ⟨51, _⟩ => ⟨S100000x64, .f32⟩
  | .hbm, ⟨52, _⟩ => ⟨S_, .i32⟩
  | .hbm, ⟨53, _⟩ => ⟨S3200000, .i32⟩
  | .hbm, ⟨54, _⟩ => ⟨S3200000, .i1⟩
  | .hbm, ⟨55, _⟩ => ⟨S_, .i32⟩
  | .hbm, ⟨56, _⟩ => ⟨S3200000, .i32⟩
  | .hbm, ⟨57, _⟩ => ⟨S3200000, .i32⟩
  | .hbm, ⟨58, _⟩ => ⟨S3200000, .i32⟩
  | .hbm, ⟨59, _⟩ => ⟨S3200000x1, .i32⟩
  | .hbm, ⟨60, _⟩ => ⟨S3200000x64, .f32⟩
  | .hbm, ⟨61, _⟩ => ⟨S_, .f32⟩
  | .hbm, ⟨62, _⟩ => ⟨S100000x64, .f32⟩
  | .hbm, ⟨63, _⟩ => ⟨S3200000x1, .i32⟩
  | .hbm, ⟨64, _⟩ => ⟨S100000x64, .f32⟩
  | .hbm, ⟨65, _⟩ => ⟨S1x64, .f32⟩
  | .hbm, ⟨66, _⟩ => ⟨S100000x32, .f32⟩
  | .hbm, ⟨67, _⟩ => ⟨S_, .i32⟩
  | .hbm, ⟨68, _⟩ => ⟨S3200000, .i32⟩
  | .hbm, ⟨69, _⟩ => ⟨S3200000, .i1⟩
  | .hbm, ⟨70, _⟩ => ⟨S_, .i32⟩
  | .hbm, ⟨71, _⟩ => ⟨S3200000, .i32⟩
  | .hbm, ⟨72, _⟩ => ⟨S3200000, .i32⟩
  | .hbm, ⟨73, _⟩ => ⟨S3200000, .i32⟩
  | .hbm, ⟨74, _⟩ => ⟨S3200000x1, .i32⟩
  | .hbm, ⟨75, _⟩ => ⟨S3200000x32, .f32⟩
  | .hbm, ⟨76, _⟩ => ⟨S_, .f32⟩
  | .hbm, ⟨77, _⟩ => ⟨S100000x32, .f32⟩
  | .hbm, ⟨78, _⟩ => ⟨S3200000x1, .i32⟩
  | .hbm, ⟨79, _⟩ => ⟨S100000x32, .f32⟩
  | .hbm, ⟨80, _⟩ => ⟨S1x32, .f32⟩
  | .hbm, ⟨81, _⟩ => ⟨S64x32, .f32⟩
  | .hbm, ⟨82, _⟩ => ⟨S1x64, .f32⟩
  | .hbm, ⟨83, _⟩ => ⟨S1x32, .f32⟩
  | .hbm, ⟨84, _⟩ => ⟨S64x32, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x1, .f32⟩
  | .local _ .vmem, ⟨12, _⟩ => ⟨S5000x1, .f32⟩
  | .local _ .vmem, ⟨13, _⟩ => ⟨S1x16, .f32⟩
  | .local _ .vmem, ⟨14, _⟩ => ⟨S16x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S1x64, .f32⟩
  | .local _ .vmem, ⟨24, _⟩ => ⟨S64x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x1, .f32⟩
  | .local _ .vmem, ⟨32, _⟩ => ⟨S5000x1, .f32⟩
  | .local _ .vmem, ⟨33, _⟩ => ⟨S1x32, .f32⟩
  | .local _ .vmem, ⟨34, _⟩ => ⟨S5000x1, .i32⟩
  | .local _ .vmem, ⟨35, _⟩ => ⟨S5000x1, .i32⟩
  | .local _ .vmem, ⟨36, _⟩ => ⟨S64x32, .f32⟩
  | .local _ .vmem, ⟨37, _⟩ => ⟨S64x32, .f32⟩
  | .local _ .vmem, ⟨38, _⟩ => ⟨S64x1, .f32⟩
  | .local _ .vmem, ⟨39, _⟩ => ⟨S32x64, .f32⟩
  | .local _ .vmem, ⟨40, _⟩ => ⟨S1x64, .f32⟩
  | .local _ .vmem, ⟨41, _⟩ => ⟨S64x32, .f32⟩
  | .local _ .vmem, ⟨42, _⟩ => ⟨S1x32, .f32⟩
  | .local _ .vmem, ⟨43, _⟩ => ⟨S64x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc4_stg0_0 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc3_sem5_0 : DmaSem sig := 36
abbrev cc4_sem0_0 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S100000_S100000x1 : S100000.ShapeCasts S100000x1
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S64 : S_.BroadcastsInDim S64 (![] : Fin 0 → Fin S64.rank)
  bcast_S100000_S100000x1_0 : S100000.BroadcastsInDim S100000x1 (![0] : Fin 1 → Fin S100000x1.rank)
  shapeCasts_S64_S64x1 : S64.ShapeCasts S64x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x64_S16x64_0_0 : ∀ a, (![0, 0] : Fin 2 → Nat) a + S16x64.size a ≤ S16x64.size a
  h_S16x64 : 0 < S16x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  iota_S5000x64_d1_w32 : S5000x64.Iotas .tc 32 [1]
  natLt_1_32 : 1 < 32
  shapeCasts_S64x32_S64x32 : S64x32.ShapeCasts S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x32 : S64x1.Broadcasts S64x32
  inb_S32x64_S32x64_0_0 : ∀ a, (![0, 0] : Fin 2 → Nat) a + S32x64.size a ≤ S32x64.size a
  h_S32x64 : 0 < S32x64.numel
  broadcasts_S1x64_S64x64 : S1x64.Broadcasts S64x64
  broadcasts_S1x32_S64x32 : S1x32.Broadcasts S64x32
  scatter_S100000_S3200000x1_S3200000_n_0_0_1_wf : ScatterDims.WF S100000 S3200000x1 S3200000 [] [0] [0] 1
  scatter_S64_S100000x1_S100000_n_0_0_1_wf : ScatterDims.WF S64 S100000x1 S100000 [] [0] [0] 1
  dot_S5000x128_S128x16_S5000x16_1_0_0_1_n_n_wf : DotDims.WF S5000x128 S128x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x64_S5000x64_1_0_0_1_n_n_wf : DotDims.WF S5000x16 S16x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x32_S5000x32_1_0_0_1_n_n_wf : DotDims.WF S5000x64 S64x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x64_S5000x32_S64x32_0_0_1_1_n_n_wf : DotDims.WF S5000x64 S5000x32 S64x32 [0] [0] [1] [1] [] []
  dot_S64x32_S32x64_S64x64_1_0_0_1_n_n_wf : DotDims.WF S64x32 S32x64 S64x64 [1] [0] [0] [1] [] []
  dot_S64x64_S64x32_S64x32_1_0_0_1_n_n_wf : DotDims.WF S64x64 S64x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S100000x32.size a
  hwx2_5 : ∀ i : grid2.Coords, EltTy.bits .f32 = 32 ∨ (Rect.block (s := S100000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .i32 = 32 ∨ (Rect.block (s := S100000x1) S5000x1.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x32.size a ≤ S64x32.size a
  hwx3_5 : ∀ i : grid3.Coords, EltTy.bits .f32 = 32 ∨ (Rect.block (s := S64x32) S64x32.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x32.size a ≤ S64x32.size a
  hwx4_0 : ∀ i : grid4.Coords, EltTy.bits .f32 = 32 ∨ (Rect.block (s := S64x32) S64x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x64.size a ≤ S32x64.size a
  hwx4_2 : ∀ i : grid4.Coords, EltTy.bits .f32 = 32 ∨ (Rect.block (s := S32x64) S32x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x32.size a ≤ S64x32.size a
  hwx4_4 : ∀ i : grid4.Coords, EltTy.bits .f32 = 32 ∨ (Rect.block (s := S64x32) S64x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x32.size a ≤ S64x32.size a
  hwx4_6 : ∀ i : grid4.Coords, EltTy.bits .f32 = 32 ∨ (Rect.block (s := S64x32) S64x32.size (cc4_transform_6 i) (hinb4_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x64_S5000x32_S64x32_0_0_1_1_n_n : DotDims S5000x64 S5000x32 S64x32 where
  lhsContracting := [0]
  rhsContracting := [0]
  lhsNonContracting := [1]
  rhsNonContracting := [1]
  lhsBatch := []
  rhsBatch := []
  wf := dot_S5000x64_S5000x32_S64x32_0_0_1_1_n_n_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v54) S64x32.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v54) S64x32.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v17) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S32x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S64x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v57) S64x32.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x16 : Shape := ⟨2, ![100000, 16]⟩
abbrev S3200000x16 : Shape := ⟨2, ![3200000, 16]⟩
abbrev S100000x1 : Shape := ⟨2, ![100000, 1]⟩
abbrev S1x16 : Shape := ⟨2, ![1, 16]⟩
abbrev S100000x64 : Shape := ⟨2, ![100000, 64]⟩
abbrev S3200000x64 : Shape := ⟨2, ![3200000, 64]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S64x1 : Shape := ⟨2, ![64, 1]⟩
abbrev S64x64 : Shape := ⟨2, ![64, 64]⟩

abbrev nBuf : Space → Nat
  | .hbm => 193
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x16, .f32⟩
  | 4 => ⟨S16, .f32⟩
  | 5 => ⟨S16x64, .f32⟩
  | 6 => ⟨S64, .f32⟩
  | 7 => ⟨S64x32, .f32⟩
  | 8 => ⟨S32, .f32⟩
  | 9 => ⟨S32x64, .f32⟩
  | 10 => ⟨S64, .f32⟩
  | 11 => ⟨S64x32, .f32⟩
  | 12 => ⟨S32, .f32⟩
  | 13 => ⟨S1x3200000, .i32⟩
  | 14 => ⟨S3200000, .i32⟩
  | 15 => ⟨S1x3200000, .i32⟩
  | 16 => ⟨S3200000, .i32⟩
  | 17 => ⟨S_, .f32⟩
  | 18 => ⟨S3200000, .f32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x16, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x16, .f32⟩
  | 56 => ⟨S3200000x1, .f32⟩
  | 57 => ⟨S3200000x16, .f32⟩
  | 58 => ⟨S3200000x16, .f32⟩
  | 59 => ⟨S_, .f32⟩
  | 60 => ⟨S100000x16, .f32⟩
  | 61 => ⟨S3200000x1, .i32⟩
  | 62 => ⟨S100000x16, .f32⟩
  | 63 => ⟨S100000, .f32⟩
  | 64 => ⟨S100000x1, .f32⟩
  | 65 => ⟨S100000x16, .f32⟩
  | 66 => ⟨S100000x16, .f32⟩
  | 67 => ⟨S100000x16, .f32⟩
  | 68 => ⟨S1x16, .f32⟩
  | 69 => ⟨S100000x16, .f32⟩
  | 70 => ⟨S100000x16, .f32⟩
  | 71 => ⟨S_, .f32⟩
  | 72 => ⟨S100000x16, .f32⟩
  | 73 => ⟨S100000x16, .f32⟩
  | 74 => ⟨S100000x64, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000, .f32⟩
  | 84 => ⟨S_, .i32⟩
  | 85 => ⟨S3200000, .i32⟩
  | 86 => ⟨S3200000, .i1⟩
  | 87 => ⟨S_, .i32⟩
  | 88 => ⟨S3200000, .i32⟩
  | 89 => ⟨S3200000, .i32⟩
  | 90 => ⟨S3200000, .i32⟩
  | 91 => ⟨S3200000x1, .i32⟩
  | 92 => ⟨S3200000, .f32⟩
  | 93 => ⟨S3200000, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000x64, .f32⟩
  | 103 => ⟨S3200000x1, .f32⟩
  | 104 => ⟨S3200000x64, .f32⟩
  | 105 => ⟨S3200000x64, .f32⟩
  | 106 => ⟨S_, .f32⟩
  | 107 => ⟨S100000x64, .f32⟩
  | 108 => ⟨S3200000x1, .i32⟩
  | 109 => ⟨S100000x64, .f32⟩
  | 110 => ⟨S100000, .f32⟩
  | 111 => ⟨S100000x1, .f32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x32, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S100000x128, .f32⟩

abbrev hbmTy0_1 (i : Nat) : BufTy := match i % 128 with
  | 0 => ⟨S3200000, .i32⟩
  | 1 => ⟨S3200000x1, .i32⟩
  | 2 => ⟨S3200000, .f32⟩
  | 3 => ⟨S_, .i32⟩
  | 4 => ⟨S3200000, .i32⟩
  | 5 => ⟨S3200000, .i1⟩
  | 6 => ⟨S_, .i32⟩
  | 7 => ⟨S3200000, .i32⟩
  | 8 => ⟨S3200000, .i32⟩
  | 9 => ⟨S3200000, .i32⟩
  | 10 => ⟨S3200000x1, .i32⟩
  | 11 => ⟨S3200000, .f32⟩
  | 12 => ⟨S3200000, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S3200000x32, .f32⟩
  | 22 => ⟨S3200000x1, .f32⟩
  | 23 => ⟨S3200000x32, .f32⟩
  | 24 => ⟨S3200000x32, .f32⟩
  | 25 => ⟨S_, .f32⟩
  | 26 => ⟨S100000x32, .f32⟩
  | 27 => ⟨S3200000x1, .i32⟩
  | 28 => ⟨S100000x32, .f32⟩
  | 29 => ⟨S100000, .f32⟩
  | 30 => ⟨S100000x1, .f32⟩
  | 31 => ⟨S100000x32, .f32⟩
  | 32 => ⟨S100000x32, .f32⟩
  | 33 => ⟨S100000x32, .f32⟩
  | 34 => ⟨S1x32, .f32⟩
  | 35 => ⟨S100000x32, .f32⟩
  | 36 => ⟨S100000x32, .f32⟩
  | 37 => ⟨S_, .f32⟩
  | 38 => ⟨S64x32, .f32⟩
  | 39 => ⟨S100000x1, .i32⟩
  | 40 => ⟨S64x32, .f32⟩
  | 41 => ⟨S_, .f32⟩
  | 42 => ⟨S100000, .f32⟩
  | 43 => ⟨S_, .f32⟩
  | 44 => ⟨S64, .f32⟩
  | 45 => ⟨S100000x1, .i32⟩
  | 46 => ⟨S64, .f32⟩
  | 47 => ⟨S_, .f32⟩
  | 48 => ⟨S64, .f32⟩
  | 49 => ⟨S64, .f32⟩
  | 50 => ⟨S64x1, .f32⟩
  | 51 => ⟨S64x32, .f32⟩
  | 52 => ⟨S64x32, .f32⟩
  | 53 => ⟨S64x64, .f32⟩
  | 54 => ⟨S1x64, .f32⟩
  | 55 => ⟨S64x64, .f32⟩
  | 56 => ⟨S64x64, .f32⟩
  | 57 => ⟨S_, .f32⟩
  | 58 => ⟨S64x64, .f32⟩
  | 59 => ⟨S64x64, .f32⟩
  | 60 => ⟨S64x32, .f32⟩
  | 61 => ⟨S1x32, .f32⟩
  | 62 => ⟨S64x32, .f32⟩
  | 63 => ⟨S64x32, .f32⟩
  | 64 => ⟨S64x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_cst : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_c_15 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_19 : Ref sig .tc := ⟨.hbm, 141, rfl⟩
abbrev main_v103 : Ref sig .tc := ⟨.hbm, 142, rfl⟩
abbrev main_v104 : Ref sig .tc := ⟨.hbm, 143, rfl⟩
abbrev main_c_20 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_22 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_23 : Ref sig .tc := ⟨.hbm, 169, rfl⟩
abbrev main_v127 : Ref sig .tc := ⟨.hbm, 170, rfl⟩
abbrev main_cst_24 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_25 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_call2_cst : Ref sig .tc := ⟨.hbm, 185, rfl⟩
abbrev main_call2_v0 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1x32_S64x32_0_1 : S1x32.BroadcastsInDim S64x32 (![0, 1] : Fin 2 → Fin S64x32.rank)
  scatter_S100000_S3200000x1_S3200000_n_0_0_1_wf : ScatterDims.WF S100000 S3200000x1 S3200000 [] [0] [0] 1
  dot_S100000x128_S128x16_S100000x16_1_0_0_1_n_n_wf : DotDims.WF S100000x128 S128x16 S100000x16 [1] [0] [0] [1] [] []
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x64_S100000x64_1_0_0_1_n_n_wf : DotDims.WF S100000x16 S16x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x64_S64x64_1_0_0_1_n_n_wf : DotDims.WF S64x32 S32x64 S64x64 [1] [0] [0] [1] [] []
  dot_S64x64_S64x32_S64x32_1_0_0_1_n_n_wf : DotDims.WF S64x64 S64x32 S64x32 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

class Facts : Prop extends Facts₀ where

variable [Facts]
-- ==== Proof.Run.lean ====
/-
  The idealized kernel's run with its result kept. Every weakly fair execution of the program terminates without a
  fault; in the final memory the result buffer holds what the last of the five regions' write-backs leave in it, read
  through the fold of the buffer contents from the launch to the return, and every argument array is as launched.
-/
import proofs.«172819_j4715874091890_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the ten segments of the program, with the final state read at every unscoped buffer: the result
    buffer at the last boundary's contents, each argument as launched. -/
theorem run_result : θ_run defs (onTc (τ := τ) (main (F := F))) ⟨m, fun _ => 0, ρ⟩ (fun r => ∀ c : Dev nD,
      r.2.mem ((c.tc : Thread nD τ).loc main_v57) = W10 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v57 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.ValueRun

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.LibLayerForms.lean ====
/-
  The three dense steps of a graph-convolution layer, each read at one entry of its result.

  Every layer of the network multiplies the rows of a node-feature matrix by a per-node factor (an R×1 column), and
  either projects first and scales after, or scales first and projects after, then adds a bias row and clips at zero.
  Written entry by entry over the extended reals, for an R-row matrix:

    scaleDotBiasRelu a c W b (p,q) = max (Σₖ (a(p,k)·c(p,0))·W(k,q) + b(0,q)) 0
    dotScale         h W c   (p,q) = (Σₖ h(p,k)·W(k,q))·c(p,0)
    scaleBiasRelu    a c b   (p,q) = max (a(p,q)·c(p,0) + b(0,q)) 0

  Each is reached two ways: by the vector unit's operations on a block (shape casts that change nothing, a column or
  a row spread over the block, a change of float format that is the identity on the extended reals, a matrix product
  into a zero accumulator), and by the host's operations on the whole matrix (the column and the row spread by
  broadcasts, `dot_general`). Entry (p,q) depends only on row p of the row-indexed operands, so a block of rows of
  the whole-matrix result is the same function of the corresponding blocks of rows.
-/
import Idealize.ShloMosaic.PureOps.Ideal.Laws
import Idealize.ShloMosaic.Lib.ValueIdx
import Idealize.ShloMosaic.Lib.Pipeline.Value
import Idealize.ShloMosaic.Lib.KernelVsHost
import proofs.«172819_j4715874091890_2_alg».proof.Proof.LibPlainDot
import proofs.«172819_j4715874091890_2_alg».proof.Proof.LibColumn
import proofs.«172819_j4715874091890_2_alg».proof.Proof.LibBiasRow

noncomputable section

namespace Cert.LayerForms

open Idealize.ShloMosaic Idealize.ShloMosaic.ValueIdx
open scoped BigOperators

variable {R K N : ℕ} {φ : FTy}

/-- The float zero both programs clip against and accumulate into, kept as its word. -/
abbrev zeroW : EReal := Ideal.ofBits .f32 0x00000000#32

/-- Scale the rows, project, add the bias row, clip at zero. -/
def scaleDotBiasRelu (a : FVec Ideal ⟨2, ![R, K]⟩ .f32) (c : FVec Ideal ⟨2, ![R, 1]⟩ .f32) (W : FVec Ideal ⟨2, ![K, N]⟩ φ)
    (b : FVec Ideal ⟨2, ![1, N]⟩ .f32) : FVec Ideal ⟨2, ![R, N]⟩ .f32 :=
  fun i => max ((∑ k : Fin K, (a (ix2 (i 0) k) * c (ix2 (i 0) (0 : Fin 1))) * W (ix2 k (i 1))) + b (ix2 (0 : Fin 1) (i 1))) zeroW

/-- Project, then scale the rows. -/
def dotScale (h : FVec Ideal ⟨2, ![R, K]⟩ .f32) (W : FVec Ideal ⟨2, ![K, N]⟩ φ) (c : FVec Ideal ⟨2, ![R, 1]⟩ .f32) :
    FVec Ideal ⟨2, ![R, N]⟩ .f32 :=
  fun i => (∑ k : Fin K, h (ix2 (i 0) k) * W (ix2 k (i 1))) * c (ix2 (i 0) (0 : Fin 1))

/-- Scale the rows, add the bias row, clip at zero. -/
def scaleBiasRelu (a : FVec Ideal ⟨2, ![R, N]⟩ .f32) (c : FVec Ideal ⟨2, ![R, 1]⟩ .f32) (b : FVec Ideal ⟨2, ![1, N]⟩ .f32) :
    FVec Ideal ⟨2, ![R, N]⟩ .f32 :=
  fun i => max (a (ix2 (i 0) (i 1)) * c (ix2 (i 0) (0 : Fin 1)) + b (ix2 (0 : Fin 1) (i 1))) zeroW

theorem scaleDotBiasRelu_apply (a : FVec Ideal ⟨2, ![R, K]⟩ .f32) (c : FVec Ideal ⟨2, ![R, 1]⟩ .f32) (W : FVec Ideal ⟨2, ![K, N]⟩ φ)
    (b : FVec Ideal ⟨2, ![1, N]⟩ .f32) (p : Fin R) (q : Fin N) :
    scaleDotBiasRelu a c W b (ix2 p q)
      = max ((∑ k : Fin K, (a (ix2 p k) * c (ix2 p (0 : Fin 1))) * W (ix2 k q)) + b (ix2 (0 : Fin 1) q)) zeroW := rfl

theorem dotScale_apply (h : FVec Ideal ⟨2, ![R, K]⟩ .f32) (W : FVec Ideal ⟨2, ![K, N]⟩ φ) (c : FVec Ideal ⟨2, ![R, 1]⟩ .f32)
    (p : Fin R) (q : Fin N) :
    dotScale h W c (ix2 p q) = (∑ k : Fin K, h (ix2 p k) * W (ix2 k q)) * c (ix2 p (0 : Fin 1)) := rfl

theorem scaleBiasRelu_apply (a : FVec Ideal ⟨2, ![R, N]⟩ .f32) (c : FVec Ideal ⟨2, ![R, 1]⟩ .f32) (b : FVec Ideal ⟨2, ![1, N]⟩ .f32)
    (p : Fin R) (q : Fin N) :
    scaleBiasRelu a c b (ix2 p q) = max (a (ix2 p q) * c (ix2 p (0 : Fin 1)) + b (ix2 (0 : Fin 1) q)) zeroW := rfl

/-! ## A 1×N row spread over R rows by the vector unit -/

/-- A `[1, n]` row broadcast to `[r, n]` reads, at `(p, q)`, the row's entry `(0, q)`. -/
theorem broadcastTo_1n_rn_apply {α : Type} {r n : ℕ} (v : (⟨2, ![1, n]⟩ : Shape).Idx → α)
    (h : (⟨2, ![1, n]⟩ : Shape).Broadcasts ⟨2, ![r, n]⟩) (p : Fin r) (q : Fin n) :
    broadcastTo ⟨2, ![r, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-! ## The vector unit's forms -/

/-- The body that scales a block's rows, projects it, adds the bias row and clips at zero. -/
theorem body_scaleDotBiasRelu (d : DotDims ⟨2, ![R, K]⟩ ⟨2, ![K, N]⟩ ⟨2, ![R, N]⟩) (hd : d = DotDims.plain R K N)
    (x0 : FVec Ideal ⟨2, ![R, K]⟩ .f32) (x1 : FVec Ideal ⟨2, ![R, 1]⟩ .f32) (x2 : FVec Ideal ⟨2, ![K, N]⟩ .bf16)
    (x3 : FVec Ideal ⟨2, ![1, N]⟩ .f32)
    (h0 : (⟨2, ![R, K]⟩ : Shape).ShapeCasts ⟨2, ![R, K]⟩) (h1 : (⟨2, ![R, 1]⟩ : Shape).ShapeCasts ⟨2, ![R, 1]⟩)
    (h2 : (⟨2, ![K, N]⟩ : Shape).ShapeCasts ⟨2, ![K, N]⟩) (h3 : (⟨2, ![1, N]⟩ : Shape).ShapeCasts ⟨2, ![1, N]⟩)
    (hb1 : (⟨2, ![R, 1]⟩ : Shape).Broadcasts ⟨2, ![R, K]⟩) (hb3 : (⟨2, ![1, N]⟩ : Shape).Broadcasts ⟨2, ![R, N]⟩)
    (hlt : FTy.bf16.bits < FTy.f32.bits) :
    maximumf (addf (matmul d none (truncf .bf16 (mulf (shapeCast ⟨2, ![R, K]⟩ x0 h0)
        (broadcastTo ⟨2, ![R, K]⟩ (shapeCast ⟨2, ![R, 1]⟩ x1 h1) hb1)) hlt) (shapeCast ⟨2, ![K, N]⟩ x2 h2)
        (constant ⟨2, ![R, N]⟩ .f32 0x00000000#32))
      (broadcastTo ⟨2, ![R, N]⟩ (shapeCast ⟨2, ![1, N]⟩ x3 h3) hb3))
      (broadcast ⟨2, ![R, N]⟩ (Scalar.ofBits .f32 0x00000000#32 : Ideal .f32))
    = scaleDotBiasRelu x0 x1 x2 x3 := by
  funext i
  obtain ⟨p, q, rfl⟩ : ∃ (p : Fin R) (q : Fin N), i = ix2 p q := ⟨i 0, i 1, eq_ix2 i⟩
  rw [scaleDotBiasRelu_apply, maximumf_apply, addf_apply, shapeCast_self, shapeCast_self, shapeCast_self, shapeCast_self]
  refine congrArg₂ max (congrArg₂ (· + ·) ((Cert.LibPlainDot.matmul_zero_apply d hd none
    (truncf .bf16 (mulf x0 (broadcastTo ⟨2, ![R, K]⟩ x1 hb1)) hlt) x2 p q).trans (Finset.sum_congr rfl fun k _ => ?_))
    (broadcastTo_1n_rn_apply x3 hb3 p q)) rfl
  rw [truncf_apply, mulf_apply, Cert.LibColumn.broadcastTo_a1_ab_apply]

/-- The body that projects a block and then scales its rows. -/
theorem body_dotScale (d : DotDims ⟨2, ![R, K]⟩ ⟨2, ![K, N]⟩ ⟨2, ![R, N]⟩) (hd : d = DotDims.plain R K N)
    (x0 : FVec Ideal ⟨2, ![R, K]⟩ .f32) (x1 : FVec Ideal ⟨2, ![K, N]⟩ .bf16) (x2 : FVec Ideal ⟨2, ![R, 1]⟩ .f32)
    (h0 : (⟨2, ![R, K]⟩ : Shape).ShapeCasts ⟨2, ![R, K]⟩) (h1 : (⟨2, ![K, N]⟩ : Shape).ShapeCasts ⟨2, ![K, N]⟩)
    (h2 : (⟨2, ![R, 1]⟩ : Shape).ShapeCasts ⟨2, ![R, 1]⟩)
    (hb2 : (⟨2, ![R, 1]⟩ : Shape).Broadcasts ⟨2, ![R, N]⟩) (hlt : FTy.bf16.bits < FTy.f32.bits) :
    mulf (matmul d none (truncf .bf16 (shapeCast ⟨2, ![R, K]⟩ x0 h0) hlt) (shapeCast ⟨2, ![K, N]⟩ x1 h1)
        (constant ⟨2, ![R, N]⟩ .f32 0x00000000#32))
      (broadcastTo ⟨2, ![R, N]⟩ (shapeCast ⟨2, ![R, 1]⟩ x2 h2) hb2)
    = dotScale x0 x1 x2 := by
  funext i
  obtain ⟨p, q, rfl⟩ : ∃ (p : Fin R) (q : Fin N), i = ix2 p q := ⟨i 0, i 1, eq_ix2 i⟩
  rw [dotScale_apply, mulf_apply, shapeCast_self, shapeCast_self, shapeCast_self, Cert.LibColumn.broadcastTo_a1_ab_apply]
  exact congrArg (· * x2 (ix2 p (0 : Fin 1))) (Cert.LibPlainDot.matmul_zero_apply d hd none (truncf .bf16 x0 hlt) x1 p q)

/-- The body that scales a block's rows, adds the bias row and clips at zero. -/
theorem body_scaleBiasRelu (x0 : FVec Ideal ⟨2, ![R, N]⟩ .f32) (x1 : FVec Ideal ⟨2, ![R, 1]⟩ .f32) (x2 : FVec Ideal ⟨2, ![1, N]⟩ .f32)
    (h0 : (⟨2, ![R, N]⟩ : Shape).ShapeCasts ⟨2, ![R, N]⟩) (h1 : (⟨2, ![R, 1]⟩ : Shape).ShapeCasts ⟨2, ![R, 1]⟩)
    (h2 : (⟨2, ![1, N]⟩ : Shape).ShapeCasts ⟨2, ![1, N]⟩)
    (hb1 : (⟨2, ![R, 1]⟩ : Shape).Broadcasts ⟨2, ![R, N]⟩) (hb2 : (⟨2, ![1, N]⟩ : Shape).Broadcasts ⟨2, ![R, N]⟩) :
    maximumf (addf (mulf (shapeCast ⟨2, ![R, N]⟩ x0 h0) (broadcastTo ⟨2, ![R, N]⟩ (shapeCast ⟨2, ![R, 1]⟩ x1 h1) hb1))
        (broadcastTo ⟨2, ![R, N]⟩ (shapeCast ⟨2, ![1, N]⟩ x2 h2) hb2))
      (broadcast ⟨2, ![R, N]⟩ (Scalar.ofBits .f32 0x00000000#32 : Ideal .f32))
    = scaleBiasRelu x0 x1 x2 := by
  funext i
  obtain ⟨p, q, rfl⟩ : ∃ (p : Fin R) (q : Fin N), i = ix2 p q := ⟨i 0, i 1, eq_ix2 i⟩
  rw [scaleBiasRelu_apply, maximumf_apply, addf_apply, mulf_apply, shapeCast_self, shapeCast_self, shapeCast_self,
    Cert.LibColumn.broadcastTo_a1_ab_apply, broadcastTo_1n_rn_apply, broadcast_apply]
  rfl

/-! ## A block of rows -/

/-- Entry (p, q) of the first step reads only row p of the features and of the column: a block of rows of the result
    is the step of the blocks of rows. -/
theorem scaleDotBiasRelu_rows {R' : ℕ} (ρ : Fin R' → Fin R)
    (a : FVec Ideal ⟨2, ![R, K]⟩ .f32) (c : FVec Ideal ⟨2, ![R, 1]⟩ .f32) (W : FVec Ideal ⟨2, ![K, N]⟩ φ) (b : FVec Ideal ⟨2, ![1, N]⟩ .f32)
    (a' : FVec Ideal ⟨2, ![R', K]⟩ .f32) (c' : FVec Ideal ⟨2, ![R', 1]⟩ .f32) (W' : FVec Ideal ⟨2, ![K, N]⟩ φ) (b' : FVec Ideal ⟨2, ![1, N]⟩ .f32)
    (ha : ∀ p k, a' (ix2 p k) = a (ix2 (ρ p) k)) (hc : ∀ p, c' (ix2 p (0 : Fin 1)) = c (ix2 (ρ p) (0 : Fin 1)))
    (hW : W' = W) (hb : b' = b) (p : Fin R') (q : Fin N) :
    scaleDotBiasRelu a' c' W' b' (ix2 p q) = scaleDotBiasRelu a c W b (ix2 (ρ p) q) := by
  subst hW hb
  rw [scaleDotBiasRelu_apply, scaleDotBiasRelu_apply, hc]
  refine congrArg (fun s => max (s + b' (ix2 (0 : Fin 1) q)) _) (Finset.sum_congr rfl fun k _ => ?_)
  rw [ha]

theorem dotScale_rows {R' : ℕ} (ρ : Fin R' → Fin R)
    (h : FVec Ideal ⟨2, ![R, K]⟩ .f32) (W : FVec Ideal ⟨2, ![K, N]⟩ φ) (c : FVec Ideal ⟨2, ![R, 1]⟩ .f32)
    (h' : FVec Ideal ⟨2, ![R', K]⟩ .f32) (W' : FVec Ideal ⟨2, ![K, N]⟩ φ) (c' : FVec Ideal ⟨2, ![R', 1]⟩ .f32)
    (hh : ∀ p k, h' (ix2 p k) = h (ix2 (ρ p) k)) (hW : W' = W) (hc : ∀ p, c' (ix2 p (0 : Fin 1)) = c (ix2 (ρ p) (0 : Fin 1)))
    (p : Fin R') (q : Fin N) :
    dotScale h' W' c' (ix2 p q) = dotScale h W c (ix2 (ρ p) q) := by
  subst hW
  rw [dotScale_apply, dotScale_apply, hc]
  refine congrArg (fun s => s * c (ix2 (ρ p) (0 : Fin 1))) (Finset.sum_congr rfl fun k _ => ?_)
  rw [hh]

theorem scaleBiasRelu_rows {R' : ℕ} (ρ : Fin R' → Fin R)
    (a : FVec Ideal ⟨2, ![R, N]⟩ .f32) (c : FVec Ideal ⟨2, ![R, 1]⟩ .f32) (b : FVec Ideal ⟨2, ![1, N]⟩ .f32)
    (a' : FVec Ideal ⟨2, ![R', N]⟩ .f32) (c' : FVec Ideal ⟨2, ![R', 1]⟩ .f32) (b' : FVec Ideal ⟨2, ![1, N]⟩ .f32)
    (ha : ∀ p q, a' (ix2 p q) = a (ix2 (ρ p) q)) (hc : ∀ p, c' (ix2 p (0 : Fin 1)) = c (ix2 (ρ p) (0 : Fin 1)))
    (hb : b' = b) (p : Fin R') (q : Fin N) :
    scaleBiasRelu a' c' b' (ix2 p q) = scaleBiasRelu a c b (ix2 (ρ p) q) := by
  subst hb
  rw [scaleBiasRelu_apply, scaleBiasRelu_apply, hc, ha]

/-! ## The host's forms -/

/-- An `[a, 1]` column spread by the host over `b` columns reads, at `(i, j)`, the column's entry `(i, 0)`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => rfl

/-- The host's first step on the whole matrix: scale the rows by the column, `dot_general`, add the bias spread over
    the rows, clip at zero. -/
theorem host_scaleDotBiasRelu (d : DotDims ⟨2, ![R, K]⟩ ⟨2, ![K, N]⟩ ⟨2, ![R, N]⟩) (hd : d = DotDims.plain R K N)
    (a : FVec Ideal ⟨2, ![R, K]⟩ .f32) (c : FVec Ideal ⟨2, ![R, 1]⟩ .f32) (W : FVec Ideal ⟨2, ![K, N]⟩ .f32) (b : FVec Ideal ⟨1, ![N]⟩ .f32)
    (hc : (⟨2, ![R, 1]⟩ : Shape).BroadcastsInDim ⟨2, ![R, K]⟩ ![0, 1])
    (hb1 : (⟨1, ![N]⟩ : Shape).BroadcastsInDim ⟨2, ![1, N]⟩ ![1]) (hb2 : (⟨2, ![1, N]⟩ : Shape).BroadcastsInDim ⟨2, ![R, N]⟩ ![0, 1])
    (hz : (⟨0, ![]⟩ : Shape).BroadcastsInDim ⟨2, ![R, N]⟩ ![]) :
    maximumf (addf (Host.dotGeneral d none (mulf a (broadcastInDim ⟨2, ![R, K]⟩ ![0, 1] hc c)) W)
        (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))
    = scaleDotBiasRelu a c W (Cert.Row.rowOf b) := by
  funext i
  obtain ⟨p, q, rfl⟩ : ∃ (p : Fin R) (q : Fin N), i = ix2 p q := ⟨i 0, i 1, eq_ix2 i⟩
  rw [scaleDotBiasRelu_apply, maximumf_apply, addf_apply, Cert.Row.bcast_row_apply, broadcastInDim_constant, broadcast_apply, Ideal.ofBits_def]
  have hdot := Cert.LibPlainDot.dotGeneral_apply d hd none .single (mulf a (broadcastInDim ⟨2, ![R, K]⟩ ![0, 1] hc c)) W p q
  refine congrArg (fun s => max (s + Cert.Row.rowOf b (ix2 (0 : Fin 1) q)) zeroW) (hdot.trans (Finset.sum_congr rfl fun k _ => ?_))
  rw [mulf_apply, broadcastInDim_a1_ab_apply]

/-- The host's projection of the whole matrix followed by the scaling of its rows. -/
theorem host_dotScale (d : DotDims ⟨2, ![R, K]⟩ ⟨2, ![K, N]⟩ ⟨2, ![R, N]⟩) (hd : d = DotDims.plain R K N)
    (h : FVec Ideal ⟨2, ![R, K]⟩ .f32) (W : FVec Ideal ⟨2, ![K, N]⟩ .f32) (c : FVec Ideal ⟨2, ![R, 1]⟩ .f32)
    (hc : (⟨2, ![R, 1]⟩ : Shape).BroadcastsInDim ⟨2, ![R, N]⟩ ![0, 1]) :
    mulf (Host.dotGeneral d none h W) (broadcastInDim ⟨2, ![R, N]⟩ ![0, 1] hc c) = dotScale h W c := by
  funext i
  obtain ⟨p, q, rfl⟩ : ∃ (p : Fin R) (q : Fin N), i = ix2 p q := ⟨i 0, i 1, eq_ix2 i⟩
  rw [dotScale_apply, mulf_apply, broadcastInDim_a1_ab_apply]
  exact congrArg (· * c (ix2 p (0 : Fin 1))) (Cert.LibPlainDot.dotGeneral_apply d hd none .single h W p q)

/-- The host's scaling of the rows of the whole matrix, the bias spread over the rows, the clip at zero. -/
theorem host_scaleBiasRelu (a : FVec Ideal ⟨2, ![R, N]⟩ .f32) (c : FVec Ideal ⟨2, ![R, 1]⟩ .f32) (b : FVec Ideal ⟨1, ![N]⟩ .f32)
    (hc : (⟨2, ![R, 1]⟩ : Shape).BroadcastsInDim ⟨2, ![R, N]⟩ ![0, 1])
    (hb1 : (⟨1, ![N]⟩ : Shape).BroadcastsInDim ⟨2, ![1, N]⟩ ![1]) (hb2 : (⟨2, ![1, N]⟩ : Shape).BroadcastsInDim ⟨2, ![R, N]⟩ ![0, 1])
    (hz : (⟨0, ![]⟩ : Shape).BroadcastsInDim ⟨2, ![R, N]⟩ ![]) :
    maximumf (addf (mulf a (broadcastInDim ⟨2, ![R, N]⟩ ![0, 1] hc c))
        (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))
    = scaleBiasRelu a c (Cert.Row.rowOf b) := by
  funext i
  obtain ⟨p, q, rfl⟩ : ∃ (p : Fin R) (q : Fin N), i = ix2 p q := ⟨i 0, i 1, eq_ix2 i⟩
  rw [scaleBiasRelu_apply, maximumf_apply, addf_apply, mulf_apply, Cert.Row.bcast_row_apply, broadcastInDim_constant, broadcast_apply, Ideal.ofBits_def,
    broadcastInDim_a1_ab_apply]

end Cert.LayerForms

end
-- ==== Proof.Forms.lean ====
/-
  The dense steps of the network, each as ONE function of whole arrays, entry by entry over the extended reals.

  A graph-convolution layer holds, at node n and feature q,  c(n) · (agg(n,q) + hs(n,q)) + b(q), where hs is the
  projected feature matrix with its rows already scaled by the node factor c, agg the sum of the rows of hs over the
  incoming edges; all layers but the last clip this at zero. The next layer projects it and scales the rows again:
  (Σₖ out(n,k) · W(k,q)) · c(n). The last layer is summed per graph: node n counts for graph g exactly when its graph id
  word is g. The head divides the per-graph sums by the node counts (at least one), and applies two dense steps, the
  first clipped at zero, and the hyperbolic tangent.
-/
import Idealize.ShloMosaic.PureOps.Ideal.Laws
import Idealize.ShloMosaic.Lib.ValueIdx
import proofs.«172819_j4715874091890_2_alg».proof.Proof.LibLayerForms

noncomputable section

namespace Cert.Gcn

open Idealize.ShloMosaic Idealize.ShloMosaic.ValueIdx
open scoped BigOperators

variable {R K N : ℕ}

/-- The float zero, kept as its word. -/
abbrev zeroW : EReal := Ideal.ofBits .f32 0x00000000#32
/-- The float one, kept as its word. -/
abbrev oneW : EReal := Ideal.ofBits .f32 0x3F800000#32

/-- What a layer holds before the clip: c(n) · (agg(n,q) + hs(n,q)) + b(q). -/
def combine (agg hs : FVec Ideal ⟨2, ![R, K]⟩ .f32) (c : FVec Ideal ⟨2, ![R, 1]⟩ .f32) (b : FVec Ideal ⟨2, ![1, K]⟩ .f32) :
    FVec Ideal ⟨2, ![R, K]⟩ .f32 :=
  fun i => c (ix2 (i 0) (0 : Fin 1)) * (agg (ix2 (i 0) (i 1)) + hs (ix2 (i 0) (i 1))) + b (ix2 (0 : Fin 1) (i 1))

theorem combine_apply (agg hs : FVec Ideal ⟨2, ![R, K]⟩ .f32) (c : FVec Ideal ⟨2, ![R, 1]⟩ .f32) (b : FVec Ideal ⟨2, ![1, K]⟩ .f32)
    (p : Fin R) (q : Fin K) :
    combine agg hs c b (ix2 p q) = c (ix2 p (0 : Fin 1)) * (agg (ix2 p q) + hs (ix2 p q)) + b (ix2 (0 : Fin 1) q) := rfl

/-- The same, clipped at zero. -/
def combineRelu (agg hs : FVec Ideal ⟨2, ![R, K]⟩ .f32) (c : FVec Ideal ⟨2, ![R, 1]⟩ .f32) (b : FVec Ideal ⟨2, ![1, K]⟩ .f32) :
    FVec Ideal ⟨2, ![R, K]⟩ .f32 :=
  fun i => max (combine agg hs c b i) zeroW

theorem combineRelu_apply (agg hs : FVec Ideal ⟨2, ![R, K]⟩ .f32) (c : FVec Ideal ⟨2, ![R, 1]⟩ .f32) (b : FVec Ideal ⟨2, ![1, K]⟩ .f32)
    (p : Fin R) (q : Fin K) :
    combineRelu agg hs c b (ix2 p q)
      = max (c (ix2 p (0 : Fin 1)) * (agg (ix2 p q) + hs (ix2 p q)) + b (ix2 (0 : Fin 1) q)) zeroW := rfl

/-- Finish a layer (clipped) and start the next: project, then scale the rows. -/
def nextLayer (agg hs : FVec Ideal ⟨2, ![R, K]⟩ .f32) (c : FVec Ideal ⟨2, ![R, 1]⟩ .f32) (b : FVec Ideal ⟨2, ![1, K]⟩ .f32)
    (W : FVec Ideal ⟨2, ![K, N]⟩ .f32) : FVec Ideal ⟨2, ![R, N]⟩ .f32 :=
  Cert.LayerForms.dotScale (combineRelu agg hs c b) W c

theorem nextLayer_apply (agg hs : FVec Ideal ⟨2, ![R, K]⟩ .f32) (c : FVec Ideal ⟨2, ![R, 1]⟩ .f32) (b : FVec Ideal ⟨2, ![1, K]⟩ .f32)
    (W : FVec Ideal ⟨2, ![K, N]⟩ .f32) (p : Fin R) (q : Fin N) :
    nextLayer agg hs c b W (ix2 p q)
      = (∑ k : Fin K, combineRelu agg hs c b (ix2 p k) * W (ix2 k q)) * c (ix2 p (0 : Fin 1)) := rfl

/-- The membership indicator the pooling multiplies by: one when the graph id word is g, else zero. -/
def ind {G : ℕ} (w : BitVec 32) (g : Fin G) : EReal := if w = BitVec.ofNat 32 g.val then 1 else 0

/-- The per-graph sums: Σₙ [batch(n) = g] · y(n, q). -/
def poolSum {M G D : ℕ} (y : FVec Ideal ⟨2, ![M, D]⟩ .f32) (batch : IVec ⟨2, ![M, 1]⟩ 32) : FVec Ideal ⟨2, ![G, D]⟩ .f32 :=
  fun i => ∑ n : Fin M, ind (batch (ix2 n (0 : Fin 1))) (i 0) * y (ix2 n (i 1))

theorem poolSum_apply {M G D : ℕ} (y : FVec Ideal ⟨2, ![M, D]⟩ .f32) (batch : IVec ⟨2, ![M, 1]⟩ 32) (g : Fin G) (q : Fin D) :
    poolSum y batch (ix2 g q) = ∑ n : Fin M, ind (batch (ix2 n (0 : Fin 1))) g * y (ix2 n q) := rfl

/-- The per-graph means: the sums divided by the node counts, at least one. -/
def pooled {G D : ℕ} (sums : FVec Ideal ⟨2, ![G, D]⟩ .f32) (cnts : FVec Ideal ⟨2, ![G, 1]⟩ .f32) : FVec Ideal ⟨2, ![G, D]⟩ .f32 :=
  fun i => Ideal.div (sums (ix2 (i 0) (i 1))) (max (cnts (ix2 (i 0) (0 : Fin 1))) oneW)

/-- A dense step: Σₖ a(p,k) · W(k,q) + b(q). -/
def dense {G D H : ℕ} (a : FVec Ideal ⟨2, ![G, D]⟩ .f32) (W : FVec Ideal ⟨2, ![D, H]⟩ .f32) (b : FVec Ideal ⟨2, ![1, H]⟩ .f32) :
    FVec Ideal ⟨2, ![G, H]⟩ .f32 :=
  fun i => (∑ k : Fin D, a (ix2 (i 0) k) * W (ix2 k (i 1))) + b (ix2 (0 : Fin 1) (i 1))

/-- A dense step clipped at zero. -/
def denseRelu {G D H : ℕ} (a : FVec Ideal ⟨2, ![G, D]⟩ .f32) (W : FVec Ideal ⟨2, ![D, H]⟩ .f32) (b : FVec Ideal ⟨2, ![1, H]⟩ .f32) :
    FVec Ideal ⟨2, ![G, H]⟩ .f32 :=
  fun i => max (dense a W b i) zeroW

/-- The head: tanh of the second dense step of the clipped first dense step of the per-graph means. -/
def head {G D H A : ℕ} (sums : FVec Ideal ⟨2, ![G, D]⟩ .f32) (cnts : FVec Ideal ⟨2, ![G, 1]⟩ .f32)
    (Wa : FVec Ideal ⟨2, ![D, H]⟩ .f32) (ba : FVec Ideal ⟨2, ![1, H]⟩ .f32)
    (Wo : FVec Ideal ⟨2, ![H, A]⟩ .f32) (bo : FVec Ideal ⟨2, ![1, A]⟩ .f32) : FVec Ideal ⟨2, ![G, A]⟩ .f32 :=
  fun i => Ideal.tanh (dense (denseRelu (pooled sums cnts) Wa ba) Wo bo i)

end Cert.Gcn

end
-- ==== Proof.KValue.lean ====
/-
  The idealized kernel's value, stage by stage, as functions of the thirteen argument arrays.

  From the edge list come the source and target words of each edge, the node factor dinv(n) = (1 + number of edges landing
  on n)^(-1/2) and, from the graph ids, the node count of each graph. Layer 1's features are (x · W1) with row n scaled by
  dinv(n). Each later layer is made from the previous layer's scaled features f: out = dinv·(edge sum of f + f) + bias
  (clipped at zero except in the last layer), projected by the next weights and scaled by dinv again. The last layer's out
  is summed per graph, and the head maps the per-graph sums to the result.
-/
import proofs.«172819_j4715874091890_2_alg».proof.KernelIdeal
import proofs.«172819_j4715874091890_2_alg».proof.Proof.Gen.KernelIdeal
import proofs.«172819_j4715874091890_2_alg».proof.Proof.Forms

noncomputable section

namespace Cert.KernelIdeal

open Idealize.ShloMosaic Idealize.ShloMosaic.ValueIdx
open Facts₀ Facts

namespace KV

/-- The source words: row 0 of the edge list. -/
def srcw (x1 : (⟨S2x3200000, .i32⟩ : BufTy).Contents (Elt Ideal)) : IVec S3200000 32 :=
  shapeCast S3200000 (extractStridedSlice S1x3200000 ![0, 0] x1 slices_S2x3200000_S1x3200000_0_0) shapeCasts_S1x3200000_S3200000
/-- The target words: row 1 of the edge list. -/
def dstw (x1 : (⟨S2x3200000, .i32⟩ : BufTy).Contents (Elt Ideal)) : IVec S3200000 32 :=
  shapeCast S3200000 (extractStridedSlice S1x3200000 ![1, 0] x1 slices_S2x3200000_S1x3200000_1_0) shapeCasts_S1x3200000_S3200000
/-- The source words with a negative word wrapped by the node count, as a column. -/
def srcn (x1 : (⟨S2x3200000, .i32⟩ : BufTy).Contents (Elt Ideal)) : IVec S3200000x1 32 :=
  broadcastInDim S3200000x1 ![0] bcast_S3200000_S3200000x1_0
    (select (cmpi .slt (srcw x1) (broadcastInDim S3200000 ![] bcast_S_S3200000 (constantI S_ 32 0#32)))
      (addi (srcw x1) (broadcastInDim S3200000 ![] bcast_S_S3200000 (constantI S_ 32 100000#32))) (srcw x1))
/-- The target words as a column. -/
def dstc (x1 : (⟨S2x3200000, .i32⟩ : BufTy).Contents (Elt Ideal)) : IVec S3200000x1 32 := broadcastInDim S3200000x1 ![0] bcast_S3200000_S3200000x1_0 (dstw x1)
/-- The node factor: the reciprocal square root of one plus the number of edges landing on the node. -/
def dinv (x1 : (⟨S2x3200000, .i32⟩ : BufTy).Contents (Elt Ideal)) : FVec Ideal S100000 .f32 :=
  Host.rsqrt (addf
    (Host.scatterAdd scatter_S100000_S3200000x1_S3200000_n_0_0_1
      (broadcastInDim S100000 ![] bcast_S_S100000 (constant S_ .f32 0x00000000#32)) (dstc x1)
      (broadcastInDim S3200000 ![] bcast_S_S3200000 (constant S_ .f32 0x3F800000#32)))
    (broadcastInDim S100000 ![] bcast_S_S100000 (constant S_ .f32 0x3F800000#32)))
/-- The node factor as a column. -/
def dcol (x1 : (⟨S2x3200000, .i32⟩ : BufTy).Contents (Elt Ideal)) : FVec Ideal S100000x1 .f32 := shapeCast S100000x1 (dinv x1) shapeCasts_S100000_S100000x1
/-- The number of nodes of each graph. -/
def cnt (x2 : (⟨S100000, .i32⟩ : BufTy).Contents (Elt Ideal)) : FVec Ideal S64 .f32 :=
  Host.scatterAdd scatter_S64_S100000x1_S100000_n_0_0_1
    (broadcastInDim S64 ![] bcast_S_S64 (constant S_ .f32 0x00000000#32))
    (broadcastInDim S100000x1 ![0] bcast_S100000_S100000x1_0 x2)
    (broadcastInDim S100000 ![] bcast_S_S100000 (constant S_ .f32 0x3F800000#32))
/-- The node counts as a column. -/
def cntcol (x2 : (⟨S100000, .i32⟩ : BufTy).Contents (Elt Ideal)) : FVec Ideal S64x1 .f32 := shapeCast S64x1 (cnt x2) shapeCasts_S64_S64x1
/-- The graph id words as a column. -/
def bcol (x2 : (⟨S100000, .i32⟩ : BufTy).Contents (Elt Ideal)) : IVec S100000x1 32 := shapeCast S100000x1 x2 shapeCasts_S100000_S100000x1

/-- The edge sum of the rows of f: zero scatter-added, along the target words, with the rows gathered at the sources. -/
def agg16 (f : FVec Ideal S100000x16 .f32) (x1 : (⟨S2x3200000, .i32⟩ : BufTy).Contents (Elt Ideal)) : FVec Ideal S100000x16 .f32 :=
  Host.scatterAdd scatter_S100000x16_S3200000x1_S3200000x16_1_0_0_1
    (broadcastInDim S100000x16 ![] bcast_S_S100000x16 (constant S_ .f32 0x00000000#32)) (dstc x1)
    (Host.gather gather_S100000x16_S3200000x1_S3200000x16_1_0_n_n_0_1_116 f (srcn x1))
def agg64 (f : FVec Ideal S100000x64 .f32) (x1 : (⟨S2x3200000, .i32⟩ : BufTy).Contents (Elt Ideal)) : FVec Ideal S100000x64 .f32 :=
  Host.scatterAdd scatter_S100000x64_S3200000x1_S3200000x64_1_0_0_1
    (broadcastInDim S100000x64 ![] bcast_S_S100000x64 (constant S_ .f32 0x00000000#32)) (dstc x1)
    (Host.gather gather_S100000x64_S3200000x1_S3200000x64_1_0_n_n_0_1_164 f (srcn x1))
def agg32 (f : FVec Ideal S100000x32 .f32) (x1 : (⟨S2x3200000, .i32⟩ : BufTy).Contents (Elt Ideal)) : FVec Ideal S100000x32 .f32 :=
  Host.scatterAdd scatter_S100000x32_S3200000x1_S3200000x32_1_0_0_1
    (broadcastInDim S100000x32 ![] bcast_S_S100000x32 (constant S_ .f32 0x00000000#32)) (dstc x1)
    (Host.gather gather_S100000x32_S3200000x1_S3200000x32_1_0_n_n_0_1_132 f (srcn x1))

/-- Layer 1's scaled features: (x · W1) with row n scaled by the node factor. -/
def hs1 (x0 : (⟨S100000x128, .f32⟩ : BufTy).Contents (Elt Ideal)) (x1 : (⟨S2x3200000, .i32⟩ : BufTy).Contents (Elt Ideal)) (x3 : (⟨S128x16, .f32⟩ : BufTy).Contents (Elt Ideal)) : FVec Ideal S100000x16 .f32 :=
  Cert.LayerForms.dotScale (R := 100000) (K := 128) (N := 16) (φ := .f32) x0 x3 (dcol x1)
/-- From layer 1's scaled features f to layer 2's. -/
def nl16 (f : FVec Ideal S100000x16 .f32) (x1 : (⟨S2x3200000, .i32⟩ : BufTy).Contents (Elt Ideal)) (x4 : (⟨S16, .f32⟩ : BufTy).Contents (Elt Ideal)) (x5 : (⟨S16x64, .f32⟩ : BufTy).Contents (Elt Ideal)) : FVec Ideal S100000x64 .f32 :=
  Cert.Gcn.nextLayer (R := 100000) (K := 16) (N := 64) (agg16 f x1) f (dcol x1) (shapeCast S1x16 x4 shapeCasts_S16_S1x16) x5
/-- From layer 2's scaled features f to layer 3's. -/
def nl64 (f : FVec Ideal S100000x64 .f32) (x1 : (⟨S2x3200000, .i32⟩ : BufTy).Contents (Elt Ideal)) (x6 : (⟨S64, .f32⟩ : BufTy).Contents (Elt Ideal)) (x7 : (⟨S64x32, .f32⟩ : BufTy).Contents (Elt Ideal)) : FVec Ideal S100000x32 .f32 :=
  Cert.Gcn.nextLayer (R := 100000) (K := 64) (N := 32) (agg64 f x1) f (dcol x1) (shapeCast S1x64 x6 shapeCasts_S64_S1x64) x7
/-- From layer 3's scaled features f to the per-graph sums of layer 3's output. -/
def pool (f : FVec Ideal S100000x32 .f32) (x1 : (⟨S2x3200000, .i32⟩ : BufTy).Contents (Elt Ideal)) (x2 : (⟨S100000, .i32⟩ : BufTy).Contents (Elt Ideal)) (x8 : (⟨S32, .f32⟩ : BufTy).Contents (Elt Ideal)) : FVec Ideal S64x32 .f32 :=
  Cert.Gcn.poolSum (M := 100000) (G := 64) (D := 32)
    (Cert.Gcn.combine (R := 100000) (K := 32) (agg32 f x1) f (dcol x1) (shapeCast S1x32 x8 shapeCasts_S32_S1x32)) (bcol x2)
/-- From the per-graph sums s to the result. -/
def headOf (s : FVec Ideal S64x32 .f32) (x2 : (⟨S100000, .i32⟩ : BufTy).Contents (Elt Ideal)) (x9 : (⟨S32x64, .f32⟩ : BufTy).Contents (Elt Ideal)) (x10 : (⟨S64, .f32⟩ : BufTy).Contents (Elt Ideal)) (x11 : (⟨S64x32, .f32⟩ : BufTy).Contents (Elt Ideal)) (x12 : (⟨S32, .f32⟩ : BufTy).Contents (Elt Ideal)) : FVec Ideal S64x32 .f32 :=
  Cert.Gcn.head (G := 64) (D := 32) (H := 64) (A := 32) s (cntcol x2) x9 (shapeCast S1x64 x10 shapeCasts_S64_S1x64) x11
    (shapeCast S1x32 x12 shapeCasts_S32_S1x32)
/-- The kernel's result as one function of the thirteen argument arrays. -/
def out (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x16, .f32⟩ : BufTy).Contents (Elt Ideal)) (x4 : (⟨S16, .f32⟩ : BufTy).Contents (Elt Ideal)) (x5 : (⟨S16x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x64, .f32⟩ : BufTy).Contents (Elt Ideal)) (x10 : (⟨S64, .f32⟩ : BufTy).Contents (Elt Ideal)) (x11 : (⟨S64x32, .f32⟩ : BufTy).Contents (Elt Ideal)) (x12 : (⟨S32, .f32⟩ : BufTy).Contents (Elt Ideal)) : FVec Ideal S64x32 .f32 :=
  headOf (pool (nl64 (nl16 (hs1 x0 x1 x3) x1 x4 x5) x1 x6 x7) x1 x2 x8) x2 x9 x10 x11 x12

end KV

end Cert.KernelIdeal

end
-- ==== Proof.Reg0.lean ====
/-
  The first region: project the node features and scale the rows.

  The region runs over 20 grid points. At point t its windows are rows 5000·t … 5000·t + 4999 of the 100000×128
  feature matrix x and of the 100000×1 column c of node factors, the whole 128×16 weight matrix W, and the same rows of
  the 100000×16 result. The body multiplies its block of x by W into a zero accumulator (both cut to the short float
  format, which over the extended reals changes nothing) and scales row p by c(p): entry (p, q) of what it stores is
  (Σₖ x(p,k)·W(k,q))·c(p,0). That entry reads only row p of x and of c, so the block written at point t is the block of
  rows of the whole-matrix result, and the twenty blocks of rows cover the result array.
-/
import proofs.«172819_j4715874091890_2_alg».proof.Proof.Gen.KernelIdeal.Frame
import proofs.«172819_j4715874091890_2_alg».proof.Proof.Forms

noncomputable section
namespace Cert.KernelIdeal.Reg0
open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators

/-! ## The vector unit's step, over any sizes -/

/-- The product of the two operands cut to the short format into a zero accumulator, its rows scaled by the column spread
    over the columns, is the projection followed by the scaling, entry by entry. -/
theorem body_dotScale {R K N : ℕ} (d : DotDims ⟨2, ![R, K]⟩ ⟨2, ![K, N]⟩ ⟨2, ![R, N]⟩) (hd : d = DotDims.plain R K N)
    (x0 : FVec Ideal ⟨2, ![R, K]⟩ .f32) (x1 : FVec Ideal ⟨2, ![K, N]⟩ .f32) (x2 : FVec Ideal ⟨2, ![R, 1]⟩ .f32)
    (h2 : (⟨2, ![R, 1]⟩ : Shape).ShapeCasts ⟨2, ![R, 1]⟩) (hb2 : (⟨2, ![R, 1]⟩ : Shape).Broadcasts ⟨2, ![R, N]⟩)
    (hlt : FTy.bf16.bits < FTy.f32.bits) :
    mulf (matmul d none (truncf .bf16 x0 hlt) (truncf .bf16 x1 hlt) (constant ⟨2, ![R, N]⟩ .f32 0x00000000#32))
      (broadcastTo ⟨2, ![R, N]⟩ (shapeCast ⟨2, ![R, 1]⟩ x2 h2) hb2)
    = Cert.LayerForms.dotScale (φ := .f32) x0 x1 x2 := by
  funext i
  obtain ⟨p, q, rfl⟩ : ∃ (p : Fin R) (q : Fin N), i = ix2 p q := ⟨i 0, i 1, eq_ix2 i⟩
  rw [Cert.LayerForms.dotScale_apply, mulf_apply, shapeCast_self, Cert.LibColumn.broadcastTo_a1_ab_apply]
  exact congrArg (· * x2 (ix2 p (0 : Fin 1)))
    (Cert.LibPlainDot.matmul_zero_apply d hd none (truncf .bf16 x0 hlt) (truncf .bf16 x1 hlt) p q)

/-- What the body stores, as a function of the three blocks it loads. -/
theorem pay_eq (v0 : Vec Ideal S5000x128 .f32) (v2 : Vec Ideal S128x16 .f32) (v5 : Vec Ideal S5000x1 .f32) :
    k0_pay1 v0 v2 v5 = Cert.LayerForms.dotScale (R := 5000) (K := 128) (N := 16) (φ := .f32) v0 v2 v5 := by
  unfold k0_pay1
  dsimp only
  exact body_dotScale (R := 5000) (K := 128) (N := 16) dot_S5000x128_S128x16_S5000x16_1_0_0_1_n_n rfl v0 v2 v5
    shapeCasts_S5000x1_S5000x1 broadcasts_S5000x1_S5000x16 bitsLt_bf16_f32

/-! ## A block of rows of the whole-matrix result -/

/-- If a block's rows are rows ρ(p) of the matrix and of the column, and the index map sends (p, q) to (ρ(p), q),
    then the step of the blocks is the whole-matrix step read through the index map. -/
theorem rows_eq {R R' K N : ℕ} (ρ : Fin R' → Fin R)
    (A : FVec Ideal ⟨2, ![R, K]⟩ .f32) (W : FVec Ideal ⟨2, ![K, N]⟩ .f32) (C : FVec Ideal ⟨2, ![R, 1]⟩ .f32)
    (A' : FVec Ideal ⟨2, ![R', K]⟩ .f32) (W' : FVec Ideal ⟨2, ![K, N]⟩ .f32) (C' : FVec Ideal ⟨2, ![R', 1]⟩ .f32)
    (e : (⟨2, ![R', N]⟩ : Shape).Idx → (⟨2, ![R, N]⟩ : Shape).Idx)
    (hA : ∀ p k, A' (ix2 p k) = A (ix2 (ρ p) k)) (hW : W' = W) (hC : ∀ p, C' (ix2 p (0 : Fin 1)) = C (ix2 (ρ p) (0 : Fin 1)))
    (he : ∀ p q, e (ix2 p q) = ix2 (ρ p) q) :
    Cert.LayerForms.dotScale (φ := .f32) A' W' C' = fun y => Cert.LayerForms.dotScale (φ := .f32) A W C (e y) := by
  funext y
  obtain ⟨p, q, rfl⟩ : ∃ (p : Fin R') (q : Fin N), y = ix2 p q := ⟨y 0, y 1, eq_ix2 y⟩
  rw [he]
  exact Cert.LayerForms.dotScale_rows ρ A W C A' W' C' hA hW hC p q

/-! ## From the blocks to the array -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- What the body leaves in the output's buffer is the step of the three input buffers. -/
theorem out_eq (x0 : Vec Ideal S5000x128 .f32) (x1 : Vec Ideal S128x16 .f32) (x2 : Vec Ideal S5000x1 .f32) :
    out0_3 x0 x1 x2 = Cert.LayerForms.dotScale (R := 5000) (K := 128) (N := 16) (φ := .f32) x0 x1 x2 := by
  unfold out0_3
  rw [View.canon_unit_zero hz]
  simp only [View.ld_unit_zero (S := S5000x128) hz, View.ld_unit_zero (S := S128x16) hz, View.ld_unit_zero (S := S5000x1) hz]
  exact pay_eq x0 x1 x2

/-- At point t the row-blocked windows sit at block t of the rows, the weight window at block 0; no window moves along
    the columns. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Row p of the block at point t is row 5000·t + p of the array. -/
def row (t : Fin cfg0.N) (p : Fin 5000) : Fin 100000 :=
  ⟨t.val * 5000 + p.val, by
    have h : t.val < 20 := lt_of_lt_of_eq t.isLt (show cfg0.N = 20 from N_0)
    have := p.isLt; omega⟩

theorem row_val (t : Fin cfg0.N) (p : Fin 5000) : (row t p).val = t.val * 5000 + p.val := rfl

/-- The block of the feature matrix at point t. -/
theorem blk0_apply (t : Fin cfg0.N) (p : Fin 5000) (k : Fin 128) :
    (iblk0 V c 0 t : Vec Ideal S5000x128 .f32) (ix2 p k) = V c main_arg0 (ix2 (row t p) k) := by
  obtain ⟨h0, h1⟩ := (idx_facts t).1
  unfold iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [h0]; omega
  | ⟨1, _⟩ => show win0_0.index t (1 : Fin 2) * 128 + 1 * k.val = k.val; rw [h1]; omega

/-- The weight window's block is the whole weight matrix at every point. -/
theorem blk1 (t : Fin cfg0.N) : (iblk0 V c 1 t : Vec Ideal S128x16 .f32) = V c main_arg3 := by
  obtain ⟨h0, h1⟩ := (idx_facts t).2.1
  funext y
  unfold iblk0
  rw [View.read_apply]
  show V c main_arg3 _ = V c main_arg3 y
  congr 1
  funext a
  apply Fin.ext
  match a with
  | ⟨0, _⟩ => show win0_1.index t (0 : Fin 2) * 128 + 1 * (y 0).val = (y 0).val; rw [h0]; omega
  | ⟨1, _⟩ => show win0_1.index t (1 : Fin 2) * 16 + 1 * (y 1).val = (y 1).val; rw [h1]; omega

/-- The block of the column of node factors at point t. -/
theorem blk2_apply (t : Fin cfg0.N) (p : Fin 5000) :
    (iblk0 V c 2 t : Vec Ideal S5000x1 .f32) (ix2 p (0 : Fin 1)) = V c main_v12 (ix2 (row t p) (0 : Fin 1)) := by
  obtain ⟨h0, h1⟩ := (idx_facts t).2.2.1
  unfold iblk0
  rw [View.read_apply]
  show V c main_v12 _ = V c main_v12 _
  congr 1
  funext a
  apply Fin.ext
  match a with
  | ⟨0, _⟩ => show win0_2.index t (0 : Fin 2) * 5000 + 1 * p.val = t.val * 5000 + p.val; rw [h0]; omega
  | ⟨1, _⟩ => show win0_2.index t (1 : Fin 2) * 1 + 1 * 0 = 0; rw [h1]

/-- Where entry (p, q) of the output's block at point t sits in the array. -/
theorem emb3 (t : Fin cfg0.N) (p : Fin 5000) (q : Fin 16) :
    ((cfg0.win 3).blk t).view.emb (ix2 p q) = ix2 (row t p) q := by
  obtain ⟨h0, h1⟩ := (idx_facts t).2.2.2
  funext a
  apply Fin.ext
  match a with
  | ⟨0, _⟩ => show win0_3.index t (0 : Fin 2) * 5000 + 1 * p.val = t.val * 5000 + p.val; rw [h0]; omega
  | ⟨1, _⟩ => show win0_3.index t (1 : Fin 2) * 16 + 1 * q.val = q.val; rw [h1]; omega

/-- The projection of the whole feature matrix, its rows scaled, as the region finds the three arrays. -/
abbrev result : FVec Ideal ⟨2, ![100000, 16]⟩ .f32 :=
  Cert.LayerForms.dotScale (R := 100000) (K := 128) (N := 16) (φ := .f32) (V c main_arg0) (V c main_arg3) (V c main_v12)

/-- What point t writes back is its block of rows of the whole-matrix result. -/
theorem flushed_eq (t : Fin cfg0.N) :
    (dat0 V c).flushed 3 t = ((cfg0.win 3).blk t).view.read (Elt Ideal) (result V c) := by
  show (cfg0.win 3).cut (grid0.coords t) ((dat0 V c).after 3 t) = _
  rw [after0_3, out_eq]
  funext y
  show Cert.LayerForms.dotScale (R := 5000) (K := 128) (N := 16) (φ := .f32) (iblk0 V c 0 t) (iblk0 V c 1 t) (iblk0 V c 2 t) y
    = result V c (((cfg0.win 3).blk t).view.emb y)
  exact congrFun (rows_eq (row t) (V c main_arg0) (V c main_arg3) (V c main_v12) (iblk0 V c 0 t) (iblk0 V c 1 t) (iblk0 V c 2 t)
    (((cfg0.win 3).blk t).view.emb) (blk0_apply V c t) (blk1 V c t) (blk2_apply V c t) (emb3 t)) y

/-- After the region the output array holds the projection of the features with its rows scaled. -/
theorem arr : (dat0 (F := Ideal) V c).arrAt 3 cfg0.N
    = Cert.LayerForms.dotScale (R := 100000) (K := 128) (N := 16) (φ := .f32) (V c main_arg0) (V c main_arg3) (V c main_v12) :=
  (dat0 V c).arrAt_eq_of_cover 3 (result V c) (fun t _ => flushed_eq V c t) fun i => by
    have b0 : (i 0 : Nat) < 100000 := (i 0).isLt
    have b1 : (i 1 : Nat) < 16 := (i 1).isLt
    have hN : cfg0.N = 20 := N_0
    obtain ⟨t, ht⟩ : ∃ t : Fin cfg0.N, t.val = (i 0 : Nat) / 5000 := ⟨⟨(i 0 : Nat) / 5000, by rw [hN]; omega⟩, rfl⟩
    obtain ⟨h0, h1⟩ := (idx_facts t).2.2.2
    refine ⟨t, flush0_3 t, ?_⟩
    show i ∈ ((View.whole main_v18).slice (win0_3.rect t)).set
    rw [View.set_slice_whole, Rect.mem_set_unit]
    intro a
    match a with
    | ⟨0, _⟩ =>
      show win0_3.index t (0 : Fin 2) * 5000 ≤ (i 0 : Nat) ∧ (i 0 : Nat) < win0_3.index t (0 : Fin 2) * 5000 + 5000
      rw [h0, ht]; omega
    | ⟨1, _⟩ =>
      show win0_3.index t (1 : Fin 2) * 16 ≤ (i 1 : Nat) ∧ (i 1 : Nat) < win0_3.index t (1 : Fin 2) * 16 + 16
      rw [h1]; omega

end Cert.KernelIdeal.Reg0
end
-- ==== Proof.Reg1.lean ====
/-
  Region 1 of the network's program: finish the first graph-convolution layer and start the second.

  The region runs one body over twenty blocks of 5000 rows of a 100000-row node matrix. On a block the body clips
  c(n)·(agg(n,k) + hs(n,k)) + b(k) at zero, multiplies the result by the 16×64 weights and scales row n by c(n) again.
  Entry (n, q) of that reads only row n of the aggregated rows, of the scaled features and of the node factor column,
  and the bias row and the weights are the same at every block; so the block of rows a grid point writes back is the
  corresponding block of rows of ONE function of the whole arrays, the layer step `Cert.Gcn.nextLayer`. The twenty
  blocks tile the 100000 rows (row r lies in block r / 5000), hence the output array ends holding that function.
-/
import proofs.«172819_j4715874091890_2_alg».proof.Proof.Gen.KernelIdeal.Frame
import proofs.«172819_j4715874091890_2_alg».proof.Proof.Forms
import Idealize.ShloMosaic.Lib.Pipeline.Value

noncomputable section
namespace Cert.KernelIdeal.Reg1
open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators

/-! ## The body's arithmetic on a block of rows -/

/-- The vector unit's operations on a block of R rows — the node factor column spread over the block's columns and
    multiplied into agg + hs, the bias row spread over the rows and added, the clip at zero, the product with W into a
    zero accumulator (the change of float format is the identity on the extended reals), the column spread again and
    multiplied in — are, entry by entry, (Σₖ max (c(p)·(agg(p,k) + hs(p,k)) + b(k)) 0 · W(k,q)) · c(p). -/
theorem body_nextLayer {R K N : ℕ} (d : DotDims ⟨2, ![R, K]⟩ ⟨2, ![K, N]⟩ ⟨2, ![R, N]⟩) (hd : d = DotDims.plain R K N)
    (agg hs : FVec Ideal ⟨2, ![R, K]⟩ .f32) (c : FVec Ideal ⟨2, ![R, 1]⟩ .f32) (b : FVec Ideal ⟨2, ![1, K]⟩ .f32)
    (W : FVec Ideal ⟨2, ![K, N]⟩ .f32)
    (hc : (⟨2, ![R, 1]⟩ : Shape).ShapeCasts ⟨2, ![R, 1]⟩) (h0 h1 : (⟨2, ![R, K]⟩ : Shape).ShapeCasts ⟨2, ![R, K]⟩)
    (hb : (⟨2, ![1, K]⟩ : Shape).ShapeCasts ⟨2, ![1, K]⟩)
    (hbc : (⟨2, ![R, 1]⟩ : Shape).Broadcasts ⟨2, ![R, K]⟩) (hbb : (⟨2, ![1, K]⟩ : Shape).Broadcasts ⟨2, ![R, K]⟩)
    (hbo : (⟨2, ![R, 1]⟩ : Shape).Broadcasts ⟨2, ![R, N]⟩) (hlt : FTy.bf16.bits < FTy.f32.bits) :
    mulf (matmul d none
        (truncf .bf16 (maximumf (addf (mulf (broadcastTo ⟨2, ![R, K]⟩ (shapeCast ⟨2, ![R, 1]⟩ c hc) hbc)
              (addf (shapeCast ⟨2, ![R, K]⟩ agg h0) (shapeCast ⟨2, ![R, K]⟩ hs h1)))
            (broadcastTo ⟨2, ![R, K]⟩ (shapeCast ⟨2, ![1, K]⟩ b hb) hbb))
          (broadcast ⟨2, ![R, K]⟩ (Scalar.ofBits .f32 0x00000000#32 : Ideal .f32))) hlt)
        (truncf .bf16 W hlt)
        (constant ⟨2, ![R, N]⟩ .f32 0x00000000#32))
      (broadcastTo ⟨2, ![R, N]⟩ (shapeCast ⟨2, ![R, 1]⟩ c hc) hbo)
    = Cert.Gcn.nextLayer agg hs c b W := by
  funext i
  obtain ⟨p, q, rfl⟩ : ∃ (p : Fin R) (q : Fin N), i = ix2 p q := ⟨i 0, i 1, eq_ix2 i⟩
  rw [Cert.Gcn.nextLayer_apply, mulf_apply, shapeCast_self, shapeCast_self, shapeCast_self, shapeCast_self,
    Cert.LibColumn.broadcastTo_a1_ab_apply]
  refine congrArg (· * c (ix2 p (0 : Fin 1)))
    ((Cert.LibPlainDot.matmul_zero_apply d hd none _ _ p q).trans (Finset.sum_congr rfl fun k _ => ?_))
  rw [truncf_apply, truncf_apply, maximumf_apply, addf_apply, mulf_apply, addf_apply,
    Cert.LibColumn.broadcastTo_a1_ab_apply, Cert.LayerForms.broadcastTo_1n_rn_apply, broadcast_apply,
    Cert.Gcn.combineRelu_apply]
  rfl

/-- The body's payload of region 1, on blocks of 5000 rows. -/
theorem pay_eq (v0 : Vec Ideal S5000x1 .f32) (v2 v4 : Vec Ideal S5000x16 .f32) (v9 : Vec Ideal S1x16 .f32) (v16 : Vec Ideal S16x64 .f32) :
    k1_pay1 (F := Ideal) v0 v2 v4 v9 v16 = Cert.Gcn.nextLayer (R := 5000) (K := 16) (N := 64) v2 v4 v0 v9 v16 := by
  unfold k1_pay1
  exact body_nextLayer dot_S5000x16_S16x64_S5000x64_1_0_0_1_n_n rfl v2 v4 v0 v9 v16 _ _ _ _ _ _ _ _

/-! ## The windows' index maps over the grid -/

theorem hz : (![0, 0] : Fin 2 → Nat) = fun _ => 0 := funext fun a => by fin_cases a <;> rfl

/-- The windows' index maps, decided once over the twenty grid points: the row-blocked windows sit at row block t, the
    bias row and the weights are whole at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## What the body leaves in the output's buffer -/

/-- The output block after the body is the layer step of the five input blocks: the one store covers the buffer and every
    load reads a whole block. -/
theorem out_eq (x0 x1 : Vec Ideal S5000x16 .f32) (x2 : Vec Ideal S5000x1 .f32) (x3 : Vec Ideal S1x16 .f32) (x4 : Vec Ideal S16x64 .f32) :
    out1_5 (F := Ideal) x0 x1 x2 x3 x4 = Cert.Gcn.nextLayer (R := 5000) (K := 16) (N := 64) x0 x1 x2 x3 x4 := by
  unfold out1_5
  rw [View.canon_unit_zero hz]
  simp only [View.ld_unit_zero (S := S5000x1) hz, View.ld_unit_zero (S := S5000x16) hz, View.ld_unit_zero (S := S1x16) hz,
    View.ld_unit_zero (S := S16x64) hz]
  exact pay_eq x2 x0 x1 x3 x4

/-! ## A block of rows of the layer step -/

/-- Entry (p, q) of the layer step reads only row p of the aggregated rows, of the scaled features and of the node
    factor column: a block of rows of the result is the step of the blocks of rows. -/
theorem nextLayer_rows {R R' K N : ℕ} (ρ : Fin R' → Fin R)
    (agg hs : FVec Ideal ⟨2, ![R, K]⟩ .f32) (c : FVec Ideal ⟨2, ![R, 1]⟩ .f32) (b : FVec Ideal ⟨2, ![1, K]⟩ .f32) (W : FVec Ideal ⟨2, ![K, N]⟩ .f32)
    (agg' hs' : FVec Ideal ⟨2, ![R', K]⟩ .f32) (c' : FVec Ideal ⟨2, ![R', 1]⟩ .f32) (b' : FVec Ideal ⟨2, ![1, K]⟩ .f32) (W' : FVec Ideal ⟨2, ![K, N]⟩ .f32)
    (hagg : ∀ p k, agg' (ix2 p k) = agg (ix2 (ρ p) k)) (hhs : ∀ p k, hs' (ix2 p k) = hs (ix2 (ρ p) k))
    (hc : ∀ p, c' (ix2 p (0 : Fin 1)) = c (ix2 (ρ p) (0 : Fin 1))) (hb : b' = b) (hW : W' = W) (p : Fin R') (q : Fin N) :
    Cert.Gcn.nextLayer agg' hs' c' b' W' (ix2 p q) = Cert.Gcn.nextLayer agg hs c b W (ix2 (ρ p) q) := by
  subst hb hW
  rw [Cert.Gcn.nextLayer_apply, Cert.Gcn.nextLayer_apply, hc]
  refine congrArg (fun s => s * c (ix2 (ρ p) (0 : Fin 1))) (Finset.sum_congr rfl fun k _ => ?_)
  rw [Cert.Gcn.combineRelu_apply, Cert.Gcn.combineRelu_apply, hc, hagg, hhs]

/-- The same for row block n of 5000 rows out of 100000, at an entry of the block and the entry of the whole result it
    sits at. -/
theorem block_eq {K N : ℕ} (A0 A1 : FVec Ideal ⟨2, ![100000, K]⟩ .f32) (A2 : FVec Ideal ⟨2, ![100000, 1]⟩ .f32)
    (A3 : FVec Ideal ⟨2, ![1, K]⟩ .f32) (A4 : FVec Ideal ⟨2, ![K, N]⟩ .f32)
    (x0 x1 : FVec Ideal ⟨2, ![5000, K]⟩ .f32) (x2 : FVec Ideal ⟨2, ![5000, 1]⟩ .f32)
    (x3 : FVec Ideal ⟨2, ![1, K]⟩ .f32) (x4 : FVec Ideal ⟨2, ![K, N]⟩ .f32) (n : ℕ) (hn : n < 20)
    (h0 : ∀ (p : Fin 5000) (k : Fin K) (r : Fin 100000), r.val = 5000 * n + p.val → x0 (ix2 p k) = A0 (ix2 r k))
    (h1 : ∀ (p : Fin 5000) (k : Fin K) (r : Fin 100000), r.val = 5000 * n + p.val → x1 (ix2 p k) = A1 (ix2 r k))
    (h2 : ∀ (p : Fin 5000) (r : Fin 100000), r.val = 5000 * n + p.val → x2 (ix2 p (0 : Fin 1)) = A2 (ix2 r (0 : Fin 1)))
    (h3 : x3 = A3) (h4 : x4 = A4)
    (j : (⟨2, ![5000, N]⟩ : Shape).Idx) (i : (⟨2, ![100000, N]⟩ : Shape).Idx)
    (hi0 : (i 0).val = 5000 * n + (j 0).val) (hi1 : (i 1).val = (j 1).val) :
    Cert.Gcn.nextLayer x0 x1 x2 x3 x4 j = Cert.Gcn.nextLayer A0 A1 A2 A3 A4 i := by
  obtain ⟨p, q, rfl⟩ : ∃ (p : Fin 5000) (q : Fin N), j = ix2 p q := ⟨j 0, j 1, eq_ix2 j⟩
  obtain ⟨r, s, rfl⟩ : ∃ (r : Fin 100000) (s : Fin N), i = ix2 r s := ⟨i 0, i 1, eq_ix2 i⟩
  have hp : p.val < 5000 := p.isLt
  have hr : r.val = 5000 * n + p.val := hi0
  obtain rfl : s = q := Fin.ext hi1
  have hrρ : r = (⟨5000 * n + p.val, by omega⟩ : Fin 100000) := Fin.ext hr
  rw [hrρ]
  exact nextLayer_rows (fun p => (⟨5000 * n + p.val, by have := p.isLt; omega⟩ : Fin 100000)) A0 A1 A2 A3 A4 x0 x1 x2 x3 x4
    (fun p k => h0 p k _ rfl) (fun p k => h1 p k _ rfl) (fun p => h2 p _ rfl) h3 h4 p _

/-! ## The input blocks as rows of the arrays the region finds -/

variable (V : (c : Dev nD) → (b : Ref sig .tc) → Buf (Elt Ideal) ((c : Thread nD τ).loc b)) (c : Dev nD)

/-- Block t of the aggregated rows is rows 5000·t … 5000·t + 4999 of the array. -/
theorem iblk0_apply (t : Fin cfg1.N) (p : Fin 5000) (k : Fin 16) (r : Fin 100000) (hr : r.val = 5000 * t.val + p.val) :
    (iblk1 (F := Ideal) V c 0 t : Vec Ideal S5000x16 .f32) (ix2 p k) = (V c main_v28 : S100000x16.Idx → Elt Ideal .f32) (ix2 r k) := by
  obtain ⟨e0, e1, -⟩ := idx_facts t
  unfold iblk1
  rw [View.read_apply]
  show V c main_v28 _ = V c main_v28 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 16 + 1 * k.val = k.val; rw [e1]; omega

/-- Block t of the scaled features is the same rows of its array. -/
theorem iblk1_apply (t : Fin cfg1.N) (p : Fin 5000) (k : Fin 16) (r : Fin 100000) (hr : r.val = 5000 * t.val + p.val) :
    (iblk1 (F := Ideal) V c 1 t : Vec Ideal S5000x16 .f32) (ix2 p k) = (V c main_v18 : S100000x16.Idx → Elt Ideal .f32) (ix2 r k) := by
  obtain ⟨-, -, e0, e1, -⟩ := idx_facts t
  unfold iblk1
  rw [View.read_apply]
  show V c main_v18 _ = V c main_v18 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 16 + 1 * k.val = k.val; rw [e1]; omega

/-- Block t of the node factor column is the same rows of the column. -/
theorem iblk2_apply (t : Fin cfg1.N) (p : Fin 5000) (r : Fin 100000) (hr : r.val = 5000 * t.val + p.val) :
    (iblk1 (F := Ideal) V c 2 t : Vec Ideal S5000x1 .f32) (ix2 p (0 : Fin 1)) = (V c main_v12 : S100000x1.Idx → Elt Ideal .f32) (ix2 r (0 : Fin 1)) := by
  obtain ⟨-, -, -, -, e0, e1, -⟩ := idx_facts t
  unfold iblk1
  rw [View.read_apply]
  show V c main_v12 _ = V c main_v12 _
  congr 1
  funext a
  apply Fin.ext
  match a with
  | ⟨0, _⟩ => show win1_2.index t (0 : Fin 2) * 5000 + 1 * p.val = r.val; rw [e0, hr]; omega
  | ⟨1, _⟩ => show win1_2.index t (1 : Fin 2) * 1 + 1 * 0 = 0; rw [e1]

/-- The bias row's one block is the whole row, at every point. -/
theorem iblk3_eq (t : Fin cfg1.N) : (iblk1 (F := Ideal) V c 3 t : Vec Ideal S1x16 .f32) = (V c main_v29 : S1x16.Idx → Elt Ideal .f32) := by
  obtain ⟨-, -, -, -, -, -, e0, e1, -⟩ := idx_facts t
  unfold iblk1
  funext y
  rw [View.read_apply]
  show V c main_v29 _ = V c main_v29 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 16 + 1 * (y 1).val = (y 1).val; rw [e1]; omega

/-- The weights' one block is the whole matrix, at every point. -/
theorem iblk4_eq (t : Fin cfg1.N) : (iblk1 (F := Ideal) V c 4 t : Vec Ideal S16x64 .f32) = (V c main_arg5 : S16x64.Idx → Elt Ideal .f32) := by
  obtain ⟨-, -, -, -, -, -, -, -, e0, e1, -⟩ := idx_facts t
  unfold iblk1
  funext y
  rw [View.read_apply]
  show V c main_arg5 _ = V c main_arg5 y
  congr 1
  funext a
  apply Fin.ext
  match a with
  | ⟨0, _⟩ => show win1_4.index t (0 : Fin 2) * 16 + 1 * (y 0).val = (y 0).val; rw [e0]; omega
  | ⟨1, _⟩ => show win1_4.index t (1 : Fin 2) * 64 + 1 * (y 1).val = (y 1).val; rw [e1]; omega

/-! ## From the blocks to the array -/

/-- The layer step of the whole arrays, as the region finds them. -/
abbrev G : S100000x64.Idx → Elt Ideal .f32 :=
  Cert.Gcn.nextLayer (R := 100000) (K := 16) (N := 64) (V c main_v28) (V c main_v18) (V c main_v12) (V c main_v29) (V c main_arg5)

/-- What point t writes back is block t of the layer step of the whole arrays. -/
theorem flushed_eq (t : Fin cfg1.N) :
    (dat1 (F := Ideal) V c).flushed 5 t = ((cfg1.win 5).blk t).view.read (Elt Ideal) (G V c) := by
  have hN : cfg1.N = 20 := N_1
  have ht : t.val < 20 := hN ▸ t.isLt
  obtain ⟨-, -, -, -, -, -, -, -, -, -, e0, e1⟩ := idx_facts t
  show (cfg1.win 5).cut (grid1.coords t) ((dat1 V c).after 5 t) = _
  rw [after1_5]
  funext j
  rw [View.read_apply]
  refine (congrFun (out_eq (iblk1 V c 0 t) (iblk1 V c 1 t) (iblk1 V c 2 t) (iblk1 V c 3 t) (iblk1 V c 4 t)) j).trans ?_
  refine block_eq (V c main_v28) (V c main_v18) (V c main_v12) (V c main_v29) (V c main_arg5)
    (iblk1 V c 0 t) (iblk1 V c 1 t) (iblk1 V c 2 t) (iblk1 V c 3 t) (iblk1 V c 4 t) t.val ht
    (fun p k r hr => iblk0_apply V c t p k r hr) (fun p k r hr => iblk1_apply V c t p k r hr)
    (fun p r hr => iblk2_apply V c t p r hr) (iblk3_eq V c t) (iblk4_eq V c t) j (((cfg1.win 5).blk t).view.emb j) ?_ ?_
  · show win1_5.index t (0 : Fin 2) * 5000 + 1 * (j 0).val = 5000 * t.val + (j 0).val
    rw [e0]; omega
  · show win1_5.index t (1 : Fin 2) * 64 + 1 * (j 1).val = (j 1).val
    rw [e1]; omega

/-- An index of the array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v30).slice (win1_5.rect t)).set ↔ _
  rw [View.set_slice_whole, Rect.mem_set_unit]
  exact Iff.rfl

/-- Row r of the array is in the block of point r / 5000: the twenty blocks cover the array. -/
theorem cover (i : S100000x64.Idx) : ∃ t : Fin cfg1.N, (cfg1.win 5).flush t = true ∧ i ∈ ((cfg1.win 5).blk t).view.set := by
  have hN : cfg1.N = 20 := N_1
  have hi0 : (i 0).val < 100000 := (i 0).isLt
  have hi1 : (i 1).val < 64 := (i 1).isLt
  have hlt : (i 0).val / 5000 < cfg1.N := by rw [hN]; omega
  refine ⟨⟨(i 0).val / 5000, hlt⟩, flush1_5 _, ?_⟩
  obtain ⟨-, -, -, -, -, -, -, -, -, -, e0, e1⟩ := idx_facts ⟨(i 0).val / 5000, hlt⟩
  rw [mem_blk]
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e1]; omega

/-- REGION 1's output array after the run is the layer step of the arrays the region finds. -/
theorem arr : (dat1 (F := Ideal) V c).arrAt 5 cfg1.N
    = Cert.Gcn.nextLayer (R := 100000) (K := 16) (N := 64) (V c main_v28) (V c main_v18) (V c main_v12) (V c main_v29) (V c main_arg5) :=
  (dat1 (F := Ideal) V c).arrAt_eq_of_cover 5 (G V c) (fun t _ => flushed_eq V c t) cover

end Cert.KernelIdeal.Reg1
end
-- ==== Proof.Reg2.lean ====
/-
  Region 2 of the network's program: finish the second graph-convolution layer and start the third.

  The region runs one body over twenty blocks of 5000 rows of a 100000-row node matrix. On a block the body clips
  c(n)·(agg(n,k) + hs(n,k)) + b(k) at zero, multiplies the result by the 64×32 weights and scales row n by c(n) again.
  Entry (n, q) of that reads only row n of the aggregated rows, of the scaled features and of the node factor column,
  and the bias row and the weights are the same at every block; so the block of rows a grid point writes back is the
  corresponding block of rows of ONE function of the whole arrays, the layer step `Cert.Gcn.nextLayer`. The twenty
  blocks tile the 100000 rows (row r lies in block r / 5000), hence the output array ends holding that function.
-/
import proofs.«172819_j4715874091890_2_alg».proof.Proof.Gen.KernelIdeal.Frame
import proofs.«172819_j4715874091890_2_alg».proof.Proof.Forms
import Idealize.ShloMosaic.Lib.Pipeline.Value

noncomputable section
namespace Cert.KernelIdeal.Reg2
open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators

/-! ## The body's arithmetic on a block of rows -/

/-- The vector unit's operations on a block of R rows — the node factor column spread over the block's columns and
    multiplied into agg + hs, the bias row spread over the rows and added, the clip at zero, the product with W into a
    zero accumulator (the change of float format is the identity on the extended reals), the column spread again and
    multiplied in — are, entry by entry, (Σₖ max (c(p)·(agg(p,k) + hs(p,k)) + b(k)) 0 · W(k,q)) · c(p). -/
theorem body_nextLayer {R K N : ℕ} (d : DotDims ⟨2, ![R, K]⟩ ⟨2, ![K, N]⟩ ⟨2, ![R, N]⟩) (hd : d = DotDims.plain R K N)
    (agg hs : FVec Ideal ⟨2, ![R, K]⟩ .f32) (c : FVec Ideal ⟨2, ![R, 1]⟩ .f32) (b : FVec Ideal ⟨2, ![1, K]⟩ .f32)
    (W : FVec Ideal ⟨2, ![K, N]⟩ .f32)
    (hc : (⟨2, ![R, 1]⟩ : Shape).ShapeCasts ⟨2, ![R, 1]⟩) (h0 h1 : (⟨2, ![R, K]⟩ : Shape).ShapeCasts ⟨2, ![R, K]⟩)
    (hb : (⟨2, ![1, K]⟩ : Shape).ShapeCasts ⟨2, ![1, K]⟩)
    (hbc : (⟨2, ![R, 1]⟩ : Shape).Broadcasts ⟨2, ![R, K]⟩) (hbb : (⟨2, ![1, K]⟩ : Shape).Broadcasts ⟨2, ![R, K]⟩)
    (hbo : (⟨2, ![R, 1]⟩ : Shape).Broadcasts ⟨2, ![R, N]⟩) (hlt : FTy.bf16.bits < FTy.f32.bits) :
    mulf (matmul d none
        (truncf .bf16 (maximumf (addf (mulf (broadcastTo ⟨2, ![R, K]⟩ (shapeCast ⟨2, ![R, 1]⟩ c hc) hbc)
              (addf (shapeCast ⟨2, ![R, K]⟩ agg h0) (shapeCast ⟨2, ![R, K]⟩ hs h1)))
            (broadcastTo ⟨2, ![R, K]⟩ (shapeCast ⟨2, ![1, K]⟩ b hb) hbb))
          (broadcast ⟨2, ![R, K]⟩ (Scalar.ofBits .f32 0x00000000#32 : Ideal .f32))) hlt)
        (truncf .bf16 W hlt)
        (constant ⟨2, ![R, N]⟩ .f32 0x00000000#32))
      (broadcastTo ⟨2, ![R, N]⟩ (shapeCast ⟨2, ![R, 1]⟩ c hc) hbo)
    = Cert.Gcn.nextLayer agg hs c b W := by
  funext i
  obtain ⟨p, q, rfl⟩ : ∃ (p : Fin R) (q : Fin N), i = ix2 p q := ⟨i 0, i 1, eq_ix2 i⟩
  rw [Cert.Gcn.nextLayer_apply, mulf_apply, shapeCast_self, shapeCast_self, shapeCast_self, shapeCast_self,
    Cert.LibColumn.broadcastTo_a1_ab_apply]
  refine congrArg (· * c (ix2 p (0 : Fin 1)))
    ((Cert.LibPlainDot.matmul_zero_apply d hd none _ _ p q).trans (Finset.sum_congr rfl fun k _ => ?_))
  rw [truncf_apply, truncf_apply, maximumf_apply, addf_apply, mulf_apply, addf_apply,
    Cert.LibColumn.broadcastTo_a1_ab_apply, Cert.LayerForms.broadcastTo_1n_rn_apply, broadcast_apply,
    Cert.Gcn.combineRelu_apply]
  rfl

/-- The body's payload of region 2, on blocks of 5000 rows. -/
theorem pay_eq (v0 : Vec Ideal S5000x1 .f32) (v2 v4 : Vec Ideal S5000x64 .f32) (v9 : Vec Ideal S1x64 .f32) (v16 : Vec Ideal S64x32 .f32) :
    k2_pay1 (F := Ideal) v0 v2 v4 v9 v16 = Cert.Gcn.nextLayer (R := 5000) (K := 64) (N := 32) v2 v4 v0 v9 v16 := by
  unfold k2_pay1
  exact body_nextLayer dot_S5000x64_S64x32_S5000x32_1_0_0_1_n_n rfl v2 v4 v0 v9 v16 _ _ _ _ _ _ _ _

/-! ## The windows' index maps over the grid -/

theorem hz : (![0, 0] : Fin 2 → Nat) = fun _ => 0 := funext fun a => by fin_cases a <;> rfl

/-- The windows' index maps, decided once over the twenty grid points: the row-blocked windows sit at row block t, the
    bias row and the weights are whole at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## What the body leaves in the output's buffer -/

/-- The output block after the body is the layer step of the five input blocks: the one store covers the buffer and every
    load reads a whole block. -/
theorem out_eq (x0 x1 : Vec Ideal S5000x64 .f32) (x2 : Vec Ideal S5000x1 .f32) (x3 : Vec Ideal S1x64 .f32) (x4 : Vec Ideal S64x32 .f32) :
    out2_5 (F := Ideal) x0 x1 x2 x3 x4 = Cert.Gcn.nextLayer (R := 5000) (K := 64) (N := 32) x0 x1 x2 x3 x4 := by
  unfold out2_5
  rw [View.canon_unit_zero hz]
  simp only [View.ld_unit_zero (S := S5000x1) hz, View.ld_unit_zero (S := S5000x64) hz, View.ld_unit_zero (S := S1x64) hz,
    View.ld_unit_zero (S := S64x32) hz]
  exact pay_eq x2 x0 x1 x3 x4

/-! ## A block of rows of the layer step -/

/-- Entry (p, q) of the layer step reads only row p of the aggregated rows, of the scaled features and of the node
    factor column: a block of rows of the result is the step of the blocks of rows. -/
theorem nextLayer_rows {R R' K N : ℕ} (ρ : Fin R' → Fin R)
    (agg hs : FVec Ideal ⟨2, ![R, K]⟩ .f32) (c : FVec Ideal ⟨2, ![R, 1]⟩ .f32) (b : FVec Ideal ⟨2, ![1, K]⟩ .f32) (W : FVec Ideal ⟨2, ![K, N]⟩ .f32)
    (agg' hs' : FVec Ideal ⟨2, ![R', K]⟩ .f32) (c' : FVec Ideal ⟨2, ![R', 1]⟩ .f32) (b' : FVec Ideal ⟨2, ![1, K]⟩ .f32) (W' : FVec Ideal ⟨2, ![K, N]⟩ .f32)
    (hagg : ∀ p k, agg' (ix2 p k) = agg (ix2 (ρ p) k)) (hhs : ∀ p k, hs' (ix2 p k) = hs (ix2 (ρ p) k))
    (hc : ∀ p, c' (ix2 p (0 : Fin 1)) = c (ix2 (ρ p) (0 : Fin 1))) (hb : b' = b) (hW : W' = W) (p : Fin R') (q : Fin N) :
    Cert.Gcn.nextLayer agg' hs' c' b' W' (ix2 p q) = Cert.Gcn.nextLayer agg hs c b W (ix2 (ρ p) q) := by
  subst hb hW
  rw [Cert.Gcn.nextLayer_apply, Cert.Gcn.nextLayer_apply, hc]
  refine congrArg (fun s => s * c (ix2 (ρ p) (0 : Fin 1))) (Finset.sum_congr rfl fun k _ => ?_)
  rw [Cert.Gcn.combineRelu_apply, Cert.Gcn.combineRelu_apply, hc, hagg, hhs]

/-- The same for row block n of 5000 rows out of 100000, at an entry of the block and the entry of the whole result it
    sits at. -/
theorem block_eq {K N : ℕ} (A0 A1 : FVec Ideal ⟨2, ![100000, K]⟩ .f32) (A2 : FVec Ideal ⟨2, ![100000, 1]⟩ .f32)
    (A3 : FVec Ideal ⟨2, ![1, K]⟩ .f32) (A4 : FVec Ideal ⟨2, ![K, N]⟩ .f32)
    (x0 x1 : FVec Ideal ⟨2, ![5000, K]⟩ .f32) (x2 : FVec Ideal ⟨2, ![5000, 1]⟩ .f32)
    (x3 : FVec Ideal ⟨2, ![1, K]⟩ .f32) (x4 : FVec Ideal ⟨2, ![K, N]⟩ .f32) (n : ℕ) (hn : n < 20)
    (h0 : ∀ (p : Fin 5000) (k : Fin K) (r : Fin 100000), r.val = 5000 * n + p.val → x0 (ix2 p k) = A0 (ix2 r k))
    (h1 : ∀ (p : Fin 5000) (k : Fin K) (r : Fin 100000), r.val = 5000 * n + p.val → x1 (ix2 p k) = A1 (ix2 r k))
    (h2 : ∀ (p : Fin 5000) (r : Fin 100000), r.val = 5000 * n + p.val → x2 (ix2 p (0 : Fin 1)) = A2 (ix2 r (0 : Fin 1)))
    (h3 : x3 = A3) (h4 : x4 = A4)
    (j : (⟨2, ![5000, N]⟩ : Shape).Idx) (i : (⟨2, ![100000, N]⟩ : Shape).Idx)
    (hi0 : (i 0).val = 5000 * n + (j 0).val) (hi1 : (i 1).val = (j 1).val) :
    Cert.Gcn.nextLayer x0 x1 x2 x3 x4 j = Cert.Gcn.nextLayer A0 A1 A2 A3 A4 i := by
  obtain ⟨p, q, rfl⟩ : ∃ (p : Fin 5000) (q : Fin N), j = ix2 p q := ⟨j 0, j 1, eq_ix2 j⟩
  obtain ⟨r, s, rfl⟩ : ∃ (r : Fin 100000) (s : Fin N), i = ix2 r s := ⟨i 0, i 1, eq_ix2 i⟩
  have hp : p.val < 5000 := p.isLt
  have hr : r.val = 5000 * n + p.val := hi0
  obtain rfl : s = q := Fin.ext hi1
  have hrρ : r = (⟨5000 * n + p.val, by omega⟩ : Fin 100000) := Fin.ext hr
  rw [hrρ]
  exact nextLayer_rows (fun p => (⟨5000 * n + p.val, by have := p.isLt; omega⟩ : Fin 100000)) A0 A1 A2 A3 A4 x0 x1 x2 x3 x4
    (fun p k => h0 p k _ rfl) (fun p k => h1 p k _ rfl) (fun p => h2 p _ rfl) h3 h4 p _

/-! ## The input blocks as rows of the arrays the region finds -/

variable (V : (c : Dev nD) → (b : Ref sig .tc) → Buf (Elt Ideal) ((c : Thread nD τ).loc b)) (c : Dev nD)

/-- Block t of the aggregated rows is rows 5000·t … 5000·t + 4999 of the array. -/
theorem iblk0_apply (t : Fin cfg2.N) (p : Fin 5000) (k : Fin 64) (r : Fin 100000) (hr : r.val = 5000 * t.val + p.val) :
    (iblk2 (F := Ideal) V c 0 t : Vec Ideal S5000x64 .f32) (ix2 p k) = (V c main_v40 : S100000x64.Idx → Elt Ideal .f32) (ix2 r k) := by
  obtain ⟨e0, e1, -⟩ := idx_facts t
  unfold iblk2
  rw [View.read_apply]
  show V c main_v40 _ = V c main_v40 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- Block t of the scaled features is the same rows of its array. -/
theorem iblk1_apply (t : Fin cfg2.N) (p : Fin 5000) (k : Fin 64) (r : Fin 100000) (hr : r.val = 5000 * t.val + p.val) :
    (iblk2 (F := Ideal) V c 1 t : Vec Ideal S5000x64 .f32) (ix2 p k) = (V c main_v30 : S100000x64.Idx → Elt Ideal .f32) (ix2 r k) := by
  obtain ⟨-, -, e0, e1, -⟩ := idx_facts t
  unfold iblk2
  rw [View.read_apply]
  show V c main_v30 _ = V c main_v30 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 64 + 1 * k.val = k.val; rw [e1]; omega

/-- Block t of the node factor column is the same rows of the column. -/
theorem iblk2_apply (t : Fin cfg2.N) (p : Fin 5000) (r : Fin 100000) (hr : r.val = 5000 * t.val + p.val) :
    (iblk2 (F := Ideal) V c 2 t : Vec Ideal S5000x1 .f32) (ix2 p (0 : Fin 1)) = (V c main_v12 : S100000x1.Idx → Elt Ideal .f32) (ix2 r (0 : Fin 1)) := by
  obtain ⟨-, -, -, -, e0, e1, -⟩ := idx_facts t
  unfold iblk2
  rw [View.read_apply]
  show V c main_v12 _ = V c main_v12 _
  congr 1
  funext a
  apply Fin.ext
  match a with
  | ⟨0, _⟩ => show win2_2.index t (0 : Fin 2) * 5000 + 1 * p.val = r.val; rw [e0, hr]; omega
  | ⟨1, _⟩ => show win2_2.index t (1 : Fin 2) * 1 + 1 * 0 = 0; rw [e1]

/-- The bias row's one block is the whole row, at every point. -/
theorem iblk3_eq (t : Fin cfg2.N) : (iblk2 (F := Ideal) V c 3 t : Vec Ideal S1x64 .f32) = (V c main_v41 : S1x64.Idx → Elt Ideal .f32) := by
  obtain ⟨-, -, -, -, -, -, e0, e1, -⟩ := idx_facts t
  unfold iblk2
  funext y
  rw [View.read_apply]
  show V c main_v41 _ = V c main_v41 y
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- The weights' one block is the whole matrix, at every point. -/
theorem iblk4_eq (t : Fin cfg2.N) : (iblk2 (F := Ideal) V c 4 t : Vec Ideal S64x32 .f32) = (V c main_arg7 : S64x32.Idx → Elt Ideal .f32) := by
  obtain ⟨-, -, -, -, -, -, -, -, e0, e1, -⟩ := idx_facts t
  unfold iblk2
  funext y
  rw [View.read_apply]
  show V c main_arg7 _ = V c main_arg7 y
  congr 1
  funext a
  apply Fin.ext
  match a with
  | ⟨0, _⟩ => show win2_4.index t (0 : Fin 2) * 64 + 1 * (y 0).val = (y 0).val; rw [e0]; omega
  | ⟨1, _⟩ => show win2_4.index t (1 : Fin 2) * 32 + 1 * (y 1).val = (y 1).val; rw [e1]; omega

/-! ## From the blocks to the array -/

/-- The layer step of the whole arrays, as the region finds them. -/
abbrev G : S100000x32.Idx → Elt Ideal .f32 :=
  Cert.Gcn.nextLayer (R := 100000) (K := 64) (N := 32) (V c main_v40) (V c main_v30) (V c main_v12) (V c main_v41) (V c main_arg7)

/-- What point t writes back is block t of the layer step of the whole arrays. -/
theorem flushed_eq (t : Fin cfg2.N) :
    (dat2 (F := Ideal) V c).flushed 5 t = ((cfg2.win 5).blk t).view.read (Elt Ideal) (G V c) := by
  have hN : cfg2.N = 20 := N_2
  have ht : t.val < 20 := hN ▸ t.isLt
  obtain ⟨-, -, -, -, -, -, -, -, -, -, e0, e1⟩ := idx_facts t
  show (cfg2.win 5).cut (grid2.coords t) ((dat2 V c).after 5 t) = _
  rw [after2_5]
  funext j
  rw [View.read_apply]
  refine (congrFun (out_eq (iblk2 V c 0 t) (iblk2 V c 1 t) (iblk2 V c 2 t) (iblk2 V c 3 t) (iblk2 V c 4 t)) j).trans ?_
  refine block_eq (V c main_v40) (V c main_v30) (V c main_v12) (V c main_v41) (V c main_arg7)
    (iblk2 V c 0 t) (iblk2 V c 1 t) (iblk2 V c 2 t) (iblk2 V c 3 t) (iblk2 V c 4 t) t.val ht
    (fun p k r hr => iblk0_apply V c t p k r hr) (fun p k r hr => iblk1_apply V c t p k r hr)
    (fun p r hr => iblk2_apply V c t p r hr) (iblk3_eq V c t) (iblk4_eq V c t) j (((cfg2.win 5).blk t).view.emb j) ?_ ?_
  · show win2_5.index t (0 : Fin 2) * 5000 + 1 * (j 0).val = 5000 * t.val + (j 0).val
    rw [e0]; omega
  · show win2_5.index t (1 : Fin 2) * 32 + 1 * (j 1).val = (j 1).val
    rw [e1]; omega

/-- An index of the array is in point t's block iff each coordinate is in the block's range on its axis. -/
theorem mem_blk (t : Fin cfg2.N) (i : S100000x32.Idx) :
    i ∈ ((cfg2.win 5).blk t).view.set ↔ ∀ a : Fin 2, win2_5.index t a * S5000x32.size a ≤ (i a).val
      ∧ (i a).val < win2_5.index t a * S5000x32.size a + S5000x32.size a := by
  show i ∈ ((View.whole main_v42).slice (win2_5.rect t)).set ↔ _
  rw [View.set_slice_whole, Rect.mem_set_unit]
  exact Iff.rfl

/-- Row r of the array is in the block of point r / 5000: the twenty blocks cover the array. -/
theorem cover (i : S100000x32.Idx) : ∃ t : Fin cfg2.N, (cfg2.win 5).flush t = true ∧ i ∈ ((cfg2.win 5).blk t).view.set := by
  have hN : cfg2.N = 20 := N_2
  have hi0 : (i 0).val < 100000 := (i 0).isLt
  have hi1 : (i 1).val < 32 := (i 1).isLt
  have hlt : (i 0).val / 5000 < cfg2.N := by rw [hN]; omega
  refine ⟨⟨(i 0).val / 5000, hlt⟩, flush2_5 _, ?_⟩
  obtain ⟨-, -, -, -, -, -, -, -, -, -, e0, e1⟩ := idx_facts ⟨(i 0).val / 5000, hlt⟩
  rw [mem_blk]
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 32 ≤ (i 1).val ∧ (i 1).val < win2_5.index _ (1 : Fin 2) * 32 + 32
    rw [e1]; omega

/-- REGION 2's output array after the run is the layer step of the arrays the region finds. -/
theorem arr : (dat2 (F := Ideal) V c).arrAt 5 cfg2.N
    = Cert.Gcn.nextLayer (R := 100000) (K := 64) (N := 32) (V c main_v40) (V c main_v30) (V c main_v12) (V c main_v41) (V c main_arg7) :=
  (dat2 (F := Ideal) V c).arrAt_eq_of_cover 5 (G V c) (fun t _ => flushed_eq V c t) cover

end Cert.KernelIdeal.Reg2
end
-- ==== Proof.LibScatterSum.lean ====
/-
  Two general facts for comparing a blocked, dense computation with a gather / scatter-add formulation of the
  same sums. Nothing here mentions a program.

  * Over the extended reals the host's accumulating float scatter is, at each element, the operand's element plus
    the sum of the updates whose result index is that element. When those updates are exactly the image of an
    injective enumeration `g` (for a dense edge list: the edges with a given target, enumerated by their source),
    the sum is a plain sum over the enumeration.
  * A sum over `m * n` consecutive rows is the sum over the `m` blocks of the sums over each block's `n` rows.
-/
import Idealize.ShloMosaic.PureOps.Ideal
import Mathlib.Algebra.BigOperators.Fin
import Mathlib.Logic.Equiv.Fin.Basic

noncomputable section

namespace Cert.Lib.ScatterSum

open Idealize.ShloMosaic

/-- The accumulating scatter at element `i`, when the updates landing on `i` are enumerated without repetition by
    `g`: the operand's element plus the sum of those updates. -/
theorem hostScatterAdd_apply_of_fiber {s si su : Shape} (d : ScatterDims s si su) {w : Nat} (x : s.Idx → EReal)
    (idx : IVec si w) (upd : su.Idx → EReal) (i : s.Idx) {κ : Type*} [Fintype κ] (g : κ → su.Idx)
    (hg : Function.Injective g) (h : ∀ j, d.resultIdx? j idx = some i ↔ ∃ k, g k = j) :
    Ideal.hostScatterAdd d x idx upd i = x i + ∑ k, upd (g k) := by
  classical
  unfold Ideal.hostScatterAdd
  have e : (Finset.univ.filter fun j => d.resultIdx? j idx = some i) = Finset.univ.image g := by
    ext j
    simp only [Finset.mem_filter, Finset.mem_univ, true_and, Finset.mem_image, h]
  have e' : (∑ j ∈ Finset.univ.filter (fun j => d.resultIdx? j idx = some i), upd j) = ∑ k, upd (g k) := by
    rw [← Finset.sum_image (s := Finset.univ) (g := g) (f := upd) (fun a _ b _ hab => hg hab), ← e]
  exact congrArg (x i + ·) e'

/-- Row `i` of block `b` is a row of the whole. -/
theorem block_row_lt {m n b i : ℕ} (hb : b < m) (hi : i < n) : b * n + i < m * n :=
  calc b * n + i < b * n + n := Nat.add_lt_add_left hi _
    _ = (b + 1) * n := by ring
    _ ≤ m * n := Nat.mul_le_mul_right _ hb

/-- A sum over `m * n` rows, block by block. -/
theorem sum_blocks {M : Type*} [AddCommMonoid M] (m n : ℕ) (f : Fin (m * n) → M) :
    ∑ k, f k = ∑ b : Fin m, ∑ i : Fin n, f ⟨b.val * n + i.val, block_row_lt b.isLt i.isLt⟩ := by
  rw [← Equiv.sum_comp finProdFinEquiv f, Fintype.sum_prod_type]
  refine Finset.sum_congr rfl fun b _ => Finset.sum_congr rfl fun i _ => congrArg f (Fin.ext ?_)
  simp only [finProdFinEquiv_apply_val]
  ring

end Cert.Lib.ScatterSum

end
-- ==== Proof.Reg3.lean ====
/-
  The per-graph sums of the last layer, as one function of the whole arrays.

  The region runs over twenty blocks of 5000 node rows and keeps one 64×32 block of running sums. At the first block the
  sums are set to zero; at every block t the step adds, to the sums held so far, the product of the transposed membership
  matrix of the block's rows with the block's combined features:

      S(g,q)  ←  S(g,q) + Σₖ [batch(5000·t + k) = g] · (c(n)·(agg(n,q) + hs(n,q)) + b(q)),   n = 5000·t + k.

  So after block t the sums are ((0 + T₀) + T₁) + … + T_t with T_b the sum of the terms of block b's rows, and after the
  last block they are the sum over all 20 · 5000 = 100000 nodes taken block by block. Over the extended reals addition is
  associative with 0 + x = x, so no finiteness is asked. The membership entry is the comparison of the node's graph id
  word with the column number, widened to a word and converted: 1 when the two words are equal, else 0.

  The parts: what each of the two control cases leaves in the block, as the accumulate step of the input blocks; the
  accumulate step read at one entry; each input block's entry as the whole array's entry at row 5000·t + k; the running
  sums by induction on the block; the single write-back, after the last block, of a block that is the whole array.
-/
import proofs.«172819_j4715874091890_2_alg».proof.Proof.Gen.KernelIdeal.Frame
import proofs.«172819_j4715874091890_2_alg».proof.Proof.Forms
import proofs.«172819_j4715874091890_2_alg».proof.Proof.LibScatterSum
import Idealize.ShloMosaic.Lib.Pipeline.Value
import Idealize.ShloMosaic.Lib.Tactic
import Idealize.ShloMosaic.Lib.KernelVsHost
import proofs.«172819_j4715874091890_2_alg».proof.Proof.LibColumn
import proofs.«172819_j4715874091890_2_alg».proof.Proof.LibLayerForms

noncomputable section
namespace Cert.KernelIdeal.Reg3
open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators

section Pieces
variable {F : FTy → Type} [FloatOps F]

theorem hz : (![0, 0] : Fin 2 → Nat) = fun _ => 0 := funext fun a => by fin_cases a <;> rfl

/-- At a point after the first the block is left holding the accumulate step of what it held and the five input blocks. -/
theorem out_B (c : Dev nD) (i : grid3.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S5000x1 .i32) (harg5 : arg5.IsWhole) (arg6 : Memref sig .tc .vmem S64x32 .f32) (harg6 : arg6.IsWhole) (hc0 : ¬cond3_0 i)
    (x0 : Vec F S5000x32 .f32) (x1 : Vec F S5000x32 .f32) (x2 : Vec F S5000x1 .f32) (x3 : Vec F S1x32 .f32) (x4 : Vec F S5000x1 .i32) (xo5 : Vec F S64x32 .f32) :
    out3_B_5 c i arg1 harg1 arg2 harg2 arg3 harg3 arg4 harg4 arg5 harg5 arg6 harg6 hc0 x0 x1 x2 x3 x4 xo5 = k3_pay2 x2 x0 x1 x3 x4 xo5 := by
  unfold out3_B_5
  rw [View.read_writes_eq_canon _ _ _ (cover3_B_5 c i arg1 harg1 arg2 harg2 arg3 harg3 arg4 harg4 arg5 harg5 arg6 harg6 hc0 x0 x1 x2 x3 x4 xo5)]
  unfold kernelRun3_B
  dsimp only
  rw [View.canon_unit_zero hz]
  simp only [View.readAt_eq_ld, harg1.read_unread, harg2.read_unread, harg3.read_unread, harg4.read_unread, harg5.read_unread,
    harg6.read_unread, View.ld_unit_zero (S := S5000x32) hz, View.ld_unit_zero (S := S5000x1) hz, View.ld_unit_zero (S := S1x32) hz,
    View.ld_unit_zero (S := S64x32) hz]

/-- At the first point the block is zeroed first, so it is left holding the accumulate step of the zero block. -/
theorem out_A (c : Dev nD) (i : grid3.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S5000x1 .i32) (harg5 : arg5.IsWhole) (arg6 : Memref sig .tc .vmem S64x32 .f32) (harg6 : arg6.IsWhole) (hc0 : cond3_0 i)
    (x0 : Vec F S5000x32 .f32) (x1 : Vec F S5000x32 .f32) (x2 : Vec F S5000x1 .f32) (x3 : Vec F S1x32 .f32) (x4 : Vec F S5000x1 .i32) :
    out3_A_5 c i arg1 harg1 arg2 harg2 arg3 harg3 arg4 harg4 arg5 harg5 arg6 harg6 hc0 x0 x1 x2 x3 x4 = k3_pay2 x2 x0 x1 x3 x4 (k3_pay1 (F := F)) := by
  unfold out3_A_5
  rw [View.read_writes_eq_canon _ _ _ (cover3_A_5 c i arg1 harg1 arg2 harg2 arg3 harg3 arg4 harg4 arg5 harg5 arg6 harg6 hc0 x0 x1 x2 x3 x4)]
  unfold kernelRun3_A
  dsimp only
  sl_unfold_words
  rw [View.canon_cons_unit_zero (S := S64x32) hz, View.readCov_unit_zero (S := S64x32) _ hz]
  simp only [View.readAt_eq_ld, harg1.read_unread, harg2.read_unread, harg3.read_unread, harg4.read_unread, harg5.read_unread,
    View.ld_unit_zero (S := S5000x32) hz, View.ld_unit_zero (S := S5000x1) hz, View.ld_unit_zero (S := S1x32) hz]
end Pieces

section Payload

/-- A comparison bit widened to a word and converted to a float is the membership indicator. -/
theorem ind_word (w : BitVec 32) (g : Fin 64) :
    (FloatOps.sitofp (F := Ideal) .f32 ((IntOp.cmpi .eq w (BitVec.ofNat 32 g.val)).setWidth 32) : EReal) = Cert.Gcn.ind w g := by
  show (((((IntOp.cmpi .eq w (BitVec.ofNat 32 g.val)).setWidth 32).toInt : ℤ) : ℝ) : EReal) = _
  rw [toInt_setWidth_bit]
  unfold Cert.Gcn.ind IntOp.cmpi
  by_cases h : w = BitVec.ofNat 32 g.val
  · simp [h]
  · simp [h]

/-- The product that contracts the row axis of both operands, into the zero accumulator, at entry (g, q):
    the sum over the rows k of l(k,g)·r(k,q). -/
theorem poolDot_apply (l : FVec Ideal S5000x64 .f32) (r : FVec Ideal S5000x32 .f32) (g : Fin 64) (q : Fin 32) :
    FloatOps.matmul dot_S5000x64_S5000x32_S64x32_0_0_1_1_n_n none l r (constant S64x32 .f32 0x00000000#32) (ix2 g q)
      = ∑ k : Fin 5000, l (ix2 k g) * r (ix2 k q) := by
  refine (Ideal.matmul_constant_zero_apply _ none l r (ix2 g q)).trans ?_
  rw [← Equiv.sum_comp (contrEquiv1 dot_S5000x64_S5000x32_S64x32_0_0_1_1_n_n 5000 rfl rfl).symm]
  refine Finset.sum_congr rfl fun k _ => ?_
  have hk := contrEquiv1_symm_val dot_S5000x64_S5000x32_S64x32_0_0_1_1_n_n 5000 rfl rfl k
  have el : dot_S5000x64_S5000x32_S64x32_0_0_1_1_n_n.lhsIdx (ix2 g q)
      ((contrEquiv1 dot_S5000x64_S5000x32_S64x32_0_0_1_1_n_n 5000 rfl rfl).symm k) = ix2 k g :=
    funext fun a => Fin.ext (by
      match a with
      | ⟨0, _⟩ => exact (dot_S5000x64_S5000x32_S64x32_0_0_1_1_n_n.lhsIdx_val_of_single rfl (ix2 g q) _).trans hk
      | ⟨1, _⟩ => rfl)
  have er : dot_S5000x64_S5000x32_S64x32_0_0_1_1_n_n.rhsIdx (ix2 g q)
      ((contrEquiv1 dot_S5000x64_S5000x32_S64x32_0_0_1_1_n_n 5000 rfl rfl).symm k) = ix2 k q :=
    funext fun a => Fin.ext (by
      match a with
      | ⟨0, _⟩ => exact (dot_S5000x64_S5000x32_S64x32_0_0_1_1_n_n.rhsIdx_val_of_single rfl (ix2 g q) _).trans hk
      | ⟨1, _⟩ => rfl)
  rw [el, er]

/-- The accumulate step at entry (g, q): what the block held plus the sum, over the block's rows k, of the membership
    indicator of row k's graph id times row k's combined feature c(k)·(agg(k,q)+hs(k,q)) + b(q). -/
theorem pay2_apply (v3 : FVec Ideal S5000x1 .f32) (v5 v7 : FVec Ideal S5000x32 .f32) (v12 : FVec Ideal S1x32 .f32)
    (v16 : IVec S5000x1 32) (v23 : FVec Ideal S64x32 .f32) (g : Fin 64) (q : Fin 32) :
    k3_pay2 (F := Ideal) v3 v5 v7 v12 v16 v23 (ix2 g q)
      = v23 (ix2 g q) + ∑ k : Fin 5000, Cert.Gcn.ind (v16 (ix2 k (0 : Fin 1))) g
          * (v3 (ix2 k (0 : Fin 1)) * (v5 (ix2 k q) + v7 (ix2 k q)) + v12 (ix2 (0 : Fin 1) q)) := by
  unfold k3_pay2
  dsimp only
  refine (addf_apply _ _ _).trans ?_
  refine congrArg₂ (· + ·) (congrFun (shapeCast_self v23 _) _) ?_
  refine (poolDot_apply _ _ g q).trans (Finset.sum_congr rfl fun k _ => ?_)
  refine congrArg₂ (· * ·) ?_ ?_
  · -- the indicator
    refine Eq.trans ?_ (ind_word (v16 (ix2 k (0 : Fin 1))) g)
    refine congrArg (fun b : BitVec 1 => (FloatOps.sitofp (F := Ideal) .f32 (b.setWidth 32) : EReal)) ?_
    refine congrArg₂ (IntOp.cmpi .eq) ?_ ?_
    · refine (Cert.LibColumn.broadcastTo_a1_ab_apply _ _ k g).trans ?_
      exact congrFun (shapeCast_self v16 _) _
    · exact iota_single_apply .tc S5000x64 32 1 _ (ix2 k g)
  · -- the combined feature
    refine (addf_apply _ _ _).trans ?_
    refine congrArg₂ (· + ·) ?_ ?_
    · refine (mulf_apply _ _ _).trans ?_
      refine congrArg₂ (· * ·) ?_ ?_
      · refine (Cert.LibColumn.broadcastTo_a1_ab_apply _ _ k q).trans ?_
        exact congrFun (shapeCast_self v3 _) _
      · refine (addf_apply _ _ _).trans ?_
        exact congrArg₂ (· + ·) (congrFun (shapeCast_self v5 _) _) (congrFun (shapeCast_self v7 _) _)
    · refine (Cert.LayerForms.broadcastTo_1n_rn_apply _ _ k q).trans ?_
      exact congrFun (shapeCast_self v12 _) _

/-- The zero block at any entry is zero. -/
theorem pay1_apply (j : S64x32.Idx) : k3_pay1 (F := Ideal) j = 0 := by
  unfold k3_pay1
  exact Ideal.ofBits_zero_f32

end Payload

section Blocks
variable (V : (c : Dev nD) → (b : Ref sig .tc) → Buf (Elt Ideal) ((c : Thread nD τ).loc b)) (c : Dev nD)

/-- Row k of the b-th block of 5000 rows, as a row of the whole. -/
def row (b : ℕ) (hb : b < 20) (k : Fin 5000) : Fin 100000 := ⟨b * 5000 + k.val, by have := k.isLt; omega⟩

/-- The block index of every window at every point: the row windows sit at block (t, 0), the bias row and the output at (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0 :=
  (by decide +kernel : ∀ t : Fin grid3.N, _)

theorem blk0_apply (t : Fin cfg3.N) (ht : t.val < 20) (k : Fin 5000) (q : Fin 32) :
    (iblk3 (F := Ideal) V c 0 t : Vec Ideal S5000x32 .f32) (ix2 k q) = V c main_v52 (ix2 (row t.val ht k) q) := by
  obtain ⟨e0, e1, -⟩ := idx_facts t
  unfold iblk3
  rw [View.read_apply]
  show V c main_v52 _ = V c main_v52 _
  refine congrArg (V c main_v52) (funext fun a => Fin.ext ?_)
  match a with
  | ⟨0, _⟩ => show win3_0.index t (0 : Fin 2) * 5000 + 1 * k.val = t.val * 5000 + k.val; rw [e0]; omega
  | ⟨1, _⟩ => show win3_0.index t (1 : Fin 2) * 32 + 1 * q.val = q.val; rw [e1]; omega

theorem blk1_apply (t : Fin cfg3.N) (ht : t.val < 20) (k : Fin 5000) (q : Fin 32) :
    (iblk3 (F := Ideal) V c 1 t : Vec Ideal S5000x32 .f32) (ix2 k q) = V c main_v42 (ix2 (row t.val ht k) q) := by
  obtain ⟨-, -, e0, e1, -⟩ := idx_facts t
  unfold iblk3
  rw [View.read_apply]
  show V c main_v42 _ = V c main_v42 _
  refine congrArg (V c main_v42) (funext fun a => Fin.ext ?_)
  match a with
  | ⟨0, _⟩ => show win3_1.index t (0 : Fin 2) * 5000 + 1 * k.val = t.val * 5000 + k.val; rw [e0]; omega
  | ⟨1, _⟩ => show win3_1.index t (1 : Fin 2) * 32 + 1 * q.val = q.val; rw [e1]; omega

theorem blk2_apply (t : Fin cfg3.N) (ht : t.val < 20) (k : Fin 5000) :
    (iblk3 (F := Ideal) V c 2 t : Vec Ideal S5000x1 .f32) (ix2 k (0 : Fin 1)) = V c main_v12 (ix2 (row t.val ht k) (0 : Fin 1)) := by
  obtain ⟨-, -, -, -, e0, e1, -⟩ := idx_facts t
  unfold iblk3
  rw [View.read_apply]
  show V c main_v12 _ = V c main_v12 _
  refine congrArg (V c main_v12) (funext fun a => Fin.ext ?_)
  match a with
  | ⟨0, _⟩ => show win3_2.index t (0 : Fin 2) * 5000 + 1 * k.val = t.val * 5000 + k.val; rw [e0]; omega
  | ⟨1, _⟩ => show win3_2.index t (1 : Fin 2) * 1 + 1 * 0 = 0; rw [e1]

theorem blk3_apply (t : Fin cfg3.N) (q : Fin 32) :
    (iblk3 (F := Ideal) V c 3 t : Vec Ideal S1x32 .f32) (ix2 (0 : Fin 1) q) = V c main_v53 (ix2 (0 : Fin 1) q) := by
  obtain ⟨-, -, -, -, -, -, e0, e1, -⟩ := idx_facts t
  unfold iblk3
  rw [View.read_apply]
  show V c main_v53 _ = V c main_v53 _
  refine congrArg (V c main_v53) (funext fun a => Fin.ext ?_)
  match a with
  | ⟨0, _⟩ => show win3_3.index t (0 : Fin 2) * 1 + 1 * 0 = 0; rw [e0]
  | ⟨1, _⟩ => show win3_3.index t (1 : Fin 2) * 32 + 1 * q.val = q.val; rw [e1]; omega

theorem blk4_apply (t : Fin cfg3.N) (ht : t.val < 20) (k : Fin 5000) :
    (iblk3 (F := Ideal) V c 4 t : Vec Ideal S5000x1 .i32) (ix2 k (0 : Fin 1)) = V c main_v4 (ix2 (row t.val ht k) (0 : Fin 1)) := by
  obtain ⟨-, -, -, -, -, -, -, -, e0, e1, -⟩ := idx_facts t
  unfold iblk3
  rw [View.read_apply]
  show V c main_v4 _ = V c main_v4 _
  refine congrArg (V c main_v4) (funext fun a => Fin.ext ?_)
  match a with
  | ⟨0, _⟩ => show win3_4.index t (0 : Fin 2) * 5000 + 1 * k.val = t.val * 5000 + k.val; rw [e0]; omega
  | ⟨1, _⟩ => show win3_4.index t (1 : Fin 2) * 1 + 1 * 0 = 0; rw [e1]

end Blocks

section Sums
variable (V : (c : Dev nD) → (b : Ref sig .tc) → Buf (Elt Ideal) ((c : Thread nD τ).loc b)) (c : Dev nD)

/-- The combined features of all the nodes: c(n)·(agg(n,q)+hs(n,q)) + b(q). -/
abbrev feat : FVec Ideal ⟨2, ![100000, 32]⟩ .f32 :=
  Cert.Gcn.combine (R := 100000) (K := 32) (V c main_v52) (V c main_v42) (V c main_v12) (V c main_v53)

/-- Node n's term of the sum for graph g and feature q. -/
def term (g : Fin 64) (q : Fin 32) (n : Fin 100000) : EReal :=
  Cert.Gcn.ind (V c main_v4 (ix2 n (0 : Fin 1))) g * feat V c (ix2 n q)

/-- The sum of the terms of the b-th block of 5000 rows. -/
def blockSum (b : ℕ) (hb : b < 20) (g : Fin 64) (q : Fin 32) : EReal := ∑ k : Fin 5000, term V c g q (row b hb k)

/-- One accumulate step on blocks that are the rows of block b of the whole arrays adds block b's sum. -/
theorem step_rows (x0 x1 : FVec Ideal S5000x32 .f32) (x2 : FVec Ideal S5000x1 .f32) (x3 : FVec Ideal S1x32 .f32)
    (x4 : IVec S5000x1 32) (acc : FVec Ideal S64x32 .f32) (b : ℕ) (hb : b < 20)
    (h0 : ∀ k q, x0 (ix2 k q) = V c main_v52 (ix2 (row b hb k) q))
    (h1 : ∀ k q, x1 (ix2 k q) = V c main_v42 (ix2 (row b hb k) q))
    (h2 : ∀ k, x2 (ix2 k (0 : Fin 1)) = V c main_v12 (ix2 (row b hb k) (0 : Fin 1)))
    (h3 : ∀ q, x3 (ix2 (0 : Fin 1) q) = V c main_v53 (ix2 (0 : Fin 1) q))
    (h4 : ∀ k, x4 (ix2 k (0 : Fin 1)) = V c main_v4 (ix2 (row b hb k) (0 : Fin 1)))
    (g : Fin 64) (q : Fin 32) :
    k3_pay2 (F := Ideal) x2 x0 x1 x3 x4 acc (ix2 g q) = acc (ix2 g q) + blockSum V c b hb g q := by
  refine (pay2_apply x2 x0 x1 x3 x4 acc g q).trans ?_
  refine congrArg (acc (ix2 g q) + ·) (Finset.sum_congr rfl fun k _ => ?_)
  rw [h0, h1, h2, h3, h4]
  rfl

/-- At the first point the block is left holding the first block's sum. -/
theorem outsAt_A_apply (t : Fin cfg3.N) (ht : t.val < 20) (h0 : t.val % 20 = 0) (g : Fin 64) (q : Fin 32) :
    outsAt3 (F := Ideal) V c t.val t.isLt (ix2 g q) = blockSum V c t.val ht g q := by
  rw [outsAt3_A V c t h0,
    out_A (F := Ideal) c (grid3.coords t) (ms3_0 t) (hs3_0 t) (ms3_1 t) (hs3_1 t) (ms3_2 t) (hs3_2 t) (ms3_3 t) (hs3_3 t)
      (ms3_4 t) (hs3_4 t) (ms3_5 t) (hs3_5 t) ((hcond3_0 t).mpr h0) (iblk3 V c 0 t) (iblk3 V c 1 t) (iblk3 V c 2 t)
      (iblk3 V c 3 t) (iblk3 V c 4 t)]
  refine (step_rows V c (iblk3 V c 0 t) (iblk3 V c 1 t) (iblk3 V c 2 t) (iblk3 V c 3 t) (iblk3 V c 4 t) (k3_pay1 (F := Ideal))
    t.val ht (blk0_apply V c t ht) (blk1_apply V c t ht) (blk2_apply V c t ht) (blk3_apply V c t) (blk4_apply V c t ht) g q).trans ?_
  rw [pay1_apply, zero_add]

/-- At a later point the block is left holding what it held plus that point's block sum. -/
theorem outsAt_B_apply (t : Fin cfg3.N) (ht : t.val < 20) (h0 : ¬t.val % 20 = 0) (g : Fin 64) (q : Fin 32) :
    outsAt3 (F := Ideal) V c t.val t.isLt (ix2 g q)
      = outsAt3 (F := Ideal) V c (t.val - 1) (Nat.lt_of_le_of_lt (Nat.sub_le _ _) t.isLt) (ix2 g q) + blockSum V c t.val ht g q := by
  rw [outsAt3_B V c t h0,
    out_B (F := Ideal) c (grid3.coords t) (ms3_0 t) (hs3_0 t) (ms3_1 t) (hs3_1 t) (ms3_2 t) (hs3_2 t) (ms3_3 t) (hs3_3 t)
      (ms3_4 t) (hs3_4 t) (ms3_5 t) (hs3_5 t) (fun h => h0 ((hcond3_0 t).mp h)) (iblk3 V c 0 t) (iblk3 V c 1 t) (iblk3 V c 2 t)
      (iblk3 V c 3 t) (iblk3 V c 4 t) (outsAt3 V c (t.val - 1) (Nat.lt_of_le_of_lt (Nat.sub_le _ _) t.isLt))]
  exact step_rows V c (iblk3 V c 0 t) (iblk3 V c 1 t) (iblk3 V c 2 t) (iblk3 V c 3 t) (iblk3 V c 4 t)
    (outsAt3 V c (t.val - 1) (Nat.lt_of_le_of_lt (Nat.sub_le _ _) t.isLt))
    t.val ht (blk0_apply V c t ht) (blk1_apply V c t ht) (blk2_apply V c t ht) (blk3_apply V c t) (blk4_apply V c t ht) g q

/-- After point n the block holds the sum of the block sums of the points 0, …, n. -/
theorem outsAt_apply : ∀ (n : ℕ) (h : n < cfg3.N) (hn : n < 20) (g : Fin 64) (q : Fin 32),
    outsAt3 (F := Ideal) V c n h (ix2 g q) = ∑ b : Fin (n + 1), blockSum V c b.val (by have := b.isLt; omega) g q
  | 0, h, hn, g, q => by
    rw [Fin.sum_univ_one]
    exact outsAt_A_apply V c ⟨0, h⟩ hn rfl g q
  | n + 1, h, hn, g, q => by
    have hB : ¬(⟨n + 1, h⟩ : Fin cfg3.N).val % 20 = 0 := by dsimp only; omega
    rw [Fin.sum_univ_castSucc]
    refine (outsAt_B_apply V c ⟨n + 1, h⟩ hn hB g q).trans ?_
    refine congrArg₂ (· + ·) ?_ rfl
    exact outsAt_apply n (Nat.lt_of_succ_lt h) (by omega) g q

end Sums

section Final
variable (V : (c : Dev nD) → (b : Ref sig .tc) → Buf (Elt Ideal) ((c : Thread nD τ).loc b)) (c : Dev nD)

/-- The last point of the grid, the only one whose block is written back. -/
abbrev tLast : Fin cfg3.N := ⟨19, lt_of_lt_of_eq (by decide) N_3.symm⟩

/-- After the last point the block holds the per-graph sums over all the nodes: the twenty block sums are the sum
    over the 20 · 5000 rows taken block by block. -/
theorem outsAt_last : outsAt3 (F := Ideal) V c tLast.val tLast.isLt
    = Cert.Gcn.poolSum (M := 100000) (G := 64) (D := 32) (feat V c) (V c main_v4) := by
  funext j
  obtain ⟨g, q, rfl⟩ : ∃ (g : Fin 64) (q : Fin 32), j = ix2 g q := ⟨j 0, j 1, eq_ix2 j⟩
  rw [Cert.Gcn.poolSum_apply]
  refine (outsAt_apply V c 19 tLast.isLt (by omega) g q).trans ?_
  exact (Cert.Lib.ScatterSum.sum_blocks 20 5000 (fun n : Fin (20 * 5000) => term V c g q n)).symm

/-- The one write-back, at the last point, writes the per-graph sums: the output's block is its whole array. -/
theorem flushed_eq (t : Fin cfg3.N) (hf : (cfg3.win 5).flush t = true) :
    (dat3 (F := Ideal) V c).flushed 5 t
      = ((cfg3.win 5).blk t).view.read (Elt Ideal)
          (Cert.Gcn.poolSum (M := 100000) (G := 64) (D := 32) (feat V c) (V c main_v4)) := by
  have hN : cfg3.N = 20 := N_3
  have h19 : t.val = 19 := by have := (flush3_5 t).mp hf; have := t.isLt; omega
  obtain rfl : t = tLast := Fin.ext h19
  show (cfg3.win 5).cut (grid3.coords tLast) ((dat3 V c).after 5 tLast) = _
  rw [after3_5, outsAt_last]
  have hz' : (fun a => win3_5.index tLast a * main_v54.ty.shape.size a) = fun _ => 0 :=
    funext fun a => by fin_cases a <;> decide +kernel
  exact (Memref.read_access_unit_zero (Elt Ideal) main_v54 hz' (fun a => by rw [congrFun hz' a]; simp)
    (Cert.Gcn.poolSum (M := 100000) (G := 64) (D := 32) (feat V c) (V c main_v4))).symm

/-- The output array after the region: Σₙ [batch(n) = g] · (c(n)·(agg(n,q)+hs(n,q)) + b(q)). -/
theorem arr : (dat3 (F := Ideal) V c).arrAt 5 cfg3.N
    = Cert.Gcn.poolSum (M := 100000) (G := 64) (D := 32)
        (Cert.Gcn.combine (R := 100000) (K := 32) (V c main_v52) (V c main_v42) (V c main_v12) (V c main_v53)) (V c main_v4) :=
  (dat3 V c).arrAt_eq_of_cover 5 _ (flushed_eq V c) fun i =>
    ⟨tLast, (flush3_5 tLast).mpr rfl, by
      show i ∈ ((View.whole main_v54).slice (win3_5.rect tLast)).set
      rw [View.set_slice_whole, Rect.mem_set_unit]
      intro a
      have h0 : (i 0 : Nat) < 64 := (i 0).isLt
      have h1 : (i 1 : Nat) < 32 := (i 1).isLt
      match a with
      | ⟨0, _⟩ =>
        show win3_5.index tLast 0 * win3_5.size 0 ≤ (i 0 : Nat)
          ∧ (i 0 : Nat) < win3_5.index tLast 0 * win3_5.size 0 + win3_5.xsize (grid3.coords tLast) 0
        rw [show win3_5.index tLast 0 * win3_5.size 0 = 0 from by decide +kernel,
          show win3_5.xsize (grid3.coords tLast) 0 = 64 from by decide +kernel]
        omega
      | ⟨1, _⟩ =>
        show win3_5.index tLast 1 * win3_5.size 1 ≤ (i 1 : Nat)
          ∧ (i 1 : Nat) < win3_5.index tLast 1 * win3_5.size 1 + win3_5.xsize (grid3.coords tLast) 1
        rw [show win3_5.index tLast 1 * win3_5.size 1 = 0 from by decide +kernel,
          show win3_5.xsize (grid3.coords tLast) 1 = 32 from by decide +kernel]
        omega⟩

end Final

end Cert.KernelIdeal.Reg3
end
-- ==== Proof.Reg4.lean ====
/-
  The head of the network as the last region computes it.

  The region has a single grid point, and each of its seven windows is its whole array: the per-graph sums (64×32),
  the node counts (64×1), the first weight matrix (32×64) and its bias row (1×64), the second weight matrix (64×32)
  and its bias row (1×32), and the 64×32 result. The body divides the sums by the counts clipped below at one, takes
  a dense step clipped at zero, a second dense step, and the hyperbolic tangent. Over the extended reals the cuts to
  the short float format are the identity and a product into a zero accumulator is the plain sum Σₖ a(p,k)·W(k,q),
  so what the body stores is the head of its six inputs entry by entry; the one block read back where it was written
  is the array itself.
-/
import proofs.«172819_j4715874091890_2_alg».proof.Proof.Gen.KernelIdeal.Frame
import proofs.«172819_j4715874091890_2_alg».proof.Proof.Forms

noncomputable section
namespace Cert.KernelIdeal.Reg4
open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators

/-! ## The vector unit's three steps of the head, over any sizes -/

section Steps
variable {G D H : ℕ}

/-- Dividing the per-graph sums by the node counts clipped below at one, the counts spread over the columns. -/
theorem body_pooled (x0 : FVec Ideal ⟨2, ![G, D]⟩ .f32) (x1 : FVec Ideal ⟨2, ![G, 1]⟩ .f32)
    (h0 : (⟨2, ![G, D]⟩ : Shape).ShapeCasts ⟨2, ![G, D]⟩) (h1 : (⟨2, ![G, 1]⟩ : Shape).ShapeCasts ⟨2, ![G, 1]⟩)
    (hb : (⟨2, ![G, 1]⟩ : Shape).Broadcasts ⟨2, ![G, D]⟩) :
    divf (shapeCast ⟨2, ![G, D]⟩ x0 h0)
      (broadcastTo ⟨2, ![G, D]⟩ (maximumf (shapeCast ⟨2, ![G, 1]⟩ x1 h1)
        (broadcast ⟨2, ![G, 1]⟩ (Scalar.ofBits .f32 0x3F800000#32 : Ideal .f32))) hb)
    = Cert.Gcn.pooled x0 x1 := by
  funext i
  obtain ⟨p, q, rfl⟩ : ∃ (p : Fin G) (q : Fin D), i = ix2 p q := ⟨i 0, i 1, eq_ix2 i⟩
  rw [divf_apply, shapeCast_self, shapeCast_self, Cert.LibColumn.broadcastTo_a1_ab_apply, maximumf_apply, broadcast_apply]
  rfl

/-- A product of the two operands cut to the short format into a zero accumulator, plus the bias row spread over the
    rows: over the extended reals the cut changes nothing, and the entry is the dense step's. -/
theorem body_dense (d : DotDims ⟨2, ![G, D]⟩ ⟨2, ![D, H]⟩ ⟨2, ![G, H]⟩) (hd : d = DotDims.plain G D H)
    (a : FVec Ideal ⟨2, ![G, D]⟩ .f32) (W : FVec Ideal ⟨2, ![D, H]⟩ .f32) (b : FVec Ideal ⟨2, ![1, H]⟩ .f32)
    (hs : (⟨2, ![1, H]⟩ : Shape).ShapeCasts ⟨2, ![1, H]⟩) (hb : (⟨2, ![1, H]⟩ : Shape).Broadcasts ⟨2, ![G, H]⟩)
    (hlt : FTy.bf16.bits < FTy.f32.bits) :
    addf (matmul d none (truncf .bf16 a hlt) (truncf .bf16 W hlt) (constant ⟨2, ![G, H]⟩ .f32 0x00000000#32))
      (broadcastTo ⟨2, ![G, H]⟩ (shapeCast ⟨2, ![1, H]⟩ b hs) hb)
    = Cert.Gcn.dense a W b := by
  funext i
  obtain ⟨p, q, rfl⟩ : ∃ (p : Fin G) (q : Fin H), i = ix2 p q := ⟨i 0, i 1, eq_ix2 i⟩
  rw [addf_apply, shapeCast_self, Cert.LayerForms.broadcastTo_1n_rn_apply]
  exact congrArg (· + b (ix2 (0 : Fin 1) q))
    (Cert.LibPlainDot.matmul_zero_apply d hd none (truncf .bf16 a hlt) (truncf .bf16 W hlt) p q)

/-- The same, clipped at zero. -/
theorem body_denseRelu (d : DotDims ⟨2, ![G, D]⟩ ⟨2, ![D, H]⟩ ⟨2, ![G, H]⟩) (hd : d = DotDims.plain G D H)
    (a : FVec Ideal ⟨2, ![G, D]⟩ .f32) (W : FVec Ideal ⟨2, ![D, H]⟩ .f32) (b : FVec Ideal ⟨2, ![1, H]⟩ .f32)
    (hs : (⟨2, ![1, H]⟩ : Shape).ShapeCasts ⟨2, ![1, H]⟩) (hb : (⟨2, ![1, H]⟩ : Shape).Broadcasts ⟨2, ![G, H]⟩)
    (hlt : FTy.bf16.bits < FTy.f32.bits) :
    maximumf (addf (matmul d none (truncf .bf16 a hlt) (truncf .bf16 W hlt) (constant ⟨2, ![G, H]⟩ .f32 0x00000000#32))
        (broadcastTo ⟨2, ![G, H]⟩ (shapeCast ⟨2, ![1, H]⟩ b hs) hb))
      (broadcast ⟨2, ![G, H]⟩ (Scalar.ofBits .f32 0x00000000#32 : Ideal .f32))
    = Cert.Gcn.denseRelu a W b := by
  rw [body_dense d hd a W b hs hb hlt]
  rfl

end Steps

/-! ## The body's arithmetic is the head -/

/-- What the body stores, as a function of the six blocks it loads. -/
theorem pay_eq (v0 : Vec Ideal S64x32 .f32) (v2 : Vec Ideal S64x1 .f32) (v8 : Vec Ideal S32x64 .f32)
    (v10 : Vec Ideal S64x32 .f32) (v14 : Vec Ideal S1x64 .f32) (v22 : Vec Ideal S1x32 .f32) :
    k4_pay1 v0 v2 v8 v10 v14 v22
      = Cert.Gcn.head (G := 64) (D := 32) (H := 64) (A := 32) v0 v2 v8 v14 v10 v22 := by
  have e1 := body_pooled (G := 64) (D := 32) v0 v2 shapeCasts_S64x32_S64x32 shapeCasts_S64x1_S64x1 broadcasts_S64x1_S64x32
  have e2 := body_denseRelu (G := 64) (D := 32) (H := 64) dot_S64x32_S32x64_S64x64_1_0_0_1_n_n rfl
    (Cert.Gcn.pooled v0 v2) v8 v14 shapeCasts_S1x64_S1x64 broadcasts_S1x64_S64x64 bitsLt_bf16_f32
  have e3 := body_dense (G := 64) (D := 64) (H := 32) dot_S64x64_S64x32_S64x32_1_0_0_1_n_n rfl
    (Cert.Gcn.denseRelu (Cert.Gcn.pooled v0 v2) v8 v14) v10 v22 shapeCasts_S1x32_S1x32 broadcasts_S1x32_S64x32 bitsLt_bf16_f32
  unfold k4_pay1
  dsimp only
  rw [e1, e2, e3]
  rfl

/-! ## From the one block to the array -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- What the body leaves in the output's buffer is the head of the six input buffers. -/
theorem out_eq (x0 : Vec Ideal S64x32 .f32) (x1 : Vec Ideal S64x1 .f32) (x2 : Vec Ideal S32x64 .f32) (x3 : Vec Ideal S1x64 .f32)
    (x4 : Vec Ideal S64x32 .f32) (x5 : Vec Ideal S1x32 .f32) :
    out4_6 x0 x1 x2 x3 x4 x5 = Cert.Gcn.head (G := 64) (D := 32) (H := 64) (A := 32) x0 x1 x2 x3 x4 x5 := by
  unfold out4_6
  rw [View.canon_unit_zero hz]
  simp only [View.ld_unit_zero (S := S64x32) hz, View.ld_unit_zero (S := S64x1) hz, View.ld_unit_zero (S := S32x64) hz,
    View.ld_unit_zero (S := S1x64) hz, View.ld_unit_zero (S := S1x32) hz]
  exact pay_eq x0 x1 x2 x4 x3 x5

/-- Every window's block index is zero on both axes at every point of the one-point grid: each block is its whole array. -/
theorem idx_zero : ∀ t : Fin cfg4.N,
    (win4_0.index t (0 : Fin 2) = 0 ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

theorem blk0 (t : Fin cfg4.N) : iblk4 V c 0 t = V c main_v54 := by
  obtain ⟨h0, h1⟩ := (idx_zero t).1
  funext y
  unfold iblk4
  rw [View.read_apply]
  show V c main_v54 _ = V c main_v54 y
  congr 1
  funext a
  apply Fin.ext
  match a with
  | ⟨0, _⟩ => show win4_0.index t (0 : Fin 2) * 64 + 1 * (y 0).val = (y 0).val; rw [h0]; omega
  | ⟨1, _⟩ => show win4_0.index t (1 : Fin 2) * 32 + 1 * (y 1).val = (y 1).val; rw [h1]; omega

theorem blk1 (t : Fin cfg4.N) : iblk4 V c 1 t = V c main_v17 := by
  obtain ⟨h0, h1⟩ := (idx_zero t).2.1
  funext y
  unfold iblk4
  rw [View.read_apply]
  show V c main_v17 _ = V c main_v17 y
  congr 1
  funext a
  apply Fin.ext
  match a with
  | ⟨0, _⟩ => show win4_1.index t (0 : Fin 2) * 64 + 1 * (y 0).val = (y 0).val; rw [h0]; omega
  | ⟨1, _⟩ => show win4_1.index t (1 : Fin 2) * 1 + 1 * (y 1).val = (y 1).val; rw [h1]; omega

theorem blk2 (t : Fin cfg4.N) : iblk4 V c 2 t = V c main_arg9 := by
  obtain ⟨h0, h1⟩ := (idx_zero t).2.2.1
  funext y
  unfold iblk4
  rw [View.read_apply]
  show V c main_arg9 _ = V c main_arg9 y
  congr 1
  funext a
  apply Fin.ext
  match a with
  | ⟨0, _⟩ => show win4_2.index t (0 : Fin 2) * 32 + 1 * (y 0).val = (y 0).val; rw [h0]; omega
  | ⟨1, _⟩ => show win4_2.index t (1 : Fin 2) * 64 + 1 * (y 1).val = (y 1).val; rw [h1]; omega

theorem blk3 (t : Fin cfg4.N) : iblk4 V c 3 t = V c main_v55 := by
  obtain ⟨h0, h1⟩ := (idx_zero t).2.2.2.1
  funext y
  unfold iblk4
  rw [View.read_apply]
  show V c main_v55 _ = V c main_v55 y
  congr 1
  funext a
  apply Fin.ext
  match a with
  | ⟨0, _⟩ => show win4_3.index t (0 : Fin 2) * 1 + 1 * (y 0).val = (y 0).val; rw [h0]; omega
  | ⟨1, _⟩ => show win4_3.index t (1 : Fin 2) * 64 + 1 * (y 1).val = (y 1).val; rw [h1]; omega

theorem blk4 (t : Fin cfg4.N) : iblk4 V c 4 t = V c main_arg11 := by
  obtain ⟨h0, h1⟩ := (idx_zero t).2.2.2.2.1
  funext y
  unfold iblk4
  rw [View.read_apply]
  show V c main_arg11 _ = V c main_arg11 y
  congr 1
  funext a
  apply Fin.ext
  match a with
  | ⟨0, _⟩ => show win4_4.index t (0 : Fin 2) * 64 + 1 * (y 0).val = (y 0).val; rw [h0]; omega
  | ⟨1, _⟩ => show win4_4.index t (1 : Fin 2) * 32 + 1 * (y 1).val = (y 1).val; rw [h1]; omega

theorem blk5 (t : Fin cfg4.N) : iblk4 V c 5 t = V c main_v56 := by
  obtain ⟨h0, h1⟩ := (idx_zero t).2.2.2.2.2.1
  funext y
  unfold iblk4
  rw [View.read_apply]
  show V c main_v56 _ = V c main_v56 y
  congr 1
  funext a
  apply Fin.ext
  match a with
  | ⟨0, _⟩ => show win4_5.index t (0 : Fin 2) * 1 + 1 * (y 0).val = (y 0).val; rw [h0]; omega
  | ⟨1, _⟩ => show win4_5.index t (1 : Fin 2) * 32 + 1 * (y 1).val = (y 1).val; rw [h1]; omega

/-- The head of the six arrays as the region finds them. -/
abbrev result : FVec Ideal ⟨2, ![64, 32]⟩ .f32 :=
  Cert.Gcn.head (G := 64) (D := 32) (H := 64) (A := 32) (V c main_v54) (V c main_v17) (V c main_arg9) (V c main_v55) (V c main_arg11) (V c main_v56)

/-- What a point writes back is its block of the head; the block is the whole array. -/
theorem flushed_eq (t : Fin cfg4.N) :
    (dat4 V c).flushed 6 t = ((cfg4.win 6).blk t).view.read (Elt Ideal) (result V c) := by
  obtain ⟨h0, h1⟩ := (idx_zero t).2.2.2.2.2.2
  show (cfg4.win 6).cut (grid4.coords t) ((dat4 V c).after 6 t) = _
  rw [after4_6, out_eq, blk0, blk1, blk2, blk3, blk4, blk5]
  funext y
  rw [View.read_apply]
  show result V c y = result V c _
  congr 1
  funext a
  apply Fin.ext
  match a with
  | ⟨0, _⟩ => show (y 0).val = win4_6.index t (0 : Fin 2) * 64 + 1 * (y 0).val; rw [h0]; omega
  | ⟨1, _⟩ => show (y 1).val = win4_6.index t (1 : Fin 2) * 32 + 1 * (y 1).val; rw [h1]; omega

/-- After the region the output array holds the head of the six arrays the region found. -/
theorem arr : (dat4 (F := Ideal) V c).arrAt 6 cfg4.N
    = Cert.Gcn.head (G := 64) (D := 32) (H := 64) (A := 32) (V c main_v54) (V c main_v17) (V c main_arg9) (V c main_v55) (V c main_arg11) (V c main_v56) :=
  (dat4 V c).arrAt_eq_of_cover 6 (result V c) (fun t _ => flushed_eq V c t) fun i =>
    ⟨t4_0, flush4_6 t4_0, by
      obtain ⟨h0, h1⟩ := (idx_zero t4_0).2.2.2.2.2.2
      show i ∈ ((View.whole main_v57).slice (win4_6.rect t4_0)).set
      rw [View.set_slice_whole, Rect.mem_set_unit]
      intro a
      have b0 : (i 0 : Nat) < 64 := (i 0).isLt
      have b1 : (i 1 : Nat) < 32 := (i 1).isLt
      match a with
      | ⟨0, _⟩ => show win4_6.index t4_0 (0 : Fin 2) * 64 ≤ (i 0 : Nat) ∧ (i 0 : Nat) < win4_6.index t4_0 (0 : Fin 2) * 64 + 64; rw [h0]; omega
      | ⟨1, _⟩ => show win4_6.index t4_0 (1 : Fin 2) * 32 ≤ (i 1 : Nat) ∧ (i 1 : Nat) < win4_6.index t4_0 (1 : Fin 2) * 32 + 32; rw [h1]; omega⟩

end Cert.KernelIdeal.Reg4
end
-- ==== Proof.Chain.lean ====
/-
  From the five regions' closed forms to the kernel's result as one function of the argument arrays.

  The program is five regions among stretches of host operations. The buffer contents at each boundary are a fold from the
  launch memory: across a stretch each host operation writes its result as a function of the buffers it reads; across a
  region the region's output array becomes the region's closed form of its input arrays as the region finds them, and
  every other buffer keeps what it held. Reading the result buffer back through this fold, one region at a time, gives
  each region's output as the stage function of the previous region's output and of the argument arrays as launched.
-/
import proofs.«172819_j4715874091890_2_alg».proof.Proof.Gen.KernelIdeal.Frame
import proofs.«172819_j4715874091890_2_alg».proof.Proof.Forms
import proofs.«172819_j4715874091890_2_alg».proof.Proof.KValue
import proofs.«172819_j4715874091890_2_alg».proof.Proof.Reg0
import proofs.«172819_j4715874091890_2_alg».proof.Proof.Reg1
import proofs.«172819_j4715874091890_2_alg».proof.Proof.Reg2
import proofs.«172819_j4715874091890_2_alg».proof.Proof.Reg3
import proofs.«172819_j4715874091890_2_alg».proof.Proof.Reg4

set_option maxRecDepth 16384

noncomputable section

namespace Cert.KernelIdeal.Chain

open Idealize.ShloMosaic Idealize.ShloMosaic.TcCoe Idealize.ShloMosaic.ValueIdx Idealize.SL.Sem Cert.KernelIdeal Cert.KernelIdeal.Gen
open Idealize.ShloMosaic.StableHlo
open Idealize.ShloMosaic.Pipeline (Dat Cfg Window)

open Lean.Parser.Tactic in
/-- The host operations' results over a stretch, read in a hypothesis: each written buffer as its operation's function of
    the buffers it reads, each other buffer as before the stretch. -/
macro "ars_at" h:ident : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at $h:ident))

variable (m : (ℓ : Loc nD τ sig) → Buf (Elt Ideal) ℓ) (ρ : Dev nD → PrngReg) (c : Dev nD)

/-! ## Across a region: its output array holds the region's closed form, every other buffer what it held at entry -/

theorem W2_other (b : Ref sig .tc) (hb : b ≠ main_v18) :
    W2 (F := Ideal) m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact absurd rfl hb

theorem W4_other (b : Ref sig .tc) (hb : b ≠ main_v30) :
    W4 (F := Ideal) m ρ c (Proc.devRef .tc b) = W3 m ρ c (Proc.devRef .tc b) := by
  by_cases h : ∀ w, Pipeline.arrRef spec1 w ≠ b
  · exact W4_of_ne m ρ c b h
  · push Not at h
    obtain ⟨w, rfl⟩ := h
    fin_cases w
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact (W4_arr m ρ c 3).trans (((dat1 (V3 m ρ) c).arrAt_in 3 rfl _).trans (A_eq1 (V3 m ρ) c 3))
    · exact (W4_arr m ρ c 4).trans (((dat1 (V3 m ρ) c).arrAt_in 4 rfl _).trans (A_eq1 (V3 m ρ) c 4))
    · exact absurd rfl hb

theorem W6_other (b : Ref sig .tc) (hb : b ≠ main_v42) :
    W6 (F := Ideal) m ρ c (Proc.devRef .tc b) = W5 m ρ c (Proc.devRef .tc b) := by
  by_cases h : ∀ w, Pipeline.arrRef spec2 w ≠ b
  · exact W6_of_ne m ρ c b h
  · push Not at h
    obtain ⟨w, rfl⟩ := h
    fin_cases w
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact (W6_arr m ρ c 2).trans (((dat2 (V5 m ρ) c).arrAt_in 2 rfl _).trans (A_eq2 (V5 m ρ) c 2))
    · exact (W6_arr m ρ c 3).trans (((dat2 (V5 m ρ) c).arrAt_in 3 rfl _).trans (A_eq2 (V5 m ρ) c 3))
    · exact (W6_arr m ρ c 4).trans (((dat2 (V5 m ρ) c).arrAt_in 4 rfl _).trans (A_eq2 (V5 m ρ) c 4))
    · exact absurd rfl hb

theorem W8_other (b : Ref sig .tc) (hb : b ≠ main_v54) :
    W8 (F := Ideal) m ρ c (Proc.devRef .tc b) = W7 m ρ c (Proc.devRef .tc b) := by
  by_cases h : ∀ w, Pipeline.arrRef spec3 w ≠ b
  · exact W8_of_ne m ρ c b h
  · push Not at h
    obtain ⟨w, rfl⟩ := h
    fin_cases w
    · exact (W8_arr m ρ c 0).trans (((dat3 (V7 m ρ) c).arrAt_in 0 rfl _).trans (A_eq3 (V7 m ρ) c 0))
    · exact (W8_arr m ρ c 1).trans (((dat3 (V7 m ρ) c).arrAt_in 1 rfl _).trans (A_eq3 (V7 m ρ) c 1))
    · exact (W8_arr m ρ c 2).trans (((dat3 (V7 m ρ) c).arrAt_in 2 rfl _).trans (A_eq3 (V7 m ρ) c 2))
    · exact (W8_arr m ρ c 3).trans (((dat3 (V7 m ρ) c).arrAt_in 3 rfl _).trans (A_eq3 (V7 m ρ) c 3))
    · exact (W8_arr m ρ c 4).trans (((dat3 (V7 m ρ) c).arrAt_in 4 rfl _).trans (A_eq3 (V7 m ρ) c 4))
    · exact absurd rfl hb

theorem W2_out : W2 (F := Ideal) m ρ c (Proc.devRef .tc main_v18)
    = Cert.LayerForms.dotScale (R := 100000) (K := 128) (N := 16) (φ := .f32) (V1 m ρ c main_arg0) (V1 m ρ c main_arg3) (V1 m ρ c main_v12) :=
  (W2_arr m ρ c 3).trans (Reg0.arr (V1 m ρ) c)
theorem W4_out : W4 (F := Ideal) m ρ c (Proc.devRef .tc main_v30)
    = Cert.Gcn.nextLayer (R := 100000) (K := 16) (N := 64) (V3 m ρ c main_v28) (V3 m ρ c main_v18) (V3 m ρ c main_v12) (V3 m ρ c main_v29) (V3 m ρ c main_arg5) :=
  (W4_arr m ρ c 5).trans (Reg1.arr (V3 m ρ) c)
theorem W6_out : W6 (F := Ideal) m ρ c (Proc.devRef .tc main_v42)
    = Cert.Gcn.nextLayer (R := 100000) (K := 64) (N := 32) (V5 m ρ c main_v40) (V5 m ρ c main_v30) (V5 m ρ c main_v12) (V5 m ρ c main_v41) (V5 m ρ c main_arg7) :=
  (W6_arr m ρ c 5).trans (Reg2.arr (V5 m ρ) c)
theorem W8_out : W8 (F := Ideal) m ρ c (Proc.devRef .tc main_v54)
    = Cert.Gcn.poolSum (M := 100000) (G := 64) (D := 32)
        (Cert.Gcn.combine (R := 100000) (K := 32) (V7 m ρ c main_v52) (V7 m ρ c main_v42) (V7 m ρ c main_v12) (V7 m ρ c main_v53)) (V7 m ρ c main_v4) :=
  (W8_arr m ρ c 5).trans (Reg3.arr (V7 m ρ) c)
theorem W10_out : W10 (F := Ideal) m ρ c (Proc.devRef .tc main_v57)
    = Cert.Gcn.head (G := 64) (D := 32) (H := 64) (A := 32) (V9 m ρ c main_v54) (V9 m ρ c main_v17) (V9 m ρ c main_arg9) (V9 m ρ c main_v55) (V9 m ρ c main_arg11) (V9 m ρ c main_v56) :=
  (W10_arr m ρ c 6).trans (Reg4.arr (V9 m ρ) c)

/-! ## Each region's output array, as the stage function of the previous region's output and the argument arrays -/

set_option maxHeartbeats 2000000 in
theorem h18 : W2 (F := Ideal) m ρ c (Proc.devRef .tc main_v18) = KV.hs1 (m ((c : Thread nD τ).loc main_arg0)) (m ((c : Thread nD τ).loc main_arg1)) (m ((c : Thread nD τ).loc main_arg3)) := by
  have h := W2_out m ρ c
  dsimp only [V1, W1, hostOps0] at h
  ars_at h
  exact h

set_option maxHeartbeats 2000000 in
theorem h30 : W4 (F := Ideal) m ρ c (Proc.devRef .tc main_v30)
    = KV.nl16 (W2 (F := Ideal) m ρ c (Proc.devRef .tc main_v18)) (m ((c : Thread nD τ).loc main_arg1)) (m ((c : Thread nD τ).loc main_arg4)) (m ((c : Thread nD τ).loc main_arg5)) := by
  have h := W4_out m ρ c
  dsimp only [V3, W3, hostOps1] at h
  ars_at h
  simp only [W2_other m ρ c main_v1 (by decide), W2_other m ρ c main_v3 (by decide), W2_other m ρ c main_v4 (by decide), W2_other m ρ c main_v12 (by decide), W2_other m ρ c main_v17 (by decide), W2_other m ρ c main_arg0 (by decide), W2_other m ρ c main_arg1 (by decide), W2_other m ρ c main_arg2 (by decide), W2_other m ρ c main_arg3 (by decide), W2_other m ρ c main_arg4 (by decide), W2_other m ρ c main_arg5 (by decide), W2_other m ρ c main_arg6 (by decide), W2_other m ρ c main_arg7 (by decide), W2_other m ρ c main_arg8 (by decide), W2_other m ρ c main_arg9 (by decide), W2_other m ρ c main_arg10 (by decide), W2_other m ρ c main_arg11 (by decide), W2_other m ρ c main_arg12 (by decide)] at h
  dsimp only [W1, hostOps0] at h
  ars_at h
  exact h

set_option maxHeartbeats 2000000 in
theorem h42 : W6 (F := Ideal) m ρ c (Proc.devRef .tc main_v42)
    = KV.nl64 (W4 (F := Ideal) m ρ c (Proc.devRef .tc main_v30)) (m ((c : Thread nD τ).loc main_arg1)) (m ((c : Thread nD τ).loc main_arg6)) (m ((c : Thread nD τ).loc main_arg7)) := by
  have h := W6_out m ρ c
  dsimp only [V5, W5, hostOps2] at h
  ars_at h
  simp only [W4_other m ρ c main_v1 (by decide), W4_other m ρ c main_v3 (by decide), W4_other m ρ c main_v4 (by decide), W4_other m ρ c main_v12 (by decide), W4_other m ρ c main_v17 (by decide), W4_other m ρ c main_arg0 (by decide), W4_other m ρ c main_arg1 (by decide), W4_other m ρ c main_arg2 (by decide), W4_other m ρ c main_arg3 (by decide), W4_other m ρ c main_arg4 (by decide), W4_other m ρ c main_arg5 (by decide), W4_other m ρ c main_arg6 (by decide), W4_other m ρ c main_arg7 (by decide), W4_other m ρ c main_arg8 (by decide), W4_other m ρ c main_arg9 (by decide), W4_other m ρ c main_arg10 (by decide), W4_other m ρ c main_arg11 (by decide), W4_other m ρ c main_arg12 (by decide)] at h
  dsimp only [W3, hostOps1] at h
  ars_at h
  simp only [W2_other m ρ c main_v1 (by decide), W2_other m ρ c main_v3 (by decide), W2_other m ρ c main_v4 (by decide), W2_other m ρ c main_v12 (by decide), W2_other m ρ c main_v17 (by decide), W2_other m ρ c main_arg0 (by decide), W2_other m ρ c main_arg1 (by decide), W2_other m ρ c main_arg2 (by decide), W2_other m ρ c main_arg3 (by decide), W2_other m ρ c main_arg4 (by decide), W2_other m ρ c main_arg5 (by decide), W2_other m ρ c main_arg6 (by decide), W2_other m ρ c main_arg7 (by decide), W2_other m ρ c main_arg8 (by decide), W2_other m ρ c main_arg9 (by decide), W2_other m ρ c main_arg10 (by decide), W2_other m ρ c main_arg11 (by decide), W2_other m ρ c main_arg12 (by decide)] at h
  dsimp only [W1, hostOps0] at h
  ars_at h
  exact h

set_option maxHeartbeats 2000000 in
theorem h54 : W8 (F := Ideal) m ρ c (Proc.devRef .tc main_v54)
    = KV.pool (W6 (F := Ideal) m ρ c (Proc.devRef .tc main_v42)) (m ((c : Thread nD τ).loc main_arg1)) (m ((c : Thread nD τ).loc main_arg2)) (m ((c : Thread nD τ).loc main_arg8)) := by
  have h := W8_out m ρ c
  dsimp only [V7, W7, hostOps3] at h
  ars_at h
  simp only [W6_other m ρ c main_v1 (by decide), W6_other m ρ c main_v3 (by decide), W6_other m ρ c main_v4 (by decide), W6_other m ρ c main_v12 (by decide), W6_other m ρ c main_v17 (by decide), W6_other m ρ c main_arg0 (by decide), W6_other m ρ c main_arg1 (by decide), W6_other m ρ c main_arg2 (by decide), W6_other m ρ c main_arg3 (by decide), W6_other m ρ c main_arg4 (by decide), W6_other m ρ c main_arg5 (by decide), W6_other m ρ c main_arg6 (by decide), W6_other m ρ c main_arg7 (by decide), W6_other m ρ c main_arg8 (by decide), W6_other m ρ c main_arg9 (by decide), W6_other m ρ c main_arg10 (by decide), W6_other m ρ c main_arg11 (by decide), W6_other m ρ c main_arg12 (by decide)] at h
  dsimp only [W5, hostOps2] at h
  ars_at h
  simp only [W4_other m ρ c main_v1 (by decide), W4_other m ρ c main_v3 (by decide), W4_other m ρ c main_v4 (by decide), W4_other m ρ c main_v12 (by decide), W4_other m ρ c main_v17 (by decide), W4_other m ρ c main_arg0 (by decide), W4_other m ρ c main_arg1 (by decide), W4_other m ρ c main_arg2 (by decide), W4_other m ρ c main_arg3 (by decide), W4_other m ρ c main_arg4 (by decide), W4_other m ρ c main_arg5 (by decide), W4_other m ρ c main_arg6 (by decide), W4_other m ρ c main_arg7 (by decide), W4_other m ρ c main_arg8 (by decide), W4_other m ρ c main_arg9 (by decide), W4_other m ρ c main_arg10 (by decide), W4_other m ρ c main_arg11 (by decide), W4_other m ρ c main_arg12 (by decide)] at h
  dsimp only [W3, hostOps1] at h
  ars_at h
  simp only [W2_other m ρ c main_v1 (by decide), W2_other m ρ c main_v3 (by decide), W2_other m ρ c main_v4 (by decide), W2_other m ρ c main_v12 (by decide), W2_other m ρ c main_v17 (by decide), W2_other m ρ c main_arg0 (by decide), W2_other m ρ c main_arg1 (by decide), W2_other m ρ c main_arg2 (by decide), W2_other m ρ c main_arg3 (by decide), W2_other m ρ c main_arg4 (by decide), W2_other m ρ c main_arg5 (by decide), W2_other m ρ c main_arg6 (by decide), W2_other m ρ c main_arg7 (by decide), W2_other m ρ c main_arg8 (by decide), W2_other m ρ c main_arg9 (by decide), W2_other m ρ c main_arg10 (by decide), W2_other m ρ c main_arg11 (by decide), W2_other m ρ c main_arg12 (by decide)] at h
  dsimp only [W1, hostOps0] at h
  ars_at h
  exact h

set_option maxHeartbeats 2000000 in
theorem h57 : W10 (F := Ideal) m ρ c (Proc.devRef .tc main_v57)
    = KV.headOf (W8 (F := Ideal) m ρ c (Proc.devRef .tc main_v54)) (m ((c : Thread nD τ).loc main_arg2)) (m ((c : Thread nD τ).loc main_arg9)) (m ((c : Thread nD τ).loc main_arg10)) (m ((c : Thread nD τ).loc main_arg11)) (m ((c : Thread nD τ).loc main_arg12)) := by
  have h := W10_out m ρ c
  dsimp only [V9, W9, hostOps4] at h
  ars_at h
  simp only [W8_other m ρ c main_v1 (by decide), W8_other m ρ c main_v3 (by decide), W8_other m ρ c main_v4 (by decide), W8_other m ρ c main_v12 (by decide), W8_other m ρ c main_v17 (by decide), W8_other m ρ c main_arg0 (by decide), W8_other m ρ c main_arg1 (by decide), W8_other m ρ c main_arg2 (by decide), W8_other m ρ c main_arg3 (by decide), W8_other m ρ c main_arg4 (by decide), W8_other m ρ c main_arg5 (by decide), W8_other m ρ c main_arg6 (by decide), W8_other m ρ c main_arg7 (by decide), W8_other m ρ c main_arg8 (by decide), W8_other m ρ c main_arg9 (by decide), W8_other m ρ c main_arg10 (by decide), W8_other m ρ c main_arg11 (by decide), W8_other m ρ c main_arg12 (by decide)] at h
  dsimp only [W7, hostOps3] at h
  ars_at h
  simp only [W6_other m ρ c main_v1 (by decide), W6_other m ρ c main_v3 (by decide), W6_other m ρ c main_v4 (by decide), W6_other m ρ c main_v12 (by decide), W6_other m ρ c main_v17 (by decide), W6_other m ρ c main_arg0 (by decide), W6_other m ρ c main_arg1 (by decide), W6_other m ρ c main_arg2 (by decide), W6_other m ρ c main_arg3 (by decide), W6_other m ρ c main_arg4 (by decide), W6_other m ρ c main_arg5 (by decide), W6_other m ρ c main_arg6 (by decide), W6_other m ρ c main_arg7 (by decide), W6_other m ρ c main_arg8 (by decide), W6_other m ρ c main_arg9 (by decide), W6_other m ρ c main_arg10 (by decide), W6_other m ρ c main_arg11 (by decide), W6_other m ρ c main_arg12 (by decide)] at h
  dsimp only [W5, hostOps2] at h
  ars_at h
  simp only [W4_other m ρ c main_v1 (by decide), W4_other m ρ c main_v3 (by decide), W4_other m ρ c main_v4 (by decide), W4_other m ρ c main_v12 (by decide), W4_other m ρ c main_v17 (by decide), W4_other m ρ c main_arg0 (by decide), W4_other m ρ c main_arg1 (by decide), W4_other m ρ c main_arg2 (by decide), W4_other m ρ c main_arg3 (by decide), W4_other m ρ c main_arg4 (by decide), W4_other m ρ c main_arg5 (by decide), W4_other m ρ c main_arg6 (by decide), W4_other m ρ c main_arg7 (by decide), W4_other m ρ c main_arg8 (by decide), W4_other m ρ c main_arg9 (by decide), W4_other m ρ c main_arg10 (by decide), W4_other m ρ c main_arg11 (by decide), W4_other m ρ c main_arg12 (by decide)] at h
  dsimp only [W3, hostOps1] at h
  ars_at h
  simp only [W2_other m ρ c main_v1 (by decide), W2_other m ρ c main_v3 (by decide), W2_other m ρ c main_v4 (by decide), W2_other m ρ c main_v12 (by decide), W2_other m ρ c main_v17 (by decide), W2_other m ρ c main_arg0 (by decide), W2_other m ρ c main_arg1 (by decide), W2_other m ρ c main_arg2 (by decide), W2_other m ρ c main_arg3 (by decide), W2_other m ρ c main_arg4 (by decide), W2_other m ρ c main_arg5 (by decide), W2_other m ρ c main_arg6 (by decide), W2_other m ρ c main_arg7 (by decide), W2_other m ρ c main_arg8 (by decide), W2_other m ρ c main_arg9 (by decide), W2_other m ρ c main_arg10 (by decide), W2_other m ρ c main_arg11 (by decide), W2_other m ρ c main_arg12 (by decide)] at h
  dsimp only [W1, hostOps0] at h
  ars_at h
  exact h

/-- THE KERNEL'S RESULT: what the last region leaves in the result buffer is the composed stage function of the
    argument arrays as launched. -/
theorem result : W10 (F := Ideal) m ρ c (Proc.devRef .tc main_v57)
    = KV.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [h57 m ρ c, h54 m ρ c, h42 m ρ c, h30 m ρ c, h18 m ρ c]
  rfl

end Cert.KernelIdeal.Chain

end
-- ==== Proof.LibRowGatherScatter.lean ====
/-
  The host's row gather and accumulating row scatter, each read at one entry, for any sizes.

  * The row gather `x[idx]` of an `[N, D]` array at `E` row indices (start indices `[E, 1]`, the operand's axis 0
    collapsed, slices `[1, D]`): entry `(e, q)` of the result is the operand's entry `(r, q)`, where `r` is the start
    word `idx[e, 0]` read as a signed integer and clamped into `[0, N − 1]`. The row `r` depends on the start word
    only: not on `D`, not on the operand.
  * The accumulating row scatter of `E` rows of width `D` into an `[N, D]` array (scatter indices `[E, 1]`, the
    operand's axis 0 inserted, update windows `[1, D]`), over the extended reals: entry `(n, q)` of the result is the
    operand's entry plus the sum of the updates' entries `(e, q)` over the rows `e` whose index word `idx[e, 0]`,
    read as a signed integer and NOT clamped, is `n`. The set of rows `e` landing on `n` depends on the index words
    only: not on `D`, the column, the operand or the updates.
-/
import Idealize.ShloMosaic.Lib.ValueIdx

noncomputable section

open scoped BigOperators

namespace Cert.Lib.RowGatherScatter

open Idealize.ShloMosaic Idealize.ShloMosaic.ValueIdx

/-! ## The row gather -/

/-- The dimension numbers of the row gather: operand `[N, D]`, start indices `[E, 1]`, result `[E, D]`; the result's
    axis 1 is the offset axis, the operand's axis 0 is collapsed and is the one the start index names, slices are
    `[1, D]`. Their conditions `wf` are decided on literal shapes. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row the gather reads for the start word `b`: `b` read as a signed integer and clamped into `[0, N − 1]`
    (a negative word reads row 0, a word beyond the last row reads the last row). -/
def srcRow (N : ℕ) (hN : 0 < N) {w : ℕ} (b : BitVec w) : Fin N := ⟨min b.toInt.toNat (N - 1), by omega⟩

/-- THE ROW GATHER READ AT `(e, q)`: the operand at row `srcRow (idx[e, 0])`, column `q`. -/
theorem gather_rows_apply {N E D w : ℕ} (hN : 0 < N)
    (wf : GatherDims.WF ⟨2, ![N, D]⟩ ⟨2, ![E, 1]⟩ ⟨2, ![E, D]⟩ [1] [0] [] [0] [] 1 ![1, D]) {α : Type}
    (x : (⟨2, ![N, D]⟩ : Shape).Idx → α) (idx : IVec ⟨2, ![E, 1]⟩ w) (e : Fin E) (q : Fin D) :
    Host.gather (rowGather N E D wf) x idx (ix2 e q) = x (ix2 (srcRow N hN (idx (ix2 e 0))) q) := by
  -- axis 0: collapsed, so no offset; the start is the clamped start word
  have h0 : (rowGather N E D wf).start (ix2 e q) idx 0 + (rowGather N E D wf).batchCoord (ix2 e q) 0
      + (rowGather N E D wf).offCoord (ix2 e q) 0 = (srcRow N hN (idx (ix2 e 0))).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: not named by the start index, so the start is 0; the offset is the column
  have h1 : (rowGather N E D wf).start (ix2 e q) idx 1 + (rowGather N E D wf).batchCoord (ix2 e q) 1
      + (rowGather N E D wf).offCoord (ix2 e q) 1 = q.val := by
    rw [GatherDims.batchCoord_eq_zero _ _ _ List.not_mem_nil]
    have hs : (rowGather N E D wf).start (ix2 e q) idx 1 = 0 := by
      unfold GatherDims.start
      exact dif_neg (fun h => absurd (List.mem_singleton.mp h) (show ¬ (1 : Fin 2) = 0 by decide))
    have ho : (rowGather N E D wf).offCoord (ix2 e q) 1 = q.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hs, ho]; omega
  unfold Host.gather
  congr 1
  funext a
  refine Fin.ext ?_
  match a with
  | ⟨0, _⟩ => exact h0
  | ⟨1, _⟩ => exact h1

/-! ## The accumulating row scatter -/

/-- An update's result index is a given operand index exactly when, on every operand axis, the start (read signed,
    not clamped) plus the window coordinate is that index's coordinate: in particular the sum is then inside the
    operand on every axis, which is the condition for the update to land at all. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · rintro rfl a
      have := h a
      show d.start j idx a + (d.window j a : ℤ) = (((d.start j idx a + (d.window j a : ℤ)).toNat : ℕ) : ℤ)
      omega
    · intro h'
      funext a
      refine Fin.ext ?_
      have := h' a
      show (d.start j idx a + (d.window j a : ℤ)).toNat = (i a).val
      omega
  · rename_i h
    constructor
    · intro h'; cases h'
    · intro h'
      exfalso; apply h; intro a
      have := h' a
      have := (i a).isLt
      constructor <;> omega

/-- The dimension numbers of the accumulating row scatter: operand `[N, D]`, scatter indices `[E, 1]`, updates
    `[E, D]`; the updates' axis 1 is the window axis, the operand's axis 0 is inserted and is the one the scatter
    index names. Their conditions `wf` are decided on literal shapes. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N E D w : ℕ} (wf : ScatterDims.WF ⟨2, ![N, D]⟩ ⟨2, ![E, 1]⟩ ⟨2, ![E, D]⟩ [1] [0] [0] 1)
  (idx : IVec ⟨2, ![E, 1]⟩ w) (e : Fin E) (q' : Fin D)

/-- On the operand's axis 0 the start of update `(e, q')` is the index word `idx[e, 0]` read signed … -/
theorem rowScatter_start_row : (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2)
      (rowScatter N E D wf).scatterDimsToOperandDims, List.idxOf_lt_length_iff.2 (List.mem_singleton.mpr rfl)⟩
      = ix2 e 0 := by
    funext b; refine Fin.ext ?_
    match b with
    | ⟨0, _⟩ => rfl
    | ⟨1, _⟩ => rfl
  rw [hsi]

/-- … and on axis 1, which the scatter index does not name, it is 0. -/
theorem rowScatter_start_col : (rowScatter N E D wf).start (ix2 e q') idx 1 = 0 := by
  unfold ScatterDims.start
  exact dif_neg (fun h => absurd (List.mem_singleton.mp h) (show ¬ (1 : Fin 2) = 0 by decide))

/-- The window coordinate of update `(e, q')` is 0 on the inserted axis 0 … -/
theorem rowScatter_window_row : (rowScatter N E D wf).window (ix2 e q') 0 = 0 := by
  unfold ScatterDims.window
  refine dif_neg (fun h => ?_)
  have h2 := of_decide_eq_true (List.mem_filter.mp h).2
  exact h2 (List.mem_singleton.mpr rfl)

/-- … and the update's column `q'` on axis 1. -/
theorem rowScatter_window_col : (rowScatter N E D wf).window (ix2 e q') 1 = q'.val := by
  unfold ScatterDims.window
  rw [dif_pos (show (1 : Fin 2) ∈ (rowScatter N E D wf).sKept from List.mem_filter.mpr ⟨List.mem_finRange _,
    decide_eq_true (fun h => absurd (List.mem_singleton.mp h) (show ¬ (1 : Fin 2) = 0 by decide))⟩)]
  rfl

/-- Update `(e, q')` lands on the operand's entry `(n, q)` exactly when the index word `idx[e, 0]`, read signed, is
    `n` and the columns agree. -/
theorem rowScatter_resultIdx?_iff (n : Fin N) (q : Fin D) :
    (rowScatter N E D wf).resultIdx? (ix2 e q') idx = some (ix2 n q)
      ↔ (idx (ix2 e 0)).toInt = (n.val : ℤ) ∧ q' = q := by
  rw [resultIdx?_eq_some_iff]
  constructor
  · intro h
    have h0 := h 0
    have h1 := h 1
    rw [rowScatter_start_row, rowScatter_window_row] at h0
    rw [rowScatter_start_col, rowScatter_window_col] at h1
    refine ⟨?_, Fin.ext ?_⟩
    · have : ((ix2 n q : (⟨2, ![N, D]⟩ : Shape).Idx) 0).val = n.val := rfl
      omega
    · have : ((ix2 n q : (⟨2, ![N, D]⟩ : Shape).Idx) 1).val = q.val := rfl
      omega
  · rintro ⟨hn, rfl⟩ a
    match a with
    | ⟨0, _⟩ =>
      show (rowScatter N E D wf).start (ix2 e q') idx 0 + ((rowScatter N E D wf).window (ix2 e q') 0 : ℤ) = (n.val : ℤ)
      rw [rowScatter_start_row, rowScatter_window_row, hn]; simp
    | ⟨1, _⟩ =>
      show (rowScatter N E D wf).start (ix2 e q') idx 1 + ((rowScatter N E D wf).window (ix2 e q') 1 : ℤ) = (q'.val : ℤ)
      rw [rowScatter_start_col, rowScatter_window_col]; simp

end RowScatter

/-- THE ACCUMULATING ROW SCATTER READ AT `(n, q)`: the operand's entry plus the sum, over the update rows `e` whose
    index word `idx[e, 0]` read signed is `n`, of the updates' entries `(e, q)`. -/
theorem scatter_rows_apply {N E D w : ℕ} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (q : Fin D) :
    Ideal.hostScatterAdd (rowScatter N E D wf) x idx upd (ix2 n q)
      = x (ix2 n q) + ∑ e ∈ Finset.univ.filter (fun e : Fin E => (idx (ix2 e 0)).toInt = (n.val : ℤ)), upd (ix2 e q) := by
  unfold Ideal.hostScatterAdd
  -- the updates landing on (n, q) are the entries (e, q) of the rows e landing on n
  have himg : (Finset.univ.filter fun j => (rowScatter N E D wf).resultIdx? j idx = some (ix2 n q))
      = (Finset.univ.filter fun e : Fin E => (idx (ix2 e 0)).toInt = (n.val : ℤ)).image (fun e => ix2 e q) := by
    ext j
    obtain ⟨e, q', rfl⟩ : ∃ e q', j = ix2 e q' := ⟨j 0, j 1, eq_ix2 j⟩
    simp only [Finset.mem_filter, Finset.mem_univ, true_and, Finset.mem_image, rowScatter_resultIdx?_iff]
    constructor
    · rintro ⟨h, rfl⟩; exact ⟨e, h, rfl⟩
    · rintro ⟨e', h, heq⟩
      have h0 : e' = e := congrFun heq 0
      have h1 : q = q' := congrFun heq 1
      subst h0; exact ⟨h, h1.symm⟩
  rw [himg, Finset.sum_image (fun a _ b _ hab => (congrFun hab 0 : a = b))]

end Cert.Lib.RowGatherScatter

end
-- ==== Proof.LibAggregate.lean ====
/-
  One graph aggregation read at one entry, over the extended reals, for any sizes.

  The aggregation starts from the zero `[N, D]` array and scatter-adds, along the target indices `ci`, the `E` rows
  `nrm[e] · feat[ri[e], :]`: the per-edge normalization, a length-`E` vector broadcast to a column `[E, 1]` and then to
  `[E, D]`, times the rows of `feat` gathered at the source indices `ri`. Entry `(n, q)` of the result is
  `0 + ∑ nrm[e] · feat[r(e), q]` over the edges `e` whose target word `ci[e, 0]`, read signed, is `n`, where `r(e)` is the
  source word `ri[e, 0]` read signed and clamped into `[0, N − 1]`.
-/
import proofs.«172819_j4715874091890_2_alg».proof.Proof.LibRowGatherScatter
import Idealize.ShloMosaic.PureOps.Ideal.Laws
import Idealize.ShloMosaic.Lib.IdealHost
import Idealize.ShloMosaic.Lib.Pipeline.Value

noncomputable section

open scoped BigOperators

namespace Cert.Lib.Aggregate

open Idealize.ShloMosaic Idealize.ShloMosaic.ValueIdx Cert.Lib.RowGatherScatter

/-- A length-`E` vector broadcast to a column `[E, 1]` and then across `D` columns, read at `(e, q)`: entry `e` of the
    vector, whatever the column. -/
theorem bcast_col_apply {E D : ℕ} {α : Type} (v : (⟨1, ![E]⟩ : Shape).Idx → α)
    (h1 : (⟨1, ![E]⟩ : Shape).BroadcastsInDim ⟨2, ![E, 1]⟩ ![0])
    (h2 : (⟨2, ![E, 1]⟩ : Shape).BroadcastsInDim ⟨2, ![E, D]⟩ ![0, 1]) (e : Fin E) (q : Fin D) :
    broadcastInDim ⟨2, ![E, D]⟩ ![0, 1] h2 (broadcastInDim ⟨2, ![E, 1]⟩ ![0] h1 v) (ix2 e q) = v (ix1 e) := by
  -- the column at (e, 0): axis 0 keeps the row (row 0 when E = 1, the only row), the unit axis 1 reads 0
  refine (broadcastInDim_apply ![0, 1] h2 _ (ix2 e q) (ix2 e (0 : Fin 1)) (fun a => ?_)).trans ?_
  · match a with
    | ⟨0, _⟩ =>
      show e.val = if E = 1 then 0 else e.val
      split_ifs with hE
      · have := e.isLt; omega
      · rfl
    | ⟨1, _⟩ =>
      exact (if_pos rfl).symm
  -- the vector at e
  · refine broadcastInDim_apply ![0] h1 v (ix2 e (0 : Fin 1)) (ix1 e) (fun a => ?_)
    match a with
    | ⟨0, _⟩ =>
      show e.val = if E = 1 then 0 else e.val
      split_ifs with hE
      · have := e.isLt; omega
      · rfl

/-- THE AGGREGATION READ AT `(n, q)`: zero plus the sum, over the edges `e` whose target word `ci[e, 0]` read signed
    is `n`, of the edge's normalization times entry `q` of the source row `srcRow (ri[e, 0])` of `feat`. -/
theorem aggregate_apply {N E D w : ℕ} (hN : 0 < N)
    (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (hb0 : (⟨0, ![]⟩ : Shape).BroadcastsInDim ⟨2, ![N, D]⟩ ![])
    (h1 : (⟨1, ![E]⟩ : Shape).BroadcastsInDim ⟨2, ![E, 1]⟩ ![0])
    (h2 : (⟨2, ![E, 1]⟩ : Shape).BroadcastsInDim ⟨2, ![E, D]⟩ ![0, 1])
    (nrm : FVec Ideal ⟨1, ![E]⟩ .f32) (ci ri : IVec ⟨2, ![E, 1]⟩ w) (feat : FVec Ideal ⟨2, ![N, D]⟩ .f32)
    (n : Fin N) (q : Fin D) :
    Host.scatterAdd (F := Ideal) (rowScatter N E D wfs)
        (broadcastInDim ⟨2, ![N, D]⟩ ![] hb0 (constant ⟨0, ![]⟩ .f32 0x00000000#32)) ci
        (mulf (broadcastInDim ⟨2, ![E, D]⟩ ![0, 1] h2 (broadcastInDim ⟨2, ![E, 1]⟩ ![0] h1 nrm))
          (Host.gather (rowGather N E D wfg) feat ri)) (ix2 n q)
      = 0 + ∑ e ∈ Finset.univ.filter (fun e : Fin E => (ci (ix2 e 0)).toInt = (n.val : ℤ)),
          nrm (ix1 e) * feat (ix2 (srcRow N hN (ri (ix2 e 0))) q) := by
  unfold Host.scatterAdd
  rw [Ideal.hostScatterAdd_def, scatter_rows_apply]
  congr 1
  · -- the operand is the zero array
    rw [broadcastInDim_scalar_apply, constant_apply, Ideal.ofBits_zero_f32]
  · -- each update entry is the edge's normalization times the gathered entry
    refine Finset.sum_congr rfl (fun e _ => ?_)
    rw [mulf_apply, gather_rows_apply hN, bcast_col_apply]

end Cert.Lib.Aggregate

end
-- ==== Proof.LibVecGather.lean ====
/-
  A flat array gathered at a column of start indices, read at an entry.

  Indexing a length-N array by a list of E positions is a gather whose start indices form an E×1 array and whose
  result has one entry per position.  Entry `e` of the result is the array at the position word `idx[e, 0]`, read
  as a signed integer and clamped into `[0, N − 1]` (a negative word reads entry 0, a word beyond the end the last
  entry) — the same source position as for a row gather of an N×D matrix at the same start indices.
-/
import Idealize.ShloMosaic.Lib.ValueIdx

noncomputable section

namespace Cert.Lib.VecGather

open Idealize.ShloMosaic Idealize.ShloMosaic.ValueIdx

/-- The dimension numbers of the gather: operand `[N]`, start indices `[E, 1]`, result `[E]`; no offset axis, the
    operand's one axis collapsed and named by the start index, slices of one entry. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the operand at the start word `idx[e, 0]`, read signed and clamped into `[0, N − 1]`. -/
theorem gather_vec_apply {N E w : ℕ} (hN : 0 < N)
    (wf : GatherDims.WF ⟨1, ![N]⟩ ⟨2, ![E, 1]⟩ ⟨1, ![E]⟩ [] [0] [] [0] [] 1 ![1]) {α : Type}
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.VecGather

end
-- ==== Proof.LibGcnLayer.lean ====
/-
  A graph-convolution layer finished two ways, joined entry by entry over the extended reals, for any sizes.

  Write c(k) for the node factor of node k, a real that is not negative, h for the projected features, and, at node n,
  S for the edges e whose target word, read signed, is n, s(e) for the source row of edge e.

  One way scales the rows first, hs(k, q) = h(k, q) · c(k), sums the scaled rows over the incoming edges, adds the node's
  own scaled row, and scales the result by the node's factor:
      c(n) · ((0 + Σ_{e ∈ S} hs(s e, q)) + hs(n, q)) + b(q).
  The other way weighs every edge by the product of the factors of its two ends and the node's own row by the square of
  its factor:
      ((0 + Σ_{e ∈ S} h(s e, q) · (c(s e) · c(d e))) + h(n, q) · (c(n) · c(n))) + b(q),
  where d(e), the target row of edge e, is n for every e in S.

  The two agree because multiplication by a real that is not negative distributes over sums of extended reals
  (multiplication by an infinite or a negative factor does not: ⊤ + ⊥ = ⊥ while the products may disagree). Nothing is
  asked of the features: they may be infinite.
-/
import Idealize.ShloMosaic.PureOps.Ideal.Laws
import Idealize.ShloMosaic.Lib.IdealHost
import Idealize.ShloMosaic.Lib.ValueIdx
import Idealize.ShloMosaic.Lib.Pipeline.Value
import proofs.«172819_j4715874091890_2_alg».proof.Proof.Forms
import proofs.«172819_j4715874091890_2_alg».proof.Proof.LibAggregate
import proofs.«172819_j4715874091890_2_alg».proof.Proof.LibVecGather
import proofs.«172819_j4715874091890_2_alg».proof.Proof.LibBiasRow

noncomputable section
open scoped BigOperators
namespace Cert.Lib.GcnLayer
open Idealize.ShloMosaic Idealize.ShloMosaic.ValueIdx Cert.Lib.RowGatherScatter Cert.Lib.VecGather Cert.Lib.Aggregate

/-- A real factor that is not negative goes inside a finite sum of extended reals. -/
theorem coe_mul_sum {ι : Type*} (S : Finset ι) (c : ℝ) (hc : 0 ≤ c) (f : ι → EReal) :
    (c : EReal) * ∑ e ∈ S, f e = ∑ e ∈ S, (c : EReal) * f e := by
  classical
  induction S using Finset.induction_on with
  | empty => simp
  | insert e S he ih =>
    rw [Finset.sum_insert he, Finset.sum_insert he,
      EReal.left_distrib_of_nonneg_of_ne_top (EReal.coe_nonneg.mpr hc) (EReal.coe_ne_top c), ih]

/-- THE ALGEBRA OF THE LAYER. For a real c that is not negative: c times (the sum of the terms a(e)·ds(e), plus hn·c),
    plus b, is the sum of the terms a(e)·(ds(e)·c), plus hn·(c·c), plus b. The terms may be infinite. -/
theorem scale_layer {ι : Type*} (S : Finset ι) (c : ℝ) (hc : 0 ≤ c) (a ds : ι → EReal) (hn b : EReal) :
    (c : EReal) * ((0 + ∑ e ∈ S, a e * ds e) + hn * (c : EReal)) + b
      = ((0 + ∑ e ∈ S, a e * (ds e * (c : EReal))) + hn * ((c : EReal) * (c : EReal))) + b := by
  have hc0 : (0 : EReal) ≤ (c : EReal) := EReal.coe_nonneg.mpr hc
  have hct : (c : EReal) ≠ ⊤ := EReal.coe_ne_top c
  rw [EReal.left_distrib_of_nonneg_of_ne_top hc0 hct, EReal.left_distrib_of_nonneg_of_ne_top hc0 hct,
    mul_zero, coe_mul_sum S c hc, mul_left_comm (c : EReal) hn (c : EReal)]
  congr 3
  refine Finset.sum_congr rfl (fun e _ => ?_)
  rw [mul_left_comm, mul_comm (c : EReal) (ds e)]

section
variable {N E D : ℕ} (hN : 0 < N)
  (wfs : ScatterDims.WF ⟨2, ![N, D]⟩ ⟨2, ![E, 1]⟩ ⟨2, ![E, D]⟩ [1] [0] [0] 1)
  (wfg : GatherDims.WF ⟨2, ![N, D]⟩ ⟨2, ![E, 1]⟩ ⟨2, ![E, D]⟩ [1] [0] [] [0] [] 1 ![1, D])
  (wfv : GatherDims.WF ⟨1, ![N]⟩ ⟨2, ![E, 1]⟩ ⟨1, ![E]⟩ [] [0] [] [0] [] 1 ![1])
  (hz : (⟨0, ![]⟩ : Shape).BroadcastsInDim ⟨2, ![N, D]⟩ ![])
  (he1 : (⟨1, ![E]⟩ : Shape).BroadcastsInDim ⟨2, ![E, 1]⟩ ![0])
  (he2 : (⟨2, ![E, 1]⟩ : Shape).BroadcastsInDim ⟨2, ![E, D]⟩ ![0, 1])
  (hn1 : (⟨1, ![N]⟩ : Shape).BroadcastsInDim ⟨2, ![N, 1]⟩ ![0])
  (hn2 : (⟨2, ![N, 1]⟩ : Shape).BroadcastsInDim ⟨2, ![N, D]⟩ ![0, 1])
  (hb1 : (⟨1, ![D]⟩ : Shape).BroadcastsInDim ⟨2, ![1, D]⟩ ![1])
  (hb2 : (⟨2, ![1, D]⟩ : Shape).BroadcastsInDim ⟨2, ![N, D]⟩ ![0, 1])

/-- The kernel's aggregation: the zero array scatter-added, along the target words, with the gathered rows of the
    ALREADY SCALED features. -/
def aggK (f : FVec Ideal ⟨2, ![N, D]⟩ .f32) (dst srcn : IVec ⟨2, ![E, 1]⟩ 32) : FVec Ideal ⟨2, ![N, D]⟩ .f32 :=
  Host.scatterAdd (F := Ideal) (rowScatter N E D wfs)
    (broadcastInDim ⟨2, ![N, D]⟩ ![] hz (constant ⟨0, ![]⟩ .f32 0x00000000#32)) dst
    (Host.gather (rowGather N E D wfg) f srcn)

/-- The reference's layer before the clip: the zero array scatter-added with the gathered rows of the UNSCALED features
    times the per-edge coefficient dinv[src]·dinv[dst], plus the self term h·(dinv·dinv), plus the bias. -/
def layerR (h : FVec Ideal ⟨2, ![N, D]⟩ .f32) (dinv : FVec Ideal ⟨1, ![N]⟩ .f32) (dst srcn dstn : IVec ⟨2, ![E, 1]⟩ 32)
    (b : FVec Ideal ⟨1, ![D]⟩ .f32) : FVec Ideal ⟨2, ![N, D]⟩ .f32 :=
  addf (addf
    (Host.scatterAdd (F := Ideal) (rowScatter N E D wfs)
      (broadcastInDim ⟨2, ![N, D]⟩ ![] hz (constant ⟨0, ![]⟩ .f32 0x00000000#32)) dst
      (mulf (Host.gather (rowGather N E D wfg) h srcn)
        (broadcastInDim ⟨2, ![E, D]⟩ ![0, 1] he2 (broadcastInDim ⟨2, ![E, 1]⟩ ![0] he1
          (mulf (Host.gather (vecGather N E wfv) dinv srcn) (Host.gather (vecGather N E wfv) dinv dstn))))))
    (mulf h (broadcastInDim ⟨2, ![N, D]⟩ ![0, 1] hn2 (broadcastInDim ⟨2, ![N, 1]⟩ ![0] hn1 (mulf dinv dinv)))))
    (broadcastInDim ⟨2, ![N, D]⟩ ![0, 1] hb2 (broadcastInDim ⟨2, ![1, D]⟩ ![1] hb1 b))

/-- THE KERNEL'S AGGREGATION READ AT `(n, q)`: zero plus the sum, over the edges `e` whose target word `dst[e, 0]` read
    signed is `n`, of entry `q` of the source row `srcRow (srcn[e, 0])` of the features. -/
theorem aggK_apply (f : FVec Ideal ⟨2, ![N, D]⟩ .f32) (dst srcn : IVec ⟨2, ![E, 1]⟩ 32) (n : Fin N) (q : Fin D) :
    aggK wfs wfg hz f dst srcn (ix2 n q)
      = 0 + ∑ e ∈ Finset.univ.filter (fun e : Fin E => (dst (ix2 e 0)).toInt = (n.val : ℤ)),
          f (ix2 (srcRow N hN (srcn (ix2 e 0))) q) := by
  unfold aggK Host.scatterAdd
  rw [Ideal.hostScatterAdd_def, scatter_rows_apply]
  congr 1
  · rw [broadcastInDim_scalar_apply, constant_apply, Ideal.ofBits_zero_f32]
  · refine Finset.sum_congr rfl (fun e _ => ?_)
    rw [gather_rows_apply hN]

/-- THE REFERENCE'S LAYER READ AT `(n, q)`: zero plus the sum, over the edges `e` landing on `n`, of the source row's
    entry times the product of the factors at the edge's source row and target row; plus the node's own entry times the
    square of its factor; plus the bias at `q`. -/
theorem layerR_apply (h : FVec Ideal ⟨2, ![N, D]⟩ .f32) (dinv : FVec Ideal ⟨1, ![N]⟩ .f32)
    (dst srcn dstn : IVec ⟨2, ![E, 1]⟩ 32) (b : FVec Ideal ⟨1, ![D]⟩ .f32) (n : Fin N) (q : Fin D) :
    layerR wfs wfg wfv hz he1 he2 hn1 hn2 hb1 hb2 h dinv dst srcn dstn b (ix2 n q)
      = ((0 + ∑ e ∈ Finset.univ.filter (fun e : Fin E => (dst (ix2 e 0)).toInt = (n.val : ℤ)),
            h (ix2 (srcRow N hN (srcn (ix2 e 0))) q)
              * (dinv (ix1 (srcRow N hN (srcn (ix2 e 0)))) * dinv (ix1 (srcRow N hN (dstn (ix2 e 0))))))
          + h (ix2 n q) * (dinv (ix1 n) * dinv (ix1 n))) + b (ix1 q) := by
  unfold layerR
  rw [addf_apply, addf_apply, mulf_apply, bcast_col_apply, mulf_apply, Cert.Row.bcast_row_apply]
  unfold Host.scatterAdd
  rw [Ideal.hostScatterAdd_def, scatter_rows_apply]
  congr 1
  congr 1
  congr 1
  · rw [broadcastInDim_scalar_apply, constant_apply, Ideal.ofBits_zero_f32]
  · refine Finset.sum_congr rfl (fun e _ => ?_)
    rw [mulf_apply, gather_rows_apply hN, bcast_col_apply, mulf_apply, gather_vec_apply hN, gather_vec_apply hN]
    rfl

/-- THE LAYER LAW. With a real nonnegative node factor dinv, scaled features hs = h·dinv (row by row), the factor as a
    column and the bias as a row, and every edge that lands on node n having n as its (normalized, clamped) target row:
    the kernel's c·(agg + hs) + b is the reference's layer, entry by entry. -/
theorem layer_eq (h hs : FVec Ideal ⟨2, ![N, D]⟩ .f32) (dinv : FVec Ideal ⟨1, ![N]⟩ .f32)
    (dcol : FVec Ideal ⟨2, ![N, 1]⟩ .f32) (brow : FVec Ideal ⟨2, ![1, D]⟩ .f32) (b : FVec Ideal ⟨1, ![D]⟩ .f32)
    (dst srcn dstn : IVec ⟨2, ![E, 1]⟩ 32)
    (hreal : ∀ n : Fin N, ∃ r : ℝ, 0 ≤ r ∧ dinv (ix1 n) = (r : EReal))
    (hhs : ∀ (n : Fin N) (q : Fin D), hs (ix2 n q) = h (ix2 n q) * dinv (ix1 n))
    (hdcol : ∀ n : Fin N, dcol (ix2 n (0 : Fin 1)) = dinv (ix1 n))
    (hbrow : ∀ q : Fin D, brow (ix2 (0 : Fin 1) q) = b (ix1 q))
    (hland : ∀ (e : Fin E) (n : Fin N), (dst (ix2 e (0 : Fin 1))).toInt = (n.val : ℤ) → srcRow N hN (dstn (ix2 e (0 : Fin 1))) = n)
    (n : Fin N) (q : Fin D) :
    Cert.Gcn.combine (aggK wfs wfg hz hs dst srcn) hs dcol brow (ix2 n q)
      = layerR wfs wfg wfv hz he1 he2 hn1 hn2 hb1 hb2 h dinv dst srcn dstn b (ix2 n q) := by
  obtain ⟨r, hr, hdr⟩ := hreal n
  rw [Cert.Gcn.combine_apply, aggK_apply hN, layerR_apply hN, hdcol, hbrow, hhs, hdr]
  have hsum : ∀ (g : Fin E → EReal) (g' : Fin E → EReal),
      (∀ e, (dst (ix2 e (0 : Fin 1))).toInt = (n.val : ℤ) → g e = g' e) →
      ∑ e ∈ Finset.univ.filter (fun e : Fin E => (dst (ix2 e 0)).toInt = (n.val : ℤ)), g e
        = ∑ e ∈ Finset.univ.filter (fun e : Fin E => (dst (ix2 e 0)).toInt = (n.val : ℤ)), g' e :=
    fun g g' hg => Finset.sum_congr rfl (fun e he => hg e (Finset.mem_filter.mp he).2)
  rw [hsum _ (fun e => h (ix2 (srcRow N hN (srcn (ix2 e 0))) q) * dinv (ix1 (srcRow N hN (srcn (ix2 e 0)))))
      (fun e _ => hhs _ _),
    hsum (fun e => h (ix2 (srcRow N hN (srcn (ix2 e 0))) q)
        * (dinv (ix1 (srcRow N hN (srcn (ix2 e 0)))) * dinv (ix1 (srcRow N hN (dstn (ix2 e 0))))))
      (fun e => h (ix2 (srcRow N hN (srcn (ix2 e 0))) q)
        * (dinv (ix1 (srcRow N hN (srcn (ix2 e 0)))) * (r : EReal)))
      (fun e he => by rw [hland e n he, hdr])]
  exact scale_layer _ r hr _ _ _ _

end
end Cert.Lib.GcnLayer
end
-- ==== Proof.LibGcnSteps.lean ====
/-
  The steps of a graph-convolution network around its layers, each read two ways, entry by entry over the extended
  reals, for any sizes.

  Write c(n) for the node factor, a real that is not negative. The network carries the features with their rows already
  scaled, hs(n, q) = h(n, q) · c(n), while the other way of computing carries h itself and scales where it is used.

  The first projection: (Σₖ x(n,k) · W(k,q)) · c(n) is the matrix product x·W at (n, q), times c(n).

  A layer step: finishing a layer on the scaled features, c(n) · (agg(n,k) + hs(n,k)) + b(k), is the unscaled way's
  layer at (n, k) (the layer law); both are clipped at zero, both projected by W and the rows scaled by c(n). So the
  next layer's scaled features are again its unscaled features times c(n), and the argument repeats layer after layer.

  The head: at graph g the per-graph sums are divided by max(count(g), 1), the means go through a dense step
  Σₘ mean(g,m) · Wa(m,k) + ba(k) clipped at zero, a second dense step Σₖ · Wo(k,j) + bo(j), and the hyperbolic tangent.
  Written entry by entry, or with whole-array quotient, matrix products, maxima, a count column spread across the
  features and bias rows spread across the graphs, every entry is the same expression.
-/
import Idealize.ShloMosaic.PureOps.Ideal.Laws
import Idealize.ShloMosaic.Lib.IdealHost
import Idealize.ShloMosaic.Lib.ValueIdx
import Idealize.ShloMosaic.Lib.Pipeline.Value
import proofs.«172819_j4715874091890_2_alg».proof.Proof.Forms
import proofs.«172819_j4715874091890_2_alg».proof.Proof.LibGcnLayer
import proofs.«172819_j4715874091890_2_alg».proof.Proof.LibPlainDot
import proofs.«172819_j4715874091890_2_alg».proof.Proof.LibBiasRow

noncomputable section
open scoped BigOperators
namespace Cert.Lib.GcnSteps
open Idealize.ShloMosaic Idealize.ShloMosaic.ValueIdx Cert.Lib.RowGatherScatter Cert.Lib.VecGather Cert.Lib.Aggregate Cert.Lib.GcnLayer

/-- The host's hyperbolic tangent at an index is the ideal hyperbolic tangent of the entry. -/
theorem hostTanh_apply {s : Shape} {φ : FTy} (x : FVec Ideal s φ) (i : s.Idx) :
    Host.tanh (F := Ideal) x i = Ideal.tanh (x i) := rfl

/-- The per-graph means at `(g, m)`: the sum divided by the count, at least one. -/
theorem pooled_apply {G D : ℕ} (sums : FVec Ideal ⟨2, ![G, D]⟩ .f32) (cnts : FVec Ideal ⟨2, ![G, 1]⟩ .f32) (g : Fin G) (m : Fin D) :
    Cert.Gcn.pooled sums cnts (ix2 g m) = Ideal.div (sums (ix2 g m)) (max (cnts (ix2 g (0 : Fin 1))) Cert.Gcn.oneW) := rfl

/-- A dense step at `(p, q)`: Σₖ a(p,k) · W(k,q) + b(0,q). -/
theorem dense_apply {G D H : ℕ} (a : FVec Ideal ⟨2, ![G, D]⟩ .f32) (W : FVec Ideal ⟨2, ![D, H]⟩ .f32) (b : FVec Ideal ⟨2, ![1, H]⟩ .f32)
    (p : Fin G) (q : Fin H) :
    Cert.Gcn.dense a W b (ix2 p q) = (∑ k : Fin D, a (ix2 p k) * W (ix2 k q)) + b (ix2 (0 : Fin 1) q) := rfl

/-- A clipped dense step at `(p, q)`: the larger of the dense step there and zero. -/
theorem denseRelu_apply {G D H : ℕ} (a : FVec Ideal ⟨2, ![G, D]⟩ .f32) (W : FVec Ideal ⟨2, ![D, H]⟩ .f32) (b : FVec Ideal ⟨2, ![1, H]⟩ .f32)
    (p : Fin G) (q : Fin H) :
    Cert.Gcn.denseRelu a W b (ix2 p q)
      = max ((∑ k : Fin D, a (ix2 p k) * W (ix2 k q)) + b (ix2 (0 : Fin 1) q)) Cert.Gcn.zeroW := rfl

/-- The head at `(g, j)`: the hyperbolic tangent of the second dense step of the clipped first one of the means. -/
theorem head_apply {G D H A : ℕ} (sums : FVec Ideal ⟨2, ![G, D]⟩ .f32) (cnts : FVec Ideal ⟨2, ![G, 1]⟩ .f32)
    (Wa : FVec Ideal ⟨2, ![D, H]⟩ .f32) (ba : FVec Ideal ⟨2, ![1, H]⟩ .f32)
    (Wo : FVec Ideal ⟨2, ![H, A]⟩ .f32) (bo : FVec Ideal ⟨2, ![1, A]⟩ .f32) (g : Fin G) (j : Fin A) :
    Cert.Gcn.head sums cnts Wa ba Wo bo (ix2 g j)
      = Ideal.tanh ((∑ k : Fin H, Cert.Gcn.denseRelu (Cert.Gcn.pooled sums cnts) Wa ba (ix2 g k) * Wo (ix2 k j))
          + bo (ix2 (0 : Fin 1) j)) := rfl

/-- THE FIRST PROJECTION. Projecting and then scaling row n by the node factor is the host's product times the factor. -/
theorem first_eq {N K D : ℕ} (dd : DotDims ⟨2, ![N, K]⟩ ⟨2, ![K, D]⟩ ⟨2, ![N, D]⟩) (hdd : dd = DotDims.plain N K D)
    (x : FVec Ideal ⟨2, ![N, K]⟩ .f32) (W : FVec Ideal ⟨2, ![K, D]⟩ .f32) (dinv : FVec Ideal ⟨1, ![N]⟩ .f32)
    (dcol : FVec Ideal ⟨2, ![N, 1]⟩ .f32) (hdcol : ∀ n : Fin N, dcol (ix2 n (0 : Fin 1)) = dinv (ix1 n)) (n : Fin N) (q : Fin D) :
    Cert.LayerForms.dotScale (φ := .f32) x W dcol (ix2 n q) = Host.dotGeneral (F := Ideal) dd none x W (ix2 n q) * dinv (ix1 n) := by
  rw [Cert.LayerForms.dotScale_apply, hdcol]
  exact congrArg (· * dinv (ix1 n)) (Cert.LibPlainDot.dotGeneral_apply dd hdd none .single x W n q).symm

section
variable {N E D K : ℕ} (hN : 0 < N)
  (wfs : ScatterDims.WF ⟨2, ![N, D]⟩ ⟨2, ![E, 1]⟩ ⟨2, ![E, D]⟩ [1] [0] [0] 1)
  (wfg : GatherDims.WF ⟨2, ![N, D]⟩ ⟨2, ![E, 1]⟩ ⟨2, ![E, D]⟩ [1] [0] [] [0] [] 1 ![1, D])
  (wfv : GatherDims.WF ⟨1, ![N]⟩ ⟨2, ![E, 1]⟩ ⟨1, ![E]⟩ [] [0] [] [0] [] 1 ![1])
  (hz : (⟨0, ![]⟩ : Shape).BroadcastsInDim ⟨2, ![N, D]⟩ ![])
  (he1 : (⟨1, ![E]⟩ : Shape).BroadcastsInDim ⟨2, ![E, 1]⟩ ![0])
  (he2 : (⟨2, ![E, 1]⟩ : Shape).BroadcastsInDim ⟨2, ![E, D]⟩ ![0, 1])
  (hn1 : (⟨1, ![N]⟩ : Shape).BroadcastsInDim ⟨2, ![N, 1]⟩ ![0])
  (hn2 : (⟨2, ![N, 1]⟩ : Shape).BroadcastsInDim ⟨2, ![N, D]⟩ ![0, 1])
  (hb1 : (⟨1, ![D]⟩ : Shape).BroadcastsInDim ⟨2, ![1, D]⟩ ![1])
  (hb2 : (⟨2, ![1, D]⟩ : Shape).BroadcastsInDim ⟨2, ![N, D]⟩ ![0, 1])
  (hzr : (⟨0, ![]⟩ : Shape).BroadcastsInDim ⟨2, ![N, D]⟩ ![])

/-- A LAYER STEP. If the scaled features are hs = h·dinv row by row, then finishing the layer the kernel's way (clipped),
    projecting by W and scaling the rows again is the host's product of the reference's clipped layer with W, times the
    node factor: the next layer's features are again scaled = unscaled · dinv. -/
theorem next_eq (dd : DotDims ⟨2, ![N, D]⟩ ⟨2, ![D, K]⟩ ⟨2, ![N, K]⟩) (hdd : dd = DotDims.plain N D K)
    (h hs : FVec Ideal ⟨2, ![N, D]⟩ .f32) (dinv : FVec Ideal ⟨1, ![N]⟩ .f32)
    (dcol : FVec Ideal ⟨2, ![N, 1]⟩ .f32) (brow : FVec Ideal ⟨2, ![1, D]⟩ .f32) (b : FVec Ideal ⟨1, ![D]⟩ .f32)
    (W : FVec Ideal ⟨2, ![D, K]⟩ .f32) (dst srcn dstn : IVec ⟨2, ![E, 1]⟩ 32)
    (hreal : ∀ n : Fin N, ∃ r : ℝ, 0 ≤ r ∧ dinv (ix1 n) = (r : EReal))
    (hhs : ∀ (n : Fin N) (q : Fin D), hs (ix2 n q) = h (ix2 n q) * dinv (ix1 n))
    (hdcol : ∀ n : Fin N, dcol (ix2 n (0 : Fin 1)) = dinv (ix1 n))
    (hbrow : ∀ q : Fin D, brow (ix2 (0 : Fin 1) q) = b (ix1 q))
    (hland : ∀ (e : Fin E) (n : Fin N), (dst (ix2 e (0 : Fin 1))).toInt = (n.val : ℤ) → srcRow N hN (dstn (ix2 e (0 : Fin 1))) = n)
    (n : Fin N) (q : Fin K) :
    Cert.Gcn.nextLayer (aggK wfs wfg hz hs dst srcn) hs dcol brow W (ix2 n q)
      = Host.dotGeneral (F := Ideal) dd none
          (maximumf (layerR wfs wfg wfv hz he1 he2 hn1 hn2 hb1 hb2 h dinv dst srcn dstn b)
            (broadcastInDim ⟨2, ![N, D]⟩ ![] hzr (constant ⟨0, ![]⟩ .f32 0x00000000#32))) W (ix2 n q) * dinv (ix1 n) := by
  rw [Cert.Gcn.nextLayer_apply, hdcol]
  refine congrArg (· * dinv (ix1 n)) ?_
  refine Eq.trans ?_ (Cert.LibPlainDot.dotGeneral_apply dd hdd none .single _ W n q).symm
  refine Finset.sum_congr rfl (fun k _ => ?_)
  -- entry (n, k) of the clipped layer, the two ways: the layer law under the clip
  have hk : Cert.Gcn.combineRelu (aggK wfs wfg hz hs dst srcn) hs dcol brow (ix2 n k)
      = max (Cert.Gcn.combine (aggK wfs wfg hz hs dst srcn) hs dcol brow (ix2 n k)) Cert.Gcn.zeroW := rfl
  rw [hk, layer_eq hN wfs wfg wfv hz he1 he2 hn1 hn2 hb1 hb2 h hs dinv dcol brow b dst srcn dstn hreal hhs hdcol hbrow
      hland n k, maximumf_apply, broadcastInDim_scalar_apply, constant_apply]
end

/-- THE HEAD, TWO WAYS. The per-graph means, two dense steps (the first clipped at zero) and the hyperbolic tangent,
    entry by entry, are the host's divide / dot_general / broadcast / maximum / tanh on whole arrays, the node counts a
    length-G vector spread to a column and the biases vectors spread to rows. -/
theorem head_eq {G D H A : ℕ}
    (d1 : DotDims ⟨2, ![G, D]⟩ ⟨2, ![D, H]⟩ ⟨2, ![G, H]⟩) (hd1 : d1 = DotDims.plain G D H)
    (d2 : DotDims ⟨2, ![G, H]⟩ ⟨2, ![H, A]⟩ ⟨2, ![G, A]⟩) (hd2 : d2 = DotDims.plain G H A)
    (sums : FVec Ideal ⟨2, ![G, D]⟩ .f32) (cnt : FVec Ideal ⟨1, ![G]⟩ .f32)
    (Wa : FVec Ideal ⟨2, ![D, H]⟩ .f32) (ba : FVec Ideal ⟨1, ![H]⟩ .f32) (Wo : FVec Ideal ⟨2, ![H, A]⟩ .f32) (bo : FVec Ideal ⟨1, ![A]⟩ .f32)
    (cntcol : FVec Ideal ⟨2, ![G, 1]⟩ .f32) (hcnt : ∀ g : Fin G, cntcol (ix2 g (0 : Fin 1)) = cnt (ix1 g))
    (barow : FVec Ideal ⟨2, ![1, H]⟩ .f32) (hba : ∀ j : Fin H, barow (ix2 (0 : Fin 1) j) = ba (ix1 j))
    (borow : FVec Ideal ⟨2, ![1, A]⟩ .f32) (hbo : ∀ j : Fin A, borow (ix2 (0 : Fin 1) j) = bo (ix1 j))
    (hz1 : (⟨0, ![]⟩ : Shape).BroadcastsInDim ⟨1, ![G]⟩ ![])
    (hc1 : (⟨1, ![G]⟩ : Shape).BroadcastsInDim ⟨2, ![G, 1]⟩ ![0])
    (hc2 : (⟨2, ![G, 1]⟩ : Shape).BroadcastsInDim ⟨2, ![G, D]⟩ ![0, 1])
    (ha1 : (⟨1, ![H]⟩ : Shape).BroadcastsInDim ⟨2, ![1, H]⟩ ![1])
    (ha2 : (⟨2, ![1, H]⟩ : Shape).BroadcastsInDim ⟨2, ![G, H]⟩ ![0, 1])
    (hzH : (⟨0, ![]⟩ : Shape).BroadcastsInDim ⟨2, ![G, H]⟩ ![])
    (ho1 : (⟨1, ![A]⟩ : Shape).BroadcastsInDim ⟨2, ![1, A]⟩ ![1])
    (ho2 : (⟨2, ![1, A]⟩ : Shape).BroadcastsInDim ⟨2, ![G, A]⟩ ![0, 1]) :
    Cert.Gcn.head sums cntcol Wa barow Wo borow
      = Host.tanh (F := Ideal) (addf
          (Host.dotGeneral d2 none
            (maximumf (addf
                (Host.dotGeneral d1 none
                  (Host.divf sums (broadcastInDim ⟨2, ![G, D]⟩ ![0, 1] hc2 (broadcastInDim ⟨2, ![G, 1]⟩ ![0] hc1
                    (maximumf cnt (broadcastInDim ⟨1, ![G]⟩ ![] hz1 (constant ⟨0, ![]⟩ .f32 0x3F800000#32)))))) Wa)
                (broadcastInDim ⟨2, ![G, H]⟩ ![0, 1] ha2 (broadcastInDim ⟨2, ![1, H]⟩ ![1] ha1 ba)))
              (broadcastInDim ⟨2, ![G, H]⟩ ![] hzH (constant ⟨0, ![]⟩ .f32 0x00000000#32))) Wo)
          (broadcastInDim ⟨2, ![G, A]⟩ ![0, 1] ho2 (broadcastInDim ⟨2, ![1, A]⟩ ![1] ho1 bo))) := by
  funext i
  obtain ⟨g, j, rfl⟩ : ∃ (g : Fin G) (j : Fin A), i = ix2 g j := ⟨i 0, i 1, eq_ix2 i⟩
  refine (head_apply sums cntcol Wa barow Wo borow g j).trans ?_
  refine Eq.trans ?_ (hostTanh_apply _ (ix2 g j)).symm
  refine congrArg Ideal.tanh ?_
  have hro : Cert.Row.rowOf bo (ix2 (0 : Fin 1) j) = bo (ix1 j) := rfl
  rw [addf_apply, Cert.Row.bcast_row_apply, hro, hbo]
  refine congrArg (· + bo (ix1 j)) ?_
  -- the second product, term by term
  refine Eq.trans ?_ (Cert.LibPlainDot.dotGeneral_apply d2 hd2 none .single _ Wo g j).symm
  refine Finset.sum_congr rfl (fun k _ => ?_)
  refine congrArg (· * Wo (ix2 k j)) ?_
  have hra : Cert.Row.rowOf ba (ix2 (0 : Fin 1) k) = ba (ix1 k) := rfl
  rw [denseRelu_apply, maximumf_apply, broadcastInDim_scalar_apply, constant_apply, addf_apply,
    Cert.Row.bcast_row_apply, hra, hba]
  refine congrArg (fun t => max (t + ba (ix1 k)) Cert.Gcn.zeroW) ?_
  -- the first product, term by term
  refine Eq.trans ?_ (Cert.LibPlainDot.dotGeneral_apply d1 hd1 none .single _ Wa g k).symm
  refine Finset.sum_congr rfl (fun m _ => ?_)
  refine congrArg (· * Wa (ix2 m k)) ?_
  -- the mean at (g, m): the count column is the count vector spread across the features
  rw [pooled_apply, hostDivf_apply, bcast_col_apply, maximumf_apply, broadcastInDim_scalar_apply, constant_apply, hcnt]

end Cert.Lib.GcnSteps
end
-- ==== Proof.LibPoolDeg.lean ====
/-
  Five small facts about per-graph pooling and the node factor, for any sizes.

  * Scatter-adding ones into zeros counts, at each element, the updates that land there: a natural number c. One more,
    c + 1, is a real at least one, so its reciprocal square root 1/√(c + 1) is a nonnegative real.
  * The per-graph sum Σₙ [id(n) = g] · y(n, q) is the accumulating row scatter of the rows of y into the zero array
    along the id words, read at (g, q): for g below 2³¹ a 32-bit word equals the word of g exactly when it reads,
    signed, as g; so the indicator selects the rows the scatter lands on g, and the zero operand adds nothing.
  * A word that reads, signed, as a row number n of an N-row array is its own clamped source row.
  * Adding a constant to the words that are negative leaves a nonnegative word alone.
  * A length-a vector spread to an [a, 1] column reads, at (i, u), the vector at i.
-/
import Idealize.ShloMosaic.PureOps.Ideal.Laws
import Idealize.ShloMosaic.Lib.IdealHost
import Idealize.ShloMosaic.Lib.ValueIdx
import Idealize.ShloMosaic.Lib.Pipeline.Value
import proofs.«172819_j4715874091890_2_alg».proof.Proof.Forms
import proofs.«172819_j4715874091890_2_alg».proof.Proof.LibRowGatherScatter

noncomputable section
open scoped BigOperators
namespace Cert.Lib.PoolDeg
open Idealize.ShloMosaic Idealize.ShloMosaic.ValueIdx Cert.Lib.RowGatherScatter

/-- (1) THE NODE FACTOR IS A NONNEGATIVE REAL. Scatter-adding ones into zeros counts, at each element, the updates that
    land there: a natural number; one more is a real ≥ 1, and its reciprocal square root a nonnegative real — whatever
    the scatter's dimension numbers and index words are. -/
theorem rsqrt_count_real {s si su : Shape} (d : ScatterDims s si su) {w : ℕ} (idx : IVec si w)
    (hz hz' : (⟨0, ![]⟩ : Shape).BroadcastsInDim s ![]) (hu : (⟨0, ![]⟩ : Shape).BroadcastsInDim su ![]) (i : s.Idx) :
    ∃ r : ℝ, 0 ≤ r ∧
      Host.rsqrt (F := Ideal) (φ := .f32) (addf
        (Host.scatterAdd (F := Ideal) d (broadcastInDim s ![] hz (constant ⟨0, ![]⟩ .f32 0x00000000#32)) idx
          (broadcastInDim su ![] hu (constant ⟨0, ![]⟩ .f32 0x3F800000#32)))
        (broadcastInDim s ![] hz' (constant ⟨0, ![]⟩ .f32 0x3F800000#32))) i = (r : EReal) := by
  -- the count plus one, as a real at least one
  have key : ∃ t : ℝ, 1 ≤ t ∧ addf
        (Host.scatterAdd (F := Ideal) d (broadcastInDim s ![] hz (constant ⟨0, ![]⟩ .f32 0x00000000#32)) idx
          (broadcastInDim su ![] hu (constant ⟨0, ![]⟩ .f32 0x3F800000#32)))
        (broadcastInDim s ![] hz' (constant ⟨0, ![]⟩ .f32 0x3F800000#32)) i = (t : EReal) := by
    refine ⟨((Finset.univ.filter (fun j => d.resultIdx? j idx = some i)).card : ℝ) + 1, ?_, ?_⟩
    · have : (0 : ℝ) ≤ ((Finset.univ.filter (fun j => d.resultIdx? j idx = some i)).card : ℝ) := Nat.cast_nonneg _
      linarith
    · rw [addf_apply]
      unfold Host.scatterAdd
      rw [Ideal.hostScatterAdd_def]
      unfold Ideal.hostScatterAdd
      rw [broadcastInDim_scalar_apply, constant_apply, Ideal.ofBits_zero_f32, broadcastInDim_scalar_apply,
        constant_apply, Ideal.ofBits_one_f32, zero_add]
      have hs : ∀ j ∈ Finset.univ.filter (fun j => d.resultIdx? j idx = some i),
          broadcastInDim su ![] hu (constant (F := Ideal) ⟨0, ![]⟩ .f32 0x3F800000#32) j = (1 : EReal) := by
        intro j _
        rw [broadcastInDim_scalar_apply, constant_apply, Ideal.ofBits_one_f32]
      -- n ones add up to the real n
      have hn : ∀ n : ℕ, n • (1 : EReal) = ((n : ℝ) : EReal) := by
        intro n
        induction n with
        | zero => rw [zero_nsmul, Nat.cast_zero, EReal.coe_zero]
        | succ m ih => rw [succ_nsmul, ih, Nat.cast_succ, EReal.coe_add, EReal.coe_one]
      rw [Finset.sum_congr rfl hs, Finset.sum_const, hn, EReal.coe_add, EReal.coe_one]
  obtain ⟨t, ht, hkey⟩ := key
  refine ⟨(Real.sqrt t)⁻¹, inv_nonneg.mpr (Real.sqrt_nonneg t), ?_⟩
  show FloatOps.hostUnary .rsqrt (addf _ _ i) = _
  rw [hkey, Ideal.hostUnary_rsqrt_def, Ideal.rsqrt_coe, if_neg (by linarith), if_neg (by linarith)]

/-- (2) THE PER-GRAPH SUMS, TWO WAYS. Summing [id(n) = g]·y(n,q) over all nodes is scatter-adding the rows of y into the
    zero [G, D] array along the id words (an id outside [0, G) lands nowhere and matches no g). -/
theorem pool_eq {M G D : ℕ} (wf : ScatterDims.WF ⟨2, ![G, D]⟩ ⟨2, ![M, 1]⟩ ⟨2, ![M, D]⟩ [1] [0] [0] 1)
    (hz : (⟨0, ![]⟩ : Shape).BroadcastsInDim ⟨2, ![G, D]⟩ ![]) (hG : G ≤ 2 ^ 31)
    (y : FVec Ideal ⟨2, ![M, D]⟩ .f32) (idx : IVec ⟨2, ![M, 1]⟩ 32) (g : Fin G) (q : Fin D) :
    Cert.Gcn.poolSum y idx (ix2 g q)
      = Host.scatterAdd (F := Ideal) (rowScatter G M D wf)
          (broadcastInDim ⟨2, ![G, D]⟩ ![] hz (constant ⟨0, ![]⟩ .f32 0x00000000#32)) idx y (ix2 g q) := by
  -- a 32-bit word is the word of g exactly when it reads, signed, as g (g < 2³¹)
  have hword : ∀ w : BitVec 32, w = BitVec.ofNat 32 g.val ↔ w.toInt = (g.val : ℤ) := by
    intro w
    have hg : g.val < 2 ^ 31 := lt_of_lt_of_le g.isLt hG
    have hto : (BitVec.ofNat 32 g.val).toInt = (g.val : ℤ) := by
      rw [BitVec.toInt_eq_toNat_cond, BitVec.toNat_ofNat]
      split_ifs <;> omega
    constructor
    · rintro rfl; exact hto
    · intro h; exact BitVec.eq_of_toInt_eq (h.trans hto.symm)
  -- the scatter at (g, q): zero plus the rows whose id word reads g
  have hR : Host.scatterAdd (F := Ideal) (rowScatter G M D wf)
        (broadcastInDim ⟨2, ![G, D]⟩ ![] hz (constant ⟨0, ![]⟩ .f32 0x00000000#32)) idx y (ix2 g q)
      = ∑ n ∈ Finset.univ.filter (fun n : Fin M => (idx (ix2 n 0)).toInt = (g.val : ℤ)), y (ix2 n q) := by
    unfold Host.scatterAdd
    rw [Ideal.hostScatterAdd_def, scatter_rows_apply, broadcastInDim_scalar_apply, constant_apply,
      Ideal.ofBits_zero_f32, zero_add]
  rw [hR, Cert.Gcn.poolSum_apply, Finset.sum_filter]
  refine Finset.sum_congr rfl (fun n _ => ?_)
  unfold Cert.Gcn.ind
  by_cases hn : (idx (ix2 n 0)).toInt = (g.val : ℤ)
  · rw [if_pos ((hword _).mpr hn), if_pos hn, one_mul]
  · rw [if_neg (fun h => hn ((hword _).mp h)), if_neg hn, zero_mul]

/-- (3) A word that reads as a row number n of an N-row array is its own clamped source row. -/
theorem srcRow_of_toInt_eq {N : ℕ} (hN : 0 < N) (w : BitVec 32) (n : Fin N) (h : w.toInt = (n.val : ℤ)) :
    srcRow N hN w = n := by
  refine Fin.ext ?_
  show min w.toInt.toNat (N - 1) = n.val
  have := n.isLt
  omega

/-- (4) Python-style wrapping of a negative index leaves a nonnegative word alone: select (v < 0) (v + k) v = v there. -/
theorem wrap_of_nonneg {s : Shape} (v z k : IVec s 32) (e : s.Idx) (hz : z e = 0#32) (h : 0 ≤ (v e).toInt) :
    select (cmpi .slt v z) (addi v k) v e = v e := by
  -- the signed comparison v < 0 is false at a word that reads nonnegative
  have hc : cmpi .slt v z e = 0#1 := by
    show BitVec.ofBool ((v e).slt (z e)) = 0#1
    have hf : (v e).slt (z e) = false := by
      rw [hz, BitVec.slt]
      simp only [BitVec.toInt_zero, decide_eq_false_iff_not, not_lt]
      exact h
    rw [hf]; rfl
  rw [select_apply, hc]
  exact if_neg (by decide)

/-- (5) An [a] vector spread to an [a, 1] column by the host reads, at (i, u), the vector at i. -/
theorem bcast_a_a1_apply {α : Type} {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  -- axis 0 keeps the row: row 0 when a = 1 (the only row), else the row itself
  refine broadcastInDim_apply ![0] h v (ix2 i u) (ix1 i) (fun b => ?_)
  match b with
  | ⟨0, _⟩ =>
    show i.val = if a = 1 then 0 else i.val
    split_ifs with ha
    · have := i.isLt; omega
    · rfl

end Cert.Lib.PoolDeg
end
-- ==== Proof.RefFacts.lean ====
/-
  Two facts about the reference's index arithmetic and node factor.

  * The node factor. The reference counts, at each node, the edges whose target word lands there by scatter-adding ones
    into zeros, adds one, and takes the reciprocal square root: 1/√(c + 1) for a natural number c, a nonnegative real.
  * The target rows. In each of the three layers the reference reads the target word of an edge in two ways: raw, as
    the scatter's index (which lands on node n exactly when the word, read signed, is n), and, for the gather, with
    100000 added where the word is negative and then clamped into [0, 99999]. When the raw word lands on a node n it
    reads as n ≥ 0, so nothing is added to it, and n is already inside the clamp's range: the gather reads row n too.
-/
import proofs.«172819_j4715874091890_2_alg».proof.Proof.Gen.ReferenceIdeal.Read
import proofs.«172819_j4715874091890_2_alg».proof.Proof.LibPoolDeg

noncomputable section
namespace Cert.ReferenceIdeal.Facts
open Idealize.ShloMosaic Idealize.ShloMosaic.ValueIdx Cert.ReferenceIdeal Cert.ReferenceIdeal.Read Cert.Lib.RowGatherScatter

/-- The shared step of the three layers, for any index vector v, any comparison operand z that is the zero word at e and
    any addend k: if the column of v reads, signed, as a row number n at (e, 0), then the column of the wrapped vector
    select (v < z) (v + k) v has n as its clamped source row at (e, 0). -/
theorem land_of_wrap {E N : ℕ} (hN : 0 < N) (hb : (⟨1, ![E]⟩ : Shape).BroadcastsInDim ⟨2, ![E, 1]⟩ ![0])
    (v z k : IVec ⟨1, ![E]⟩ 32) (e : Fin E) (n : Fin N) (hz : z (ix1 e) = 0#32)
    (h : (broadcastInDim ⟨2, ![E, 1]⟩ ![0] hb v (ix2 e (0 : Fin 1))).toInt = (n.val : ℤ)) :
    srcRow N hN (broadcastInDim ⟨2, ![E, 1]⟩ ![0] hb (select (cmpi .slt v z) (addi v k) v) (ix2 e (0 : Fin 1))) = n := by
  -- both columns read the vectors at e
  rw [Cert.Lib.PoolDeg.bcast_a_a1_apply] at h
  rw [Cert.Lib.PoolDeg.bcast_a_a1_apply]
  -- the word reads n ≥ 0, so the wrap leaves it alone
  rw [Cert.Lib.PoolDeg.wrap_of_nonneg v z k (ix1 e) hz (by rw [h]; exact Int.natCast_nonneg _)]
  exact Cert.Lib.PoolDeg.srcRow_of_toInt_eq hN _ n h

variable (x1 : (⟨S2x3200000, .i32⟩ : BufTy).Contents (Elt Ideal))

/-- The node factor rsqrt(deg + 1) of the reference is a nonnegative real at every node. -/
theorem dinv_real (n : Fin 100000) : ∃ r : ℝ, 0 ≤ r ∧ val_main_v10 (F := Ideal) x1 (ix1 n) = (r : EReal) := by
  unfold val_main_v10 val_main_v9 val_main_v7 val_main_v5 val_main_v4 val_main_v8 val_main_cst val_main_cst_0 val_main_cst_1
  exact Cert.Lib.PoolDeg.rsqrt_count_real _ _ _ _ _ (ix1 n)

/-- Layer 1: an edge whose target word lands on node n has n as the row its (wrapped, clamped) target index reads. -/
theorem land1 (e : Fin 3200000) (n : Fin 100000)
    (h : (val_main_v38 (F := Ideal) x1 (ix2 e (0 : Fin 1))).toInt = (n.val : ℤ)) :
    srcRow 100000 (by norm_num) (val_main_v24 (F := Ideal) x1 (ix2 e (0 : Fin 1))) = n := by
  unfold val_main_v38 at h
  unfold val_main_v24 val_main_v23 val_main_v20 val_main_v22
  exact land_of_wrap _ _ _ (val_main_v19 (F := Ideal)) _ e n rfl h

/-- Layer 2, the same. -/
theorem land2 (e : Fin 3200000) (n : Fin 100000)
    (h : (val_main_v76 (F := Ideal) x1 (ix2 e (0 : Fin 1))).toInt = (n.val : ℤ)) :
    srcRow 100000 (by norm_num) (val_main_v62 (F := Ideal) x1 (ix2 e (0 : Fin 1))) = n := by
  unfold val_main_v76 at h
  unfold val_main_v62 val_main_v61 val_main_v58 val_main_v60
  exact land_of_wrap _ _ _ (val_main_v57 (F := Ideal)) _ e n rfl h

/-- Layer 3, the same. -/
theorem land3 (e : Fin 3200000) (n : Fin 100000)
    (h : (val_main_v114 (F := Ideal) x1 (ix2 e (0 : Fin 1))).toInt = (n.val : ℤ)) :
    srcRow 100000 (by norm_num) (val_main_v100 (F := Ideal) x1 (ix2 e (0 : Fin 1))) = n := by
  unfold val_main_v114 at h
  unfold val_main_v100 val_main_v99 val_main_v96 val_main_v98
  exact land_of_wrap _ _ _ (val_main_v95 (F := Ideal)) _ e n rfl h

end Cert.ReferenceIdeal.Facts
end
-- ==== Proof.BridgeLayers.lean ====
/-
  The three graph-convolution layers, the kernel's way and the reference's way, joined entry by entry.

  Both programs read the same source and target columns off the edge list and the same node factor
  c(n) = (1 + number of edges landing on n)^(-1/2), a real that is not negative. The reference carries the unscaled
  features h of a layer and forms  Σ_{e → n} h(s e, q)·(c(s e)·c(n)) + h(n, q)·c(n)² + b(q);  the kernel carries the
  features with their rows already scaled, hs(n, q) = h(n, q)·c(n), and forms  c(n)·(Σ_{e → n} hs(s e, q) + hs(n, q)) + b(q).
  Because c(n) is a nonnegative real it distributes over the sums, so the two agree whenever hs = h·c row by row (the layer
  law). Both clip at zero, project by the next weights, and the kernel scales the rows by c(n) again: the next layer's
  kernel features are again the reference's times c(n). Starting from the first projection (x·W1 with rows scaled by c),
  this invariant passes through layers 1 and 2, and at layer 3, which is not clipped, the layer law gives the equality of
  the two outputs before pooling.

  In each layer the reference recomputes the wrapped source column and the target columns under new names; they are the
  same expressions, so each of its layers is one layer form over the same three columns.
-/
import proofs.«172819_j4715874091890_2_alg».proof.Proof.Gen.ReferenceIdeal.Read
import proofs.«172819_j4715874091890_2_alg».proof.Proof.KValue
import proofs.«172819_j4715874091890_2_alg».proof.Proof.LibGcnSteps
import proofs.«172819_j4715874091890_2_alg».proof.Proof.LibPoolDeg
import proofs.«172819_j4715874091890_2_alg».proof.Proof.RefFacts

set_option maxRecDepth 16384
noncomputable section
namespace Cert.Bridge.Layers
open Idealize.ShloMosaic Idealize.ShloMosaic.ValueIdx Cert.KernelIdeal Cert.ReferenceIdeal.Read

variable (x0 : (⟨Cert.KernelIdeal.S100000x128, .f32⟩ : BufTy).Contents (Elt Ideal)) (x1 : (⟨Cert.KernelIdeal.S2x3200000, .i32⟩ : BufTy).Contents (Elt Ideal)) (x3 : (⟨Cert.KernelIdeal.S128x16, .f32⟩ : BufTy).Contents (Elt Ideal)) (x4 : (⟨Cert.KernelIdeal.S16, .f32⟩ : BufTy).Contents (Elt Ideal)) (x5 : (⟨Cert.KernelIdeal.S16x64, .f32⟩ : BufTy).Contents (Elt Ideal)) (x6 : (⟨Cert.KernelIdeal.S64, .f32⟩ : BufTy).Contents (Elt Ideal)) (x7 : (⟨Cert.KernelIdeal.S64x32, .f32⟩ : BufTy).Contents (Elt Ideal)) (x8 : (⟨Cert.KernelIdeal.S32, .f32⟩ : BufTy).Contents (Elt Ideal))

/-! ## The index columns and the node factor are the same stages in both programs -/

/-- The node factor: both programs scatter-add ones along the target words into zeros, add one and take the reciprocal
    square root. -/
theorem dinv_eq : KV.dinv x1 = val_main_v10 (F := Ideal) x1 := by
  unfold KV.dinv KV.dstc KV.dstw val_main_v10 val_main_v9 val_main_v8 val_main_v7 val_main_v6 val_main_v5 val_main_v4 val_main_v3 val_main_v2
    val_main_cst val_main_cst_0 val_main_cst_1
  rfl

/-- The source words, a negative word wrapped by the node count, as a column. -/
theorem srcn_eq : KV.srcn x1 = val_main_v17 (F := Ideal) x1 := by
  unfold KV.srcn KV.srcw val_main_v17 val_main_v16 val_main_v15 val_main_v14 val_main_v13 val_main_v12 val_main_v1 val_main_v0
    val_main_c val_main_c_2
  rfl

/-- The target words as a column. -/
theorem dstc_eq : KV.dstc x1 = val_main_v38 (F := Ideal) x1 := by
  unfold KV.dstc KV.dstw val_main_v38 val_main_v3 val_main_v2
  rfl

/-- The node factor column at (n, 0) is the node factor at n. -/
theorem dcol_apply (n : Fin 100000) : KV.dcol x1 (ix2 n (0 : Fin 1)) = val_main_v10 (F := Ideal) x1 (ix1 n) := by
  unfold KV.dcol
  exact (Cert.LibColumn.shapeCast_a_a1_apply (KV.dinv x1) _ n 0).trans (congrFun (dinv_eq x1) (ix1 n))

/-! ## The edge sums of the scaled features, per width -/

theorem agg16_eq (f : FVec Ideal Cert.KernelIdeal.S100000x16 .f32) :
    KV.agg16 f x1 = Cert.Lib.GcnLayer.aggK (N := 100000) (E := 3200000) (D := 16)
        Cert.ReferenceIdeal.scatter_S100000x16_S3200000x1_S3200000x16_1_0_0_1.wf
        Cert.ReferenceIdeal.gather_S100000x16_S3200000x1_S3200000x16_1_0_n_n_0_1_116.wf
        Cert.ReferenceIdeal.Facts₀.bcast_S_S100000x16 f (val_main_v38 (F := Ideal) x1) (val_main_v17 (F := Ideal) x1) := by
  rw [← dstc_eq, ← srcn_eq]
  unfold KV.agg16 Cert.Lib.GcnLayer.aggK
  rfl

theorem agg64_eq (f : FVec Ideal Cert.KernelIdeal.S100000x64 .f32) :
    KV.agg64 f x1 = Cert.Lib.GcnLayer.aggK (N := 100000) (E := 3200000) (D := 64)
        Cert.ReferenceIdeal.scatter_S100000x64_S3200000x1_S3200000x64_1_0_0_1.wf
        Cert.ReferenceIdeal.gather_S100000x64_S3200000x1_S3200000x64_1_0_n_n_0_1_164.wf
        Cert.ReferenceIdeal.Facts₀.bcast_S_S100000x64 f (val_main_v38 (F := Ideal) x1) (val_main_v17 (F := Ideal) x1) := by
  rw [← dstc_eq, ← srcn_eq]
  unfold KV.agg64 Cert.Lib.GcnLayer.aggK
  rfl

theorem agg32_eq (f : FVec Ideal Cert.KernelIdeal.S100000x32 .f32) :
    KV.agg32 f x1 = Cert.Lib.GcnLayer.aggK (N := 100000) (E := 3200000) (D := 32)
        Cert.ReferenceIdeal.scatter_S100000x32_S3200000x1_S3200000x32_1_0_0_1.wf
        Cert.ReferenceIdeal.gather_S100000x32_S3200000x1_S3200000x32_1_0_n_n_0_1_132.wf
        Cert.ReferenceIdeal.Facts₀.bcast_S_S100000x32 f (val_main_v38 (F := Ideal) x1) (val_main_v17 (F := Ideal) x1) := by
  rw [← dstc_eq, ← srcn_eq]
  unfold KV.agg32 Cert.Lib.GcnLayer.aggK
  rfl

/-! ## The reference's layers before the clip, each as the one layer form

  In each layer the reference recomputes the wrapped source column and the two target columns under new names; they are
  the same expressions, so every layer is the layer form over the first layer's three columns. -/

theorem v47_eq : val_main_v47 (F := Ideal) x0 x1 x3 x4
    = Cert.Lib.GcnLayer.layerR (N := 100000) (E := 3200000) (D := 16)
        Cert.ReferenceIdeal.scatter_S100000x16_S3200000x1_S3200000x16_1_0_0_1.wf
        Cert.ReferenceIdeal.gather_S100000x16_S3200000x1_S3200000x16_1_0_n_n_0_1_116.wf
        Cert.ReferenceIdeal.gather_S100000_S3200000x1_S3200000_n_0_n_n_0_1_1.wf
        Cert.ReferenceIdeal.Facts₀.bcast_S_S100000x16 Cert.ReferenceIdeal.Facts₀.bcast_S3200000_S3200000x1_0
        Cert.ReferenceIdeal.Facts₀.bcast_S3200000x1_S3200000x16_0_1 Cert.ReferenceIdeal.Facts₀.bcast_S100000_S100000x1_0
        Cert.ReferenceIdeal.Facts₀.bcast_S100000x1_S100000x16_0_1 Cert.ReferenceIdeal.Facts₀.bcast_S16_S1x16_1
        Cert.ReferenceIdeal.Facts₀.bcast_S1x16_S100000x16_0_1
        (val_main_v11 (F := Ideal) x0 x3) (val_main_v10 (F := Ideal) x1) (val_main_v38 (F := Ideal) x1) (val_main_v17 (F := Ideal) x1) (val_main_v24 (F := Ideal) x1) x4 := by
  unfold val_main_v47 val_main_v46 val_main_v45 val_main_v44 val_main_v43 val_main_v42 val_main_v41 val_main_v40 val_main_v39
    val_main_v37 val_main_v36 val_main_v35 val_main_v34 val_main_v33 val_main_v26 val_main_v25 val_main_v18 val_main_cst_7
    Cert.Lib.GcnLayer.layerR
  rfl

theorem v85_eq : val_main_v85 (F := Ideal) x0 x1 x3 x4 x5 x6
    = Cert.Lib.GcnLayer.layerR (N := 100000) (E := 3200000) (D := 64)
        Cert.ReferenceIdeal.scatter_S100000x64_S3200000x1_S3200000x64_1_0_0_1.wf
        Cert.ReferenceIdeal.gather_S100000x64_S3200000x1_S3200000x64_1_0_n_n_0_1_164.wf
        Cert.ReferenceIdeal.gather_S100000_S3200000x1_S3200000_n_0_n_n_0_1_1.wf
        Cert.ReferenceIdeal.Facts₀.bcast_S_S100000x64 Cert.ReferenceIdeal.Facts₀.bcast_S3200000_S3200000x1_0
        Cert.ReferenceIdeal.Facts₀.bcast_S3200000x1_S3200000x64_0_1 Cert.ReferenceIdeal.Facts₀.bcast_S100000_S100000x1_0
        Cert.ReferenceIdeal.Facts₀.bcast_S100000x1_S100000x64_0_1 Cert.ReferenceIdeal.Facts₀.bcast_S64_S1x64_1
        Cert.ReferenceIdeal.Facts₀.bcast_S1x64_S100000x64_0_1
        (val_main_v49 (F := Ideal) x0 x1 x3 x4 x5) (val_main_v10 (F := Ideal) x1) (val_main_v38 (F := Ideal) x1) (val_main_v17 (F := Ideal) x1) (val_main_v24 (F := Ideal) x1) x6 := by
  unfold val_main_v85 val_main_v84 val_main_v83 val_main_v82 val_main_v81 val_main_v80 val_main_v79 val_main_v78 val_main_v77
    val_main_v75 val_main_v74 val_main_v73 val_main_v72 val_main_v71 val_main_v64 val_main_v63 val_main_v56 val_main_cst_14
    Cert.Lib.GcnLayer.layerR
  rfl

theorem v123_eq : val_main_v123 (F := Ideal) x0 x1 x3 x4 x5 x6 x7 x8
    = Cert.Lib.GcnLayer.layerR (N := 100000) (E := 3200000) (D := 32)
        Cert.ReferenceIdeal.scatter_S100000x32_S3200000x1_S3200000x32_1_0_0_1.wf
        Cert.ReferenceIdeal.gather_S100000x32_S3200000x1_S3200000x32_1_0_n_n_0_1_132.wf
        Cert.ReferenceIdeal.gather_S100000_S3200000x1_S3200000_n_0_n_n_0_1_1.wf
        Cert.ReferenceIdeal.Facts₀.bcast_S_S100000x32 Cert.ReferenceIdeal.Facts₀.bcast_S3200000_S3200000x1_0
        Cert.ReferenceIdeal.Facts₀.bcast_S3200000x1_S3200000x32_0_1 Cert.ReferenceIdeal.Facts₀.bcast_S100000_S100000x1_0
        Cert.ReferenceIdeal.Facts₀.bcast_S100000x1_S100000x32_0_1 Cert.ReferenceIdeal.Facts₀.bcast_S32_S1x32_1
        Cert.ReferenceIdeal.Facts₀.bcast_S1x32_S100000x32_0_1
        (val_main_v87 (F := Ideal) x0 x1 x3 x4 x5 x6 x7) (val_main_v10 (F := Ideal) x1) (val_main_v38 (F := Ideal) x1) (val_main_v17 (F := Ideal) x1) (val_main_v24 (F := Ideal) x1) x8 := by
  unfold val_main_v123 val_main_v122 val_main_v121 val_main_v120 val_main_v119 val_main_v118 val_main_v117 val_main_v116 val_main_v115
    val_main_v113 val_main_v112 val_main_v111 val_main_v110 val_main_v109 val_main_v102 val_main_v101 val_main_v94 val_main_cst_21
    Cert.Lib.GcnLayer.layerR
  rfl

/-! ## Layer by layer: the kernel's scaled features are the reference's features times the node factor -/

/-- Layer 1's projection. -/
theorem hs1_eq (n : Fin 100000) (q : Fin 16) :
    KV.hs1 x0 x1 x3 (ix2 n q) = val_main_v11 (F := Ideal) x0 x3 (ix2 n q) * val_main_v10 (F := Ideal) x1 (ix1 n) := by
  unfold KV.hs1 val_main_v11
  exact Cert.Lib.GcnSteps.first_eq Cert.ReferenceIdeal.dot_S100000x128_S128x16_S100000x16_1_0_0_1_n_n rfl x0 x3 (val_main_v10 (F := Ideal) x1) (KV.dcol x1)
    (dcol_apply x1) n q

/-- Layer 1 finished and layer 2's projection. -/
theorem nl16_eq (n : Fin 100000) (q : Fin 64) :
    KV.nl16 (KV.hs1 x0 x1 x3) x1 x4 x5 (ix2 n q)
      = val_main_v49 (F := Ideal) x0 x1 x3 x4 x5 (ix2 n q) * val_main_v10 (F := Ideal) x1 (ix1 n) := by
  have h := Cert.Lib.GcnSteps.next_eq (K := 64) (by norm_num : 0 < 100000)         Cert.ReferenceIdeal.scatter_S100000x16_S3200000x1_S3200000x16_1_0_0_1.wf
        Cert.ReferenceIdeal.gather_S100000x16_S3200000x1_S3200000x16_1_0_n_n_0_1_116.wf
        Cert.ReferenceIdeal.gather_S100000_S3200000x1_S3200000_n_0_n_n_0_1_1.wf
        Cert.ReferenceIdeal.Facts₀.bcast_S_S100000x16 Cert.ReferenceIdeal.Facts₀.bcast_S3200000_S3200000x1_0
        Cert.ReferenceIdeal.Facts₀.bcast_S3200000x1_S3200000x16_0_1 Cert.ReferenceIdeal.Facts₀.bcast_S100000_S100000x1_0
        Cert.ReferenceIdeal.Facts₀.bcast_S100000x1_S100000x16_0_1 Cert.ReferenceIdeal.Facts₀.bcast_S16_S1x16_1
        Cert.ReferenceIdeal.Facts₀.bcast_S1x16_S100000x16_0_1
        Cert.ReferenceIdeal.Facts₀.bcast_S_S100000x16
        Cert.ReferenceIdeal.dot_S100000x16_S16x64_S100000x64_1_0_0_1_n_n rfl
        (val_main_v11 (F := Ideal) x0 x3) (KV.hs1 x0 x1 x3) (val_main_v10 (F := Ideal) x1) (KV.dcol x1)
        (shapeCast Cert.KernelIdeal.S1x16 x4 Cert.KernelIdeal.Facts₀.shapeCasts_S16_S1x16) x4 x5 (val_main_v38 (F := Ideal) x1) (val_main_v17 (F := Ideal) x1) (val_main_v24 (F := Ideal) x1)
        (Cert.ReferenceIdeal.Facts.dinv_real x1) (hs1_eq x0 x1 x3) (dcol_apply x1)
        (fun k => congrFun (Cert.Row.shapeCast_row x4 _) (ix2 (0 : Fin 1) k)) (Cert.ReferenceIdeal.Facts.land1 x1) n q
  rw [← agg16_eq, ← v47_eq] at h
  unfold KV.nl16 val_main_v49 val_main_v48 val_main_call0_v0 val_main_call0_cst
  exact h

/-- Layer 2 finished and layer 3's projection. -/
theorem nl64_eq (n : Fin 100000) (q : Fin 32) :
    KV.nl64 (KV.nl16 (KV.hs1 x0 x1 x3) x1 x4 x5) x1 x6 x7 (ix2 n q)
      = val_main_v87 (F := Ideal) x0 x1 x3 x4 x5 x6 x7 (ix2 n q) * val_main_v10 (F := Ideal) x1 (ix1 n) := by
  have h := Cert.Lib.GcnSteps.next_eq (K := 32) (by norm_num : 0 < 100000)         Cert.ReferenceIdeal.scatter_S100000x64_S3200000x1_S3200000x64_1_0_0_1.wf
        Cert.ReferenceIdeal.gather_S100000x64_S3200000x1_S3200000x64_1_0_n_n_0_1_164.wf
        Cert.ReferenceIdeal.gather_S100000_S3200000x1_S3200000_n_0_n_n_0_1_1.wf
        Cert.ReferenceIdeal.Facts₀.bcast_S_S100000x64 Cert.ReferenceIdeal.Facts₀.bcast_S3200000_S3200000x1_0
        Cert.ReferenceIdeal.Facts₀.bcast_S3200000x1_S3200000x64_0_1 Cert.ReferenceIdeal.Facts₀.bcast_S100000_S100000x1_0
        Cert.ReferenceIdeal.Facts₀.bcast_S100000x1_S100000x64_0_1 Cert.ReferenceIdeal.Facts₀.bcast_S64_S1x64_1
        Cert.ReferenceIdeal.Facts₀.bcast_S1x64_S100000x64_0_1
        Cert.ReferenceIdeal.Facts₀.bcast_S_S100000x64
        Cert.ReferenceIdeal.dot_S100000x64_S64x32_S100000x32_1_0_0_1_n_n rfl
        (val_main_v49 (F := Ideal) x0 x1 x3 x4 x5) (KV.nl16 (KV.hs1 x0 x1 x3) x1 x4 x5) (val_main_v10 (F := Ideal) x1) (KV.dcol x1)
        (shapeCast Cert.KernelIdeal.S1x64 x6 Cert.KernelIdeal.Facts₀.shapeCasts_S64_S1x64) x6 x7 (val_main_v38 (F := Ideal) x1) (val_main_v17 (F := Ideal) x1) (val_main_v24 (F := Ideal) x1)
        (Cert.ReferenceIdeal.Facts.dinv_real x1) (nl16_eq x0 x1 x3 x4 x5) (dcol_apply x1)
        (fun k => congrFun (Cert.Row.shapeCast_row x6 _) (ix2 (0 : Fin 1) k)) (Cert.ReferenceIdeal.Facts.land1 x1) n q
  rw [← agg64_eq, ← v85_eq] at h
  unfold KV.nl64 val_main_v87 val_main_v86 val_main_call1_v0 val_main_call1_cst
  exact h

/-- THE THREE LAYERS. Layer 3's output before pooling, computed the kernel's way from the kernel's scaled features, is the
    reference's layer 3 output, entry by entry. -/
theorem layer3_eq (n : Fin 100000) (q : Fin 32) :
    Cert.Gcn.combine (R := 100000) (K := 32)
        (KV.agg32 (KV.nl64 (KV.nl16 (KV.hs1 x0 x1 x3) x1 x4 x5) x1 x6 x7) x1)
        (KV.nl64 (KV.nl16 (KV.hs1 x0 x1 x3) x1 x4 x5) x1 x6 x7) (KV.dcol x1)
        (shapeCast Cert.KernelIdeal.S1x32 x8 Facts₀.shapeCasts_S32_S1x32) (ix2 n q)
      = val_main_v123 (F := Ideal) x0 x1 x3 x4 x5 x6 x7 x8 (ix2 n q) := by
  have h := Cert.Lib.GcnLayer.layer_eq (by norm_num : 0 < 100000)         Cert.ReferenceIdeal.scatter_S100000x32_S3200000x1_S3200000x32_1_0_0_1.wf
        Cert.ReferenceIdeal.gather_S100000x32_S3200000x1_S3200000x32_1_0_n_n_0_1_132.wf
        Cert.ReferenceIdeal.gather_S100000_S3200000x1_S3200000_n_0_n_n_0_1_1.wf
        Cert.ReferenceIdeal.Facts₀.bcast_S_S100000x32 Cert.ReferenceIdeal.Facts₀.bcast_S3200000_S3200000x1_0
        Cert.ReferenceIdeal.Facts₀.bcast_S3200000x1_S3200000x32_0_1 Cert.ReferenceIdeal.Facts₀.bcast_S100000_S100000x1_0
        Cert.ReferenceIdeal.Facts₀.bcast_S100000x1_S100000x32_0_1 Cert.ReferenceIdeal.Facts₀.bcast_S32_S1x32_1
        Cert.ReferenceIdeal.Facts₀.bcast_S1x32_S100000x32_0_1
        (val_main_v87 (F := Ideal) x0 x1 x3 x4 x5 x6 x7) (KV.nl64 (KV.nl16 (KV.hs1 x0 x1 x3) x1 x4 x5) x1 x6 x7) (val_main_v10 (F := Ideal) x1) (KV.dcol x1)
        (shapeCast Cert.KernelIdeal.S1x32 x8 Cert.KernelIdeal.Facts₀.shapeCasts_S32_S1x32) x8 (val_main_v38 (F := Ideal) x1) (val_main_v17 (F := Ideal) x1) (val_main_v24 (F := Ideal) x1)
        (Cert.ReferenceIdeal.Facts.dinv_real x1) (nl64_eq x0 x1 x3 x4 x5 x6 x7) (dcol_apply x1)
        (fun k => congrFun (Cert.Row.shapeCast_row x8 _) (ix2 (0 : Fin 1) k)) (Cert.ReferenceIdeal.Facts.land1 x1) n q
  rw [← agg32_eq, ← v123_eq] at h
  exact h

end Cert.Bridge.Layers
end
-- ==== Proof.BridgeTail.lean ====
/-
  Pooling and head: from the last layer's output to the result, the kernel's way and the reference's.

  Both programs end the same way. The last layer's output y(n, q) is summed per graph, s(g, q) = Σₙ [id(n) = g] · y(n, q);
  the kernel's value writes this sum with an indicator of the graph id word, the reference scatter-adds the rows of y
  into a zero array along the id words, and the two are the same sum (an id word equals the word of g exactly when it
  reads, signed, as g). The node counts of the graphs are the same scatter of ones in both programs. The head divides
  s(g, ·) by max(count(g), 1), applies a dense step clipped at zero, a second dense step and the hyperbolic tangent;
  entry by entry this is what the reference's whole-array quotient, products, maxima and spread bias rows compute.

  So if the last layer's outputs agree entry by entry, the results agree.
-/
import proofs.«172819_j4715874091890_2_alg».proof.Proof.Gen.ReferenceIdeal.Read
import proofs.«172819_j4715874091890_2_alg».proof.Proof.KValue
import proofs.«172819_j4715874091890_2_alg».proof.Proof.LibGcnSteps
import proofs.«172819_j4715874091890_2_alg».proof.Proof.LibPoolDeg
import proofs.«172819_j4715874091890_2_alg».proof.Proof.RefFacts
import proofs.«172819_j4715874091890_2_alg».proof.Proof.LibColumn
import proofs.«172819_j4715874091890_2_alg».proof.Proof.LibBiasRow

set_option maxRecDepth 16384
noncomputable section
namespace Cert.Bridge.Tail
open Idealize.ShloMosaic Idealize.ShloMosaic.ValueIdx Cert.KernelIdeal Cert.ReferenceIdeal.Read

variable (x0 : (⟨Cert.KernelIdeal.S100000x128, .f32⟩ : BufTy).Contents (Elt Ideal)) (x1 : (⟨Cert.KernelIdeal.S2x3200000, .i32⟩ : BufTy).Contents (Elt Ideal)) (x2 : (⟨Cert.KernelIdeal.S100000, .i32⟩ : BufTy).Contents (Elt Ideal)) (x3 : (⟨Cert.KernelIdeal.S128x16, .f32⟩ : BufTy).Contents (Elt Ideal)) (x4 : (⟨Cert.KernelIdeal.S16, .f32⟩ : BufTy).Contents (Elt Ideal)) (x5 : (⟨Cert.KernelIdeal.S16x64, .f32⟩ : BufTy).Contents (Elt Ideal)) (x6 : (⟨Cert.KernelIdeal.S64, .f32⟩ : BufTy).Contents (Elt Ideal)) (x7 : (⟨Cert.KernelIdeal.S64x32, .f32⟩ : BufTy).Contents (Elt Ideal)) (x8 : (⟨Cert.KernelIdeal.S32, .f32⟩ : BufTy).Contents (Elt Ideal)) (x9 : (⟨Cert.KernelIdeal.S32x64, .f32⟩ : BufTy).Contents (Elt Ideal)) (x10 : (⟨Cert.KernelIdeal.S64, .f32⟩ : BufTy).Contents (Elt Ideal)) (x11 : (⟨Cert.KernelIdeal.S64x32, .f32⟩ : BufTy).Contents (Elt Ideal)) (x12 : (⟨Cert.KernelIdeal.S32, .f32⟩ : BufTy).Contents (Elt Ideal))

/-- The per-graph sums read at `(g, q)` depend only on the entries of the summed array and on the id words. -/
theorem poolSum_congr {M G D : ℕ} (y y' : FVec Ideal ⟨2, ![M, D]⟩ .f32) (b b' : IVec ⟨2, ![M, 1]⟩ 32)
    (hy : ∀ (n : Fin M) (q : Fin D), y (ix2 n q) = y' (ix2 n q))
    (hb : ∀ n : Fin M, b (ix2 n (0 : Fin 1)) = b' (ix2 n (0 : Fin 1))) (g : Fin G) (q : Fin D) :
    Cert.Gcn.poolSum y b (ix2 g q) = Cert.Gcn.poolSum y' b' (ix2 g q) := by
  rw [Cert.Gcn.poolSum_apply, Cert.Gcn.poolSum_apply]
  exact Finset.sum_congr rfl (fun n _ => by rw [hy, hb])

/-- The reference's dimension numbers for the per-graph sums are those of a row scatter into a [64, 32] array. -/
theorem scatter_sums_rec :
    Cert.ReferenceIdeal.scatter_S64x32_S100000x1_S100000x32_1_0_0_1
      = Cert.Lib.RowGatherScatter.rowScatter 64 100000 32
          Cert.ReferenceIdeal.Facts₀.scatter_S64x32_S100000x1_S100000x32_1_0_0_1_wf := rfl

/-- The two programs count the nodes of a graph with the same dimension numbers. -/
theorem scatter_cnt_rec :
    Cert.KernelIdeal.scatter_S64_S100000x1_S100000_n_0_0_1 = Cert.ReferenceIdeal.scatter_S64_S100000x1_S100000_n_0_0_1 := rfl

/-- The kernel's column of graph id words (a reshape) and the reference's (a broadcast) read the same word at node n. -/
theorem bcol_ref (n : Fin 100000) :
    KV.bcol x2 (ix2 n (0 : Fin 1)) = val_main_v125 (F := Ideal) x2 (ix2 n (0 : Fin 1)) := by
  unfold KV.bcol val_main_v125
  rw [Cert.LibColumn.shapeCast_a_a1_apply, Cert.Lib.PoolDeg.bcast_a_a1_apply]

/-- THE PER-GRAPH SUMS. If the last layer's outputs agree entry by entry, the kernel's indicator sums are the
    reference's scatter-add of the rows into zeros. -/
theorem pool_ref (f : FVec Ideal Cert.KernelIdeal.S100000x32 .f32)
    (hf : ∀ (n : Fin 100000) (q : Fin 32),
      Cert.Gcn.combine (R := 100000) (K := 32) (KV.agg32 f x1) f (KV.dcol x1)
          (shapeCast Cert.KernelIdeal.S1x32 x8 Facts₀.shapeCasts_S32_S1x32) (ix2 n q)
        = val_main_v123 (F := Ideal) x0 x1 x3 x4 x5 x6 x7 x8 (ix2 n q)) :
    KV.pool f x1 x2 x8 = val_main_v126 (F := Ideal) x0 x1 x2 x3 x4 x5 x6 x7 x8 := by
  funext i
  obtain ⟨g, q, rfl⟩ : ∃ (g : Fin 64) (q : Fin 32), i = ix2 g q := ⟨i 0, i 1, eq_ix2 i⟩
  unfold KV.pool
  refine (poolSum_congr _ (val_main_v123 (F := Ideal) x0 x1 x3 x4 x5 x6 x7 x8) _ (val_main_v125 (F := Ideal) x2)
    hf (bcol_ref x2) g q).trans ?_
  refine (Cert.Lib.PoolDeg.pool_eq Cert.ReferenceIdeal.Facts₀.scatter_S64x32_S100000x1_S100000x32_1_0_0_1_wf
    Cert.ReferenceIdeal.Facts₀.bcast_S_S64x32 (by norm_num) _ _ g q).trans ?_
  unfold val_main_v126 val_main_v124 val_main_cst_22
  rw [scatter_sums_rec]

/-- THE NODE COUNTS. Both programs scatter-add ones into zeros along the graph id words. -/
theorem cnt_ref : KV.cnt x2 = val_main_v130 (F := Ideal) x2 := by
  unfold KV.cnt val_main_v130 val_main_v128 val_main_v129 val_main_v127 val_main_cst_23 val_main_cst_24
  rw [scatter_cnt_rec]

/-- POOLING AND HEAD. If the kernel's layer 3 output (from scaled features f) is the reference's entry by entry, then
    the kernel's per-graph sums and head give the reference's result. -/
theorem tail_eq (f : FVec Ideal Cert.KernelIdeal.S100000x32 .f32)
    (hf : ∀ (n : Fin 100000) (q : Fin 32),
      Cert.Gcn.combine (R := 100000) (K := 32) (KV.agg32 f x1) f (KV.dcol x1)
          (shapeCast Cert.KernelIdeal.S1x32 x8 Facts₀.shapeCasts_S32_S1x32) (ix2 n q)
        = val_main_v123 (F := Ideal) x0 x1 x3 x4 x5 x6 x7 x8 (ix2 n q)) :
    KV.headOf (KV.pool f x1 x2 x8) x2 x9 x10 x11 x12
      = val_main_v145 (F := Ideal) x0 x1 x2 x3 x4 x5 x6 x7 x8 x9 x10 x11 x12 := by
  unfold KV.headOf
  rw [pool_ref x0 x1 x2 x3 x4 x5 x6 x7 x8 f hf]
  -- the kernel's count column and bias rows are the count vector and the bias vectors
  have hcnt : ∀ g : Fin 64, KV.cntcol x2 (ix2 g (0 : Fin 1)) = val_main_v130 (F := Ideal) x2 (ix1 g) := by
    intro g
    unfold KV.cntcol
    rw [Cert.LibColumn.shapeCast_a_a1_apply, cnt_ref]
  have hba : ∀ j : Fin 64, shapeCast Cert.KernelIdeal.S1x64 x10 Facts₀.shapeCasts_S64_S1x64 (ix2 (0 : Fin 1) j) = x10 (ix1 j) := by
    intro j
    rw [Cert.Row.shapeCast_row]
    rfl
  have hbo : ∀ j : Fin 32, shapeCast Cert.KernelIdeal.S1x32 x12 Facts₀.shapeCasts_S32_S1x32 (ix2 (0 : Fin 1) j) = x12 (ix1 j) := by
    intro j
    rw [Cert.Row.shapeCast_row]
    rfl
  refine (Cert.Lib.GcnSteps.head_eq
    Cert.ReferenceIdeal.dot_S64x32_S32x64_S64x64_1_0_0_1_n_n rfl
    Cert.ReferenceIdeal.dot_S64x64_S64x32_S64x32_1_0_0_1_n_n rfl
    (val_main_v126 (F := Ideal) x0 x1 x2 x3 x4 x5 x6 x7 x8) (val_main_v130 (F := Ideal) x2) x9 x10 x11 x12
    (KV.cntcol x2) hcnt _ hba _ hbo
    Cert.ReferenceIdeal.Facts₀.bcast_S_S64 Cert.ReferenceIdeal.Facts₀.bcast_S64_S64x1_0
    Cert.ReferenceIdeal.Facts₀.bcast_S64x1_S64x32_0_1 Cert.ReferenceIdeal.Facts₀.bcast_S64_S1x64_1
    Cert.ReferenceIdeal.Facts₀.bcast_S1x64_S64x64_0_1 Cert.ReferenceIdeal.Facts₀.bcast_S_S64x64
    Cert.ReferenceIdeal.Facts₀.bcast_S32_S1x32_1 Cert.ReferenceIdeal.Facts₀.bcast_S1x32_S64x32_0_1).trans ?_
  -- the reference's stages, opened down to the per-graph sums and the node counts
  unfold val_main_v145 val_main_v144 val_main_v143 val_main_v142 val_main_v141 val_main_v140 val_main_call2_v0
    val_main_call2_cst val_main_v139 val_main_v138 val_main_v137 val_main_v136 val_main_v135 val_main_v134 val_main_v133
    val_main_v132 val_main_v131 val_main_cst_25
  generalize val_main_v126 (F := Ideal) x0 x1 x2 x3 x4 x5 x6 x7 x8 = s
  generalize val_main_v130 (F := Ideal) x2 = c
  rfl

end Cert.Bridge.Tail
end
-- ==== Proof.Bridge.lean ====
/-
  The idealized kernel and the idealized reference compute one function of their arguments.

  The kernel folds the node factor dinv into the node features once (scaled features hs = h·dinv, row by row), sums the
  scaled rows over the incoming edges, and finishes each layer as dinv·(edge sum + hs) + bias; the reference forms a
  per-edge coefficient dinv[src]·dinv[dst], sums h[src]·coefficient over the incoming edges and adds the self term
  h·dinv² and the bias. Because dinv is a nonnegative real it distributes over sums of extended reals, so the two layers
  agree entry by entry (three times), the per-graph sums agree (an indicator product against a scatter-add along the
  graph ids), and the head is the same arithmetic on both sides.
-/
import proofs.«172819_j4715874091890_2_alg».proof.Proof.BridgeLayers
import proofs.«172819_j4715874091890_2_alg».proof.Proof.BridgeTail

noncomputable section

namespace Cert.Bridge

open Idealize.ShloMosaic Cert.KernelIdeal Cert.ReferenceIdeal.Read

/-- The kernel's composed stage function is the reference's composed term, for any argument arrays. -/
theorem out_eq (x0 : (⟨Cert.KernelIdeal.S100000x128, .f32⟩ : BufTy).Contents (Elt Ideal)) (x1 : (⟨Cert.KernelIdeal.S2x3200000, .i32⟩ : BufTy).Contents (Elt Ideal)) (x2 : (⟨Cert.KernelIdeal.S100000, .i32⟩ : BufTy).Contents (Elt Ideal)) (x3 : (⟨Cert.KernelIdeal.S128x16, .f32⟩ : BufTy).Contents (Elt Ideal)) (x4 : (⟨Cert.KernelIdeal.S16, .f32⟩ : BufTy).Contents (Elt Ideal)) (x5 : (⟨Cert.KernelIdeal.S16x64, .f32⟩ : BufTy).Contents (Elt Ideal)) (x6 : (⟨Cert.KernelIdeal.S64, .f32⟩ : BufTy).Contents (Elt Ideal)) (x7 : (⟨Cert.KernelIdeal.S64x32, .f32⟩ : BufTy).Contents (Elt Ideal)) (x8 : (⟨Cert.KernelIdeal.S32, .f32⟩ : BufTy).Contents (Elt Ideal)) (x9 : (⟨Cert.KernelIdeal.S32x64, .f32⟩ : BufTy).Contents (Elt Ideal)) (x10 : (⟨Cert.KernelIdeal.S64, .f32⟩ : BufTy).Contents (Elt Ideal)) (x11 : (⟨Cert.KernelIdeal.S64x32, .f32⟩ : BufTy).Contents (Elt Ideal)) (x12 : (⟨Cert.KernelIdeal.S32, .f32⟩ : BufTy).Contents (Elt Ideal)) :
    KV.out x0 x1 x2 x3 x4 x5 x6 x7 x8 x9 x10 x11 x12
      = val_main_v145 (F := Ideal) x0 x1 x2 x3 x4 x5 x6 x7 x8 x9 x10 x11 x12 :=
  Tail.tail_eq x0 x1 x2 x3 x4 x5 x6 x7 x8 x9 x10 x11 x12 _ (Layers.layer3_eq x0 x1 x3 x4 x5 x6 x7 x8)

end Cert.Bridge

end
-- ==== Proof.lean ====
/-
  The certificate of this kernel: a three-layer graph convolution network (128 → 16 → 64 → 32 features over 100000
  nodes and 3200000 edges), mean-pooled over 64 graphs, with a two-layer head and a hyperbolic tangent, as five kernel
  regions among host gathers and scatter-adds, against the plain reference.

  The three frames are the programs' runs. The ideal pass rewrote nothing, so the idealization is the program's own text
  read over the extended reals. For the value claim: each region's output array is a closed form of its input arrays
  (a row-blocked dense step; the pooled sums accumulated over the row blocks; the head in one block); reading the result
  buffer back through the program composes them into one function of the arguments; the reference's run is its
  operations' composed term; and the two are one function, by the layer law (a nonnegative real node factor distributes
  over the edge sum), the pooling identity and the head's arithmetic.
-/
import proofs.«172819_j4715874091890_2_alg».proof.Defs
import proofs.«172819_j4715874091890_2_alg».proof.Proof.Gen.Kernel
import proofs.«172819_j4715874091890_2_alg».proof.Proof.Gen.Kernel.Skeleton
import proofs.«172819_j4715874091890_2_alg».proof.Proof.Gen.Kernel.Launch
import proofs.«172819_j4715874091890_2_alg».proof.Proof.Gen.Kernel.Points
import proofs.«172819_j4715874091890_2_alg».proof.Proof.Gen.Kernel.Frame
import proofs.«172819_j4715874091890_2_alg».proof.Proof.Gen.KernelIdeal
import proofs.«172819_j4715874091890_2_alg».proof.Proof.Gen.KernelIdeal.Skeleton
import proofs.«172819_j4715874091890_2_alg».proof.Proof.Gen.KernelIdeal.Launch
import proofs.«172819_j4715874091890_2_alg».proof.Proof.Gen.KernelIdeal.Points
import proofs.«172819_j4715874091890_2_alg».proof.Proof.Gen.KernelIdeal.Frame
import proofs.«172819_j4715874091890_2_alg».proof.Proof.Gen.ReferenceIdeal
import proofs.«172819_j4715874091890_2_alg».proof.Proof.Gen.Pre_finite_inputs
import proofs.«172819_j4715874091890_2_alg».proof.Proof.Gen.ReferenceIdeal.Run
import proofs.«172819_j4715874091890_2_alg».proof.Proof.Gen.ReferenceIdeal.Read
import proofs.«172819_j4715874091890_2_alg».proof.Proof.Run
import proofs.«172819_j4715874091890_2_alg».proof.Proof.Chain
import proofs.«172819_j4715874091890_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- Over the extended reals both programs end with the same result: the kernel's is the composed stage function of its
    arguments (the five regions' closed forms read through the program), the reference's its operations' composed term,
    and the two are one function of arguments that agree. -/
theorem algebraic : Cert.algebraic_KernelIdeal_ReferenceIdeal := by
  intro m ρ m' ρ' _ hagree
  refine ⟨fun c => Cert.KernelIdeal.KV.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result m ρ c), (h c).2⟩)
      (Cert.KernelIdeal.ValueRun.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v145_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.Bridge.out_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
